-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_v72) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x16 : Shape := ⟨2, ![65536, 16]⟩
abbrev S65536x256 : Shape := ⟨2, ![65536, 256]⟩
abbrev S65536x1024 : Shape := ⟨2, ![65536, 1024]⟩
abbrev S80x256 : Shape := ⟨2, ![80, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S256x128 : Shape := ⟨2, ![256, 128]⟩
abbrev S128 : Shape := ⟨1, ![128]⟩
abbrev S1280x256 : Shape := ⟨2, ![1280, 256]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_
  bcast_S_S65536x256 : S_.BroadcastsInDim S65536x256 (![] : Fin 0 → Fin S65536x256.rank)
  reducesTo_S65536x256_S_d0_1 : S65536x256.ReducesTo [0, 1] S_
  bcast_S_S65536x1024 : S_.BroadcastsInDim S65536x1024 (![] : Fin 0 → Fin S65536x1024.rank)
  reducesTo_S65536x1024_S_d0_1 : S65536x1024.ReducesTo [0, 1] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1280x256 : S_.BroadcastsInDim S1280x256 (![] : Fin 0 → Fin S1280x256.rank)
  reducesTo_S1280x256_S_d0_1 : S1280x256.ReducesTo [0, 1] S_

variable [Facts]

def fn_part5 {F : FTy → Type} [FloatOps F] (main_arg18 : FVec F S256x128 .f32) (main_arg19 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg18
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg14 : FVec F S256x128 .f32) (main_arg15 : FVec F S128 .f32) (main_arg16 : FVec F S1280x256 .f32) (main_arg17 : FVec F S256 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1280x256 .f32 := Host.absf main_arg16
  let main_cst_30 : FVec F S_ .f32 := constant S_ .f32 0x7F800000#32
  let main_v80 : FVec F S1280x256 .f32 := broadcastInDim S1280x256 ![] bcast_S_S1280x256 main_cst_30
  let main_v81 : IVec S1280x256 1 := cmpf .olt main_v79 main_v80
  let main_c_31 : IVec S_ 1 := constantI S_ 1 1#1
  let main_v82 : IVec S_ 1 := (fun x v => Host.reduce IntOp.andi x v reducesTo_S1280x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S768 .f32) (main_arg12 : FVec F S256x256 .f32) (main_arg13 : FVec F S256 .f32) (main_arg14 : FVec F S256x128 .f32) (main_arg15 : FVec F S128 .f32) (main_arg16 : FVec F S1280x256 .f32) (main_arg17 : FVec F S256 .f32) (main_arg18 : FVec F S256x128 .f32) (main_arg19 : FVec F S128 .f32) (main_v48 : IVec S_ 1) (main_v49 : FVec F S256x768 .f32) (main_v50 : FVec F S256x768 .f32) : IVec S_ 1 :=
  let main_v51 : IVec S256x768 1 := cmpf .olt main_v49 main_v50
  let main_c_19 : IVec S_ 1 := constantI S_ 1 1#1
  let main_v52 : IVec S_ 1 := (fun x v => Host.reduce IntOp.andi x v reducesTo_S256x768_S_d0_1 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256x768 .f32) (main_arg9 : FVec F S768 .f32) (main_arg10 : FVec F S256x768 .f32) (main_arg11 : FVec F S768 .f32) (main_arg12 : FVec F S256x256 .f32) (main_arg13 : FVec F S256 .f32) (main_arg14 : FVec F S256x128 .f32) (main_arg15 : FVec F S128 .f32) (main_arg16 : FVec F S1280x256 .f32) (main_arg17 : FVec F S256 .f32) (main_arg18 : FVec F S256x128 .f32) (main_arg19 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x768 .f32 := Host.absf main_arg8
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S256x768 .f32 := Host.absf main_arg10
  let main_cst_18 : FVec F S_ .f32 := constant S_ .f32 0x7F800000#32
  let main_v50 : FVec F S256x768 .f32 := broadcastInDim S256x768 ![] bcast_S_S256x768 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S65536x64 .f32) (main_arg5 : FVec F S65536x64 .f32) (main_arg6 : FVec F S80x256 .f32) (main_arg7 : FVec F S256 .f32) (main_arg8 : FVec F S256x768 .f32) (main_arg9 : FVec F S768 .f32) (main_arg10 : FVec F S256x768 .f32) (main_arg11 : FVec F S768 .f32) (main_arg12 : FVec F S256x256 .f32) (main_arg13 : FVec F S256 .f32) (main_arg14 : FVec F S256x128 .f32) (main_arg15 : FVec F S128 .f32) (main_arg16 : FVec F S1280x256 .f32) (main_arg17 : FVec F S256 .f32) (main_arg18 : FVec F S256x128 .f32) (main_arg19 : FVec F S128 .f32) (main_v13 : IVec S_ 1) (main_v16 : IVec S65536x1024 1) : IVec S_ 1 :=
  let main_c_5 : IVec S_ 1 := constantI S_ 1 1#1
  let main_v17 : IVec S_ 1 := (fun x v => Host.reduce IntOp.andi x v reducesTo_S65536x1024_S_d0_1 h_S_) main_v16 main_c_5
  let main_v18 : IVec S_ 1 := andi main_v13 main_v17
  let main_v19 : FVec F S65536x64 .f32 := Host.absf main_arg4
  let main_cst_6 : FVec F S_ .f32 := constant S_ .f32 0x7F800000#32
  let main_v20 : FVec F S65536x64 .f32 := broadcastInDim S65536x64 ![] bcast_S_S65536x64 main_cst_6
  let main_v21 : IVec S65536x64 1 := cmpf .olt main_v19 main_v20
  let main_c_7 : IVec S_ 1 := constantI S_ 1 1#1
  let main_v22 : IVec S_ 1 := (fun x v => Host.reduce IntOp.andi x v reducesTo_S65536x64_S_d0_1 h_S_) main_v21 main_c_7
  let main_v23 : IVec S_ 1 := andi main_v18 main_v22
  let main_v24 : FVec F S65536x64 .f32 := Host.absf main_arg5
  let main_cst_8 : FVec F S_ .f32 := constant S_ .f32 0x7F800000#32
  let main_v25 : FVec F S65536x64 .f32 := broadcastInDim S65536x64 ![] bcast_S_S65536x64 main_cst_8
  let main_v26 : IVec S65536x64 1 := cmpf .olt main_v24 main_v25
  let main_c_9 : IVec S_ 1 := constantI S_ 1 1#1
  let main_v27 : IVec S_ 1 := (fun x v => Host.reduce IntOp.andi x v reducesTo_S65536x64_S_d0_1 h_S_) main_v26 main_c_9
  let main_v28 : IVec S_ 1 := andi main_v23 main_v27
  let main_v29 : FVec F S80x256 .f32 := Host.absf main_arg6
  let main_cst_10 : FVec F S_ .f32 := constant S_ .f32 0x7F800000#32
  let main_v30 : FVec F S80x256 .f32 := broadcastInDim S80x256 ![] bcast_S_S80x256 main_cst_10
  let main_v31 : IVec S80x256 1 := cmpf .olt main_v29 main_v30
  let main_c_11 : IVec S_ 1 := constantI S_ 1 1#1
  let main_v32 : IVec S_ 1 := (fun x v => Host.reduce IntOp.andi x v reducesTo_S80x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S65536x64 .f32) (main_arg1 : FVec F S65536x16 .f32) (main_arg2 : FVec F S65536x256 .f32) (main_arg3 : FVec F S65536x1024 .f32) (main_arg4 : FVec F S65536x64 .f32) (main_arg5 : FVec F S65536x64 .f32) (main_arg6 : FVec F S80x256 .f32) (main_arg7 : FVec F S256 .f32) (main_arg8 : FVec F S256x768 .f32) (main_arg9 : FVec F S768 .f32) (main_arg10 : FVec F S256x768 .f32) (main_arg11 : FVec F S768 .f32) (main_arg12 : FVec F S256x256 .f32) (main_arg13 : FVec F S256 .f32) (main_arg14 : FVec F S256x128 .f32) (main_arg15 : FVec F S128 .f32) (main_arg16 : FVec F S1280x256 .f32) (main_arg17 : FVec F S256 .f32) (main_arg18 : FVec F S256x128 .f32) (main_arg19 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x1024 .f32 := Host.absf main_arg3
  let main_cst_4 : FVec F S_ .f32 := constant S_ .f32 0x7F800000#32
  let main_v15 : FVec F S65536x1024 .f32 := broadcastInDim S65536x1024 ![] bcast_S_S65536x1024 main_cst_4
  let main_v16 : IVec S65536x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S65536x64 : Shape := ⟨2, ![65536, 64]⟩
abbrev S65536x16 : Shape := ⟨2, ![65536, 16]⟩
abbrev S65536x256 : Shape := ⟨2, ![65536, 256]⟩
abbrev S65536x1024 : Shape := ⟨2, ![65536, 1024]⟩
abbrev S80x256 : Shape := ⟨2, ![80, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S256x128 : Shape := ⟨2, ![256, 128]⟩
abbrev S128 : Shape := ⟨1, ![128]⟩
abbrev S1280x256 : Shape := ⟨2, ![1280, 256]⟩
abbrev S64x256 : Shape := ⟨2, ![64, 256]⟩
abbrev S16x256 : Shape := ⟨2, ![16, 256]⟩
abbrev S1024x256 : Shape := ⟨2, ![1024, 256]⟩
abbrev S1024x64 : Shape := ⟨2, ![1024, 64]⟩
abbrev S1024x16 : Shape := ⟨2, ![1024, 16]⟩
abbrev S1024x1024 : Shape := ⟨2, ![1024, 1024]⟩
abbrev S1x256 : Shape := ⟨2, ![1, 256]⟩
abbrev S1024x768 : Shape := ⟨2, ![1024, 768]⟩
abbrev S1x768 : Shape := ⟨2, ![1, 768]⟩
abbrev S1024x128 : Shape := ⟨2, ![1024, 128]⟩
abbrev S1x128 : Shape := ⟨2, ![1, 128]⟩

abbrev nBuf : Space → Nat
  | .hbm => 40
  | .vmem => 42
  | .smem => 0
  | _ => 0

abbrev bufTy : (tb : Table) → Fin (tcTables nBuf tb) → BufTy
  | .hbm, ⟨0, _⟩ => ⟨S65536x64, .f32⟩
  | .hbm, ⟨1, _⟩ => ⟨S65536x16, .f32⟩
  | .hbm, ⟨2, _⟩ => ⟨S65536x256, .f32⟩
  | .hbm, ⟨3, _⟩ => ⟨S65536x1024, .f32⟩
  | .hbm, ⟨4, _⟩ => ⟨S65536x64, .f32⟩
  | .hbm, ⟨5, _⟩ => ⟨S65536x64, .f32⟩
  | .hbm, ⟨6, _⟩ => ⟨S80x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S256x768, .f32⟩
  | .hbm, ⟨11, _⟩ => ⟨S768, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S1280x256, .f32⟩
  | .hbm, ⟨17, _⟩ => ⟨S256, .f32⟩
  | .hbm, ⟨18, _⟩ => ⟨S256x128, .f32⟩
  | .hbm, ⟨19, _⟩ => ⟨S128, .f32⟩
  | .hbm, ⟨20, _⟩ => ⟨S64x256, .f32⟩
  | .hbm, ⟨21, _⟩ => ⟨S64x256, .bf16⟩
  | .hbm, ⟨22, _⟩ => ⟨S16x256, .f32⟩
  | .hbm, ⟨23, _⟩ => ⟨S16x256, .bf16⟩
  | .hbm, ⟨24, _⟩ => ⟨S256x768, .bf16⟩
  | .hbm, ⟨25, _⟩ => ⟨S256x768, .bf16⟩
  | .hbm, ⟨26, _⟩ => ⟨S256x256, .bf16⟩
  | .hbm, ⟨27, _⟩ => ⟨S256x128, .bf16⟩
  | .hbm, ⟨28, _⟩ => ⟨S256x256, .f32⟩
  | .hbm, ⟨29, _⟩ => ⟨S256x256, .bf16⟩
  | .hbm, ⟨30, _⟩ => ⟨S1024x256, .f32⟩
  | .hbm, ⟨31, _⟩ => ⟨S1024x256, .bf16⟩
  | .hbm, ⟨32, _⟩ => ⟨S256x128, .bf16⟩
  | .hbm, ⟨33, _⟩ => ⟨S65536x256, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S65536x64, .f32⟩
  | .local _ .vmem, ⟨0, _⟩ => ⟨S1024x64, .f32⟩
  | .local _ .vmem, ⟨1, _⟩ => ⟨S1024x64, .f32⟩
  | .local _ .vmem, ⟨2, _⟩ => ⟨S1024x16, .f32⟩
  | .local _ .vmem, ⟨3, _⟩ => ⟨S1024x16, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S64x256, .bf16⟩
  | .local _ .vmem, ⟨13, _⟩ => ⟨S16x256, .bf16⟩
  | .local _ .vmem, ⟨14, _⟩ => ⟨S256, .f32⟩
  | .local _ .vmem, ⟨15, _⟩ => ⟨S256x768, .bf16⟩
  | .local _ .vmem, ⟨16, _⟩ => ⟨S768, .f32⟩
  | .local _ .vmem, ⟨17, _⟩ => ⟨S256x768, .bf16⟩
  | .local _ .vmem, ⟨18, _⟩ => ⟨S768, .f32⟩
  | .local _ .vmem, ⟨19, _⟩ => ⟨S256x256, .bf16⟩
  | .local _ .vmem, ⟨20, _⟩ => ⟨S256, .f32⟩
  | .local _ .vmem, ⟨21, _⟩ => ⟨S256x128, .bf16⟩
  | .local _ .vmem, ⟨22, _⟩ => ⟨S128, .f32⟩
  | .local _ .vmem, ⟨23, _⟩ => ⟨S256x256, .bf16⟩
  | .local _ .vmem, ⟨24, _⟩ => ⟨S1024x256, .bf16⟩
  | .local _ .vmem, ⟨25, _⟩ => ⟨S256, .f32⟩
  | .local _ .vmem, ⟨26, _⟩ => ⟨S256x128, .bf16⟩
  | .local _ .vmem, ⟨27, _⟩ => ⟨S128, .f32⟩
  | .local _ .vmem, ⟨28, _⟩ => ⟨S1024x256, .f32⟩
  | .local _ .vmem, ⟨29, _⟩ => ⟨S1024x256, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | .local _ .vmem, ⟨37, _⟩ => ⟨S1024x64, .f32⟩
  | .local _ .vmem, ⟨38, _⟩ => ⟨S1024x64, .f32⟩
  | .local _ .vmem, ⟨39, _⟩ => ⟨S1024x64, .f32⟩
  | .local _ .vmem, ⟨40, _⟩ => ⟨S1024x64, .f32⟩
  | .local _ .vmem, ⟨41, _⟩ => ⟨S1024x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v13_3 : Ref sig .tc := ⟨.hbm, 36, rfl⟩
abbrev main_v13_4 : Ref sig .tc := ⟨.hbm, 37, rfl⟩
abbrev main_v13_5 : Ref sig .tc := ⟨.hbm, 38, rfl⟩
abbrev main_v13_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x64 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x64 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1024x64 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  slices_S80x256_S64x256_0_0 : S80x256.Slices ![0, 0] S64x256
  bitsLt_bf16_f32 : FTy.bits .bf16 < FTy.bits .f32
  slices_S80x256_S16x256_64_0 : S80x256.Slices ![64, 0] S16x256
  slices_S1280x256_S256x256_0_0 : S1280x256.Slices ![0, 0] S256x256
  slices_S1280x256_S1024x256_256_0 : S1280x256.Slices ![256, 0] S1024x256
  inb_S1024x64_S1024x64_0_0 : ∀ a, (![0, 0] : Fin 2 → Nat) a + S1024x64.size a ≤ S1024x64.size a
  h_S1024x64 : 0 < S1024x64.numel
  inb_S1024x16_S1024x16_0_0 : ∀ a, (![0, 0] : Fin 2 → Nat) a + S1024x16.size a ≤ S1024x16.size a
  h_S1024x16 : 0 < S1024x16.numel
  inb_S1024x256_S1024x256_0_0 : ∀ a, (![0, 0] : Fin 2 → Nat) a + S1024x256.size a ≤ S1024x256.size a
  h_S1024x256 : 0 < S1024x256.numel
  inb_S1024x1024_S1024x1024_0_0 : ∀ a, (![0, 0] : Fin 2 → Nat) a + S1024x1024.size a ≤ S1024x1024.size a
  h_S1024x1024 : 0 < S1024x1024.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  shapeCasts_S1024x256_S1024x256 : S1024x256.ShapeCasts S1024x256
  dot_S1024x64_S64x256_S1024x256_1_0_0_1_n_n_wf : DotDims.WF S1024x64 S64x256 S1024x256 [1] [0] [0] [1] [] []
  dot_S1024x16_S16x256_S1024x256_1_0_0_1_n_n_wf : DotDims.WF S1024x16 S16x256 S1024x256 [1] [0] [0] [1] [] []
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S65536x16.size a
  hwx0_1 : ∀ i : grid0.Coords, EltTy.bits .f32 = 32 ∨ (Rect.block (s := S65536x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S65536x64.size a
  hwx0_4 : ∀ i : grid0.Coords, EltTy.bits .f32 = 32 ∨ (Rect.block (s := S65536x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S65536x64.size a
  hwx0_5 : ∀ i : grid0.Coords, EltTy.bits .f32 = 32 ∨ (Rect.block (s := S65536x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .bf16 = 32 ∨ (Rect.block (s := S16x256) S16x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S256x768.size a
  hwx0_9 : ∀ i : grid0.Coords, EltTy.bits .bf16 = 32 ∨ (Rect.block (s := S256x768) S256x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x768.size a ≤ S256x768.size a
  hwx0_11 : ∀ i : grid0.Coords, EltTy.bits .bf16 = 32 ∨ (Rect.block (s := S256x768) S256x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .bf16 = 32 ∨ (Rect.block (s := S256x128) S256x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x256.size a ≤ S1024x256.size a
  hwx0_18 : ∀ i : grid0.Coords, EltTy.bits .bf16 = 32 ∨ (Rect.block (s := S1024x256) S1024x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S256x128.size a
  hwx0_20 : ∀ i : grid0.Coords, EltTy.bits .bf16 = 32 ∨ (Rect.block (s := S256x128) S256x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x256.size a ≤ S65536x256.size a
  hwx0_22 : ∀ i : grid0.Coords, EltTy.bits .f32 = 32 ∨ (Rect.block (s := S65536x256) S1024x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x64.size a ≤ S65536x64.size a
  hwx0_23 : ∀ i : grid0.Coords, EltTy.bits .f32 = 32 ∨ (Rect.block (s := S65536x64) S1024x64.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x64.size a ≤ S65536x64.size a
  hwx0_24 : ∀ i : grid0.Coords, EltTy.bits .f32 = 32 ∨ (Rect.block (s := S65536x64) S1024x64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x64.size a ≤ S65536x64.size a
  hwx0_25 : ∀ i : grid0.Coords, EltTy.bits .f32 = 32 ∨ (Rect.block (s := S65536x64) S1024x64.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x64.size a ≤ S65536x64.size a
  hwx0_26 : ∀ i : grid0.Coords, EltTy.bits .f32 = 32 ∨ (Rect.block (s := S65536x64) S1024x64.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1024x64.size a ≤ S65536x64.size a
  hwx0_27 : ∀ i : grid0.Coords, EltTy.bits .f32 = 32 ∨ (Rect.block (s := S65536x64) S1024x64.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S1024x64.size a ≤ S65536x64.size a
  hwx0_28 : ∀ i : grid0.Coords, EltTy.bits .f32 = 32 ∨ (Rect.block (s := S65536x64) S1024x64.size (cc0_transform_28 i) (hinb0_28 i)).WholeWords (EltTy.packing .f32)

variable [Facts₀]

def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S256x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S1024x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12) S256x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg19) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v13_0) S1024x256.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v13_1) S1024x64.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v13_2) S1024x64.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v13_3) S1024x64.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v13_4) S1024x64.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v13_5) S1024x64.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v13_6) S1024x64.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x16 : Shape := ⟨2, ![65536, 16]⟩
abbrev S65536x256 : Shape := ⟨2, ![65536, 256]⟩
abbrev S65536x1024 : Shape := ⟨2, ![65536, 1024]⟩
abbrev S80x256 : Shape := ⟨2, ![80, 256]⟩
abbrev S256 : Shape := ⟨1, ![256]⟩
abbrev S256x768 : Shape := ⟨2, ![256, 768]⟩
abbrev S768 : Shape := ⟨1, ![768]⟩
abbrev S256x256 : Shape := ⟨2, ![256, 256]⟩
abbrev S256x128 : Shape := ⟨2, ![256, 128]⟩
abbrev S128 : Shape := ⟨1, ![128]⟩
abbrev S1280x256 : Shape := ⟨2, ![1280, 256]⟩
abbrev S65536x80 : Shape := ⟨2, ![65536, 80]⟩
abbrev S1x256 : Shape := ⟨2, ![1, 256]⟩
abbrev S_ : Shape := ⟨0, ![]⟩
abbrev S65536x768 : Shape := ⟨2, ![65536, 768]⟩
abbrev S1x768 : Shape := ⟨2, ![1, 768]⟩
abbrev S65536x128 : Shape := ⟨2, ![65536, 128]⟩
abbrev S1x128 : Shape := ⟨2, ![1, 128]⟩
abbrev S65536x1280 : Shape := ⟨2, ![65536, 1280]⟩

abbrev nBuf : Space → Nat
  | .hbm => 170
  | .vmem => 0
  | .smem => 0
  | _ => 0

abbrev hbmTy0_0 (i : Nat) : BufTy := match i % 128 with
  | 0 => ⟨S65536x64, .f32⟩
  | 1 => ⟨S65536x16, .f32⟩
  | 2 => ⟨S65536x256, .f32⟩
  | 3 => ⟨S65536x1024, .f32⟩
  | 4 => ⟨S65536x64, .f32⟩
  | 5 => ⟨S65536x64, .f32⟩
  | 6 => ⟨S80x256, .f32⟩
  | 7 => ⟨S256, .f32⟩
  | 8 => ⟨S256x768, .f32⟩
  | 9 => ⟨S768, .f32⟩
  | 10 => ⟨S256x768, .f32⟩
  | 11 => ⟨S768, .f32⟩
  | 12 => ⟨S256x256, .f32⟩
  | 13 => ⟨S256, .f32⟩
  | 14 => ⟨S256x128, .f32⟩
  | 15 => ⟨S128, .f32⟩
  | 16 => ⟨S1280x256, .f32⟩
  | 17 => ⟨S256, .f32⟩
  | 18 => ⟨S256x128, .f32⟩
  | 19 => ⟨S128, .f32⟩
  | 20 => ⟨S65536x80, .f32⟩
  | 21 => ⟨S65536x256, .f32⟩
  | 22 => ⟨S1x256, .f32⟩
  | 23 => ⟨S65536x256, .f32⟩
  | 24 => ⟨S65536x256, .f32⟩
  | 25 => ⟨S_, .f32⟩
  | 26 => ⟨S65536x256, .f32⟩
  | 27 => ⟨S65536x256, .i1⟩
  | 28 => ⟨S_, .f32⟩
  | 29 => ⟨S65536x256, .f32⟩
  | 30 => ⟨S65536x256, .i1⟩
  | 31 => ⟨S_, .f32⟩
  | 32 => ⟨S_, .f32⟩
  | 33 => ⟨S65536x256, .f32⟩
  | 34 => ⟨S65536x256, .f32⟩
  | 35 => ⟨S65536x256, .f32⟩
  | 36 => ⟨S_, .f32⟩
  | 37 => ⟨S65536x256, .f32⟩
  | 38 => ⟨S65536x256, .f32⟩
  | 39 => ⟨S65536x256, .f32⟩
  | 40 => ⟨S65536x768, .f32⟩
  | 41 => ⟨S1x768, .f32⟩
  | 42 => ⟨S65536x768, .f32⟩
  | 43 => ⟨S65536x768, .f32⟩
  | 44 => ⟨S65536x768, .f32⟩
  | 45 => ⟨S1x768, .f32⟩
  | 46 => ⟨S65536x768, .f32⟩
  | 47 => ⟨S65536x768, .f32⟩
  | 48 => ⟨S65536x256, .f32⟩
  | 49 => ⟨S65536x256, .f32⟩
  | 50 => ⟨S65536x256, .f32⟩
  | 51 => ⟨S65536x256, .f32⟩
  | 52 => ⟨S65536x256, .f32⟩
  | 53 => ⟨S65536x256, .f32⟩
  | 54 => ⟨S65536x256, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S65536x256, .f32⟩
  | 64 => ⟨S65536x256, .f32⟩
  | 65 => ⟨S65536x256, .f32⟩
  | 66 => ⟨S_, .f32⟩
  | 67 => ⟨S65536x256, .f32⟩
  | 68 => ⟨S65536x256, .f32⟩
  | 69 => ⟨S_, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S65536x256, .f32⟩
  | 79 => ⟨S65536x256, .f32⟩
  | 80 => ⟨S65536x256, .f32⟩
  | 81 => ⟨S65536x256, .f32⟩
  | 82 => ⟨S1x256, .f32⟩
  | 83 => ⟨S65536x256, .f32⟩
  | 84 => ⟨S65536x256, .f32⟩
  | 85 => ⟨S_, .f32⟩
  | 86 => ⟨S65536x256, .f32⟩
  | 87 => ⟨S65536x256, .i1⟩
  | 88 => ⟨S_, .f32⟩
  | 89 => ⟨S65536x256, .f32⟩
  | 90 => ⟨S65536x256, .i1⟩
  | 91 => ⟨S_, .f32⟩
  | 92 => ⟨S_, .f32⟩
  | 93 => ⟨S65536x256, .f32⟩
  | 94 => ⟨S65536x256, .f32⟩
  | 95 => ⟨S65536x256, .f32⟩
  | 96 => ⟨S_, .f32⟩
  | 97 => ⟨S65536x256, .f32⟩
  | 98 => ⟨S65536x256, .f32⟩
  | 99 => ⟨S65536x256, .f32⟩
  | 100 => ⟨S65536x128, .f32⟩
  | 101 => ⟨S1x128, .f32⟩
  | 102 => ⟨S65536x128, .f32⟩
  | 103 => ⟨S65536x128, .f32⟩
  | 104 => ⟨S65536x64, .f32⟩
  | 105 => ⟨S65536x64, .f32⟩
  | 106 => ⟨S_, .f32⟩
  | 107 => ⟨S65536x64, .f32⟩
  | 108 => ⟨S65536x64, .f32⟩
  | 109 => ⟨S65536x64, .f32⟩
  | 110 => ⟨S65536x64, .f32⟩
  | 111 => ⟨S65536x64, .i1⟩
  | 112 => ⟨S65536x64, .f32⟩
  | 113 => ⟨S65536x64, .f32⟩
  | 114 => ⟨S65536x64, .f32⟩
  | 115 => ⟨S65536x64, .f32⟩
  | 116 => ⟨S65536x64, .f32⟩
  | 117 => ⟨S65536x64, .f32⟩
  | 118 => ⟨S65536x64, .f32⟩
  | 119 => ⟨S65536x64, .f32⟩
  | 120 => ⟨S_, .f32⟩
  | 121 => ⟨S65536x64, .f32⟩
  | 122 => ⟨S65536x64, .f32⟩
  | 123 => ⟨S65536x64, .f32⟩
  | 124 => ⟨S65536x64, .f32⟩
  | 125 => ⟨S65536x1280, .f32⟩
  | 126 => ⟨S65536x256, .f32⟩
  | 127 => ⟨S1x256, .f32⟩
  | _ => ⟨S65536x64, .f32⟩

abbrev hbmTy0_1 (i : Nat) : BufTy := match i % 128 with
  | 0 => ⟨S65536x256, .f32⟩
  | 1 => ⟨S65536x256, .f32⟩
  | 2 => ⟨S_, .f32⟩
  | 3 => ⟨S65536x256, .f32⟩
  | 4 => ⟨S65536x256, .i1⟩
  | 5 => ⟨S_, .f32⟩
  | 6 => ⟨S65536x256, .f32⟩
  | 7 => ⟨S65536x256, .i1⟩
  | 8 => ⟨S_, .f32⟩
  | 9 => ⟨S_, .f32⟩
  | 10 => ⟨S65536x256, .f32⟩
  | 11 => ⟨S65536x256, .f32⟩
  | 12 => ⟨S65536x256, .f32⟩
  | 13 => ⟨S_, .f32⟩
  | 14 => ⟨S65536x256, .f32⟩
  | 15 => ⟨S65536x256, .f32⟩
  | 16 => ⟨S65536x256, .f32⟩
  | 17 => ⟨S65536x128, .f32⟩
  | 18 => ⟨S1x128, .f32⟩
  | 19 => ⟨S65536x128, .f32⟩
  | 20 => ⟨S65536x128, .f32⟩
  | 21 => ⟨S65536x64, .f32⟩
  | 22 => ⟨S65536x64, .f32⟩
  | 23 => ⟨S_, .f32⟩
  | 24 => ⟨S65536x64, .f32⟩
  | 25 => ⟨S65536x64, .f32⟩
  | 26 => ⟨S65536x64, .f32⟩
  | 27 => ⟨S65536x64, .f32⟩
  | 28 => ⟨S65536x64, .i1⟩
  | 29 => ⟨S65536x64, .f32⟩
  | 30 => ⟨S65536x64, .f32⟩
  | 31 => ⟨S65536x64, .f32⟩
  | 32 => ⟨S65536x64, .f32⟩
  | 33 => ⟨S65536x64, .f32⟩
  | 34 => ⟨S65536x64, .f32⟩
  | 35 => ⟨S65536x64, .f32⟩
  | 36 => ⟨S65536x64, .f32⟩
  | 37 => ⟨S_, .f32⟩
  | 38 => ⟨S65536x64, .f32⟩
  | 39 => ⟨S65536x64, .f32⟩
  | 40 => ⟨S65536x64, .f32⟩
  | 41 => ⟨S65536x64, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_cst_1 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v4 : Ref sig .tc := ⟨.hbm, 34, rfl⟩
abbrev main_call0_v5 : Ref sig .tc := ⟨.hbm, 35, rfl⟩
abbrev main_call0_cst_2 : Ref sig .tc := ⟨.hbm, 36, rfl⟩
abbrev main_call0_v6 : Ref sig .tc := ⟨.hbm, 37, rfl⟩
abbrev main_call0_v7 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst : Ref sig .tc := ⟨.hbm, 57, rfl⟩
abbrev main_v23 : Ref sig .tc := ⟨.hbm, 58, rfl⟩
abbrev main_v24 : Ref sig .tc := ⟨.hbm, 59, rfl⟩
abbrev main_cst_0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_1 : Ref sig .tc := ⟨.hbm, 66, rfl⟩
abbrev main_v30 : Ref sig .tc := ⟨.hbm, 67, rfl⟩
abbrev main_v31 : Ref sig .tc := ⟨.hbm, 68, rfl⟩
abbrev main_cst_2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_3 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_cst_1 : Ref sig .tc := ⟨.hbm, 91, rfl⟩
abbrev main_call1_call0_v0 : Ref sig .tc := ⟨.hbm, 92, rfl⟩
abbrev main_call1_call0_v1 : Ref sig .tc := ⟨.hbm, 93, rfl⟩
abbrev main_call1_v4 : Ref sig .tc := ⟨.hbm, 94, rfl⟩
abbrev main_call1_v5 : Ref sig .tc := ⟨.hbm, 95, rfl⟩
abbrev main_call1_cst_2 : Ref sig .tc := ⟨.hbm, 96, rfl⟩
abbrev main_call1_v6 : Ref sig .tc := ⟨.hbm, 97, rfl⟩
abbrev main_call1_v7 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_v53 : Ref sig .tc := ⟨.hbm, 119, rfl⟩
abbrev main_cst_4 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_cst_0 : Ref sig .tc := ⟨.hbm, 133, rfl⟩
abbrev main_call3_v2 : Ref sig .tc := ⟨.hbm, 134, rfl⟩
abbrev main_call3_v3 : Ref sig .tc := ⟨.hbm, 135, rfl⟩
abbrev main_call3_cst_1 : Ref sig .tc := ⟨.hbm, 136, rfl⟩
abbrev main_call3_call0_v0 : Ref sig .tc := ⟨.hbm, 137, rfl⟩
abbrev main_call3_call0_v1 : Ref sig .tc := ⟨.hbm, 138, rfl⟩
abbrev main_call3_v4 : Ref sig .tc := ⟨.hbm, 139, rfl⟩
abbrev main_call3_v5 : Ref sig .tc := ⟨.hbm, 140, rfl⟩
abbrev main_call3_cst_2 : Ref sig .tc := ⟨.hbm, 141, rfl⟩
abbrev main_call3_v6 : Ref sig .tc := ⟨.hbm, 142, rfl⟩
abbrev main_call3_v7 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_call4_cst : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_v70 : Ref sig .tc := ⟨.hbm, 164, rfl⟩
abbrev main_cst_5 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩

abbrev nD : Nat := 1
abbrev τ : Topo := Topo.v7x

variable {F : FTy → Type} [FloatOps F]

class Facts₀ : Prop where
  concatenates_S65536x64_S65536x16_S65536x80_d1 : Shape.Concatenates [S65536x64, S65536x16] S65536x80 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S65536x128_S65536x64_0_0 : S65536x128.Slices ![0, 0] S65536x64
  slices_S65536x128_S65536x64_0_64 : S65536x128.Slices ![0, 64] S65536x64
  bcast_S_S65536x64 : S_.BroadcastsInDim S65536x64 (![] : Fin 0 → Fin S65536x64.rank)
  concatenates_S65536x256_S65536x1024_S65536x1280_d1 : Shape.Concatenates [S65536x256, S65536x1024] S65536x1280 1
  dot_S65536x80_S80x256_S65536x256_1_0_0_1_n_n_wf : DotDims.WF S65536x80 S80x256 S65536x256 [1] [0] [0] [1] [] []
  dot_S65536x256_S256x768_S65536x768_1_0_0_1_n_n_wf : DotDims.WF S65536x256 S256x768 S65536x768 [1] [0] [0] [1] [] []
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []
  dot_S65536x1280_S1280x256_S65536x256_1_0_0_1_n_n_wf : DotDims.WF S65536x1280 S1280x256 S65536x256 [1] [0] [0] [1] [] []

variable [Facts₀]

def dot_S65536x80_S80x256_S65536x256_1_0_0_1_n_n : DotDims S65536x80 S80x256 S65536x256 where
  lhsContracting := [1]
  rhsContracting := [0]
  lhsNonContracting := [0]
  rhsNonContracting := [1]
  lhsBatch := []
  rhsBatch := []
  wf := dot_S65536x80_S80x256_S65536x256_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x1280_S1280x256_S65536x256_1_0_0_1_n_n : DotDims S65536x1280 S1280x256 S65536x256 where
  lhsContracting := [1]
  rhsContracting := [0]
  lhsNonContracting := [0]
  rhsNonContracting := [1]
  lhsBatch := []
  rhsBatch := []
  wf := dot_S65536x1280_S1280x256_S65536x256_1_0_0_1_n_n_wf

class Facts : Prop extends Facts₀ where

variable [Facts]
-- ==== Proof.Spec.lean ====
/-
  One row of the recurrent state-space step, on the extended reals.

  A row of the batch carries a state `s` (64 entries), an action `a` (16), a previous belief `h` (256), an observation
  (1024) and two noise rows (64 each). With `dense x W b = x · W + b` (entry q: Σₖ x k · W k q + b q):
    hidden  = elu (s · Wₛ + a · Wₐ + b)                      the embedding of state and action, the weight's 80 rows
                                                              taken as its first 64 and its last 16
    gi, gh  = dense hidden W_ih b_ih,  dense h W_hh b_hh      768 = 3 · 256 entries: reset, update, new
    belief  = (1 - z) · n + z · h,   r = σ (gi₀ + gh₀),  z = σ (gi₁ + gh₁),  n = tanh (gi₂ + r · gh₂)
    a head  = dense (elu (dense · …)) …                       128 entries: a mean (first 64) and, through softplus and
                                                              the smallest deviation, a standard deviation (last 64)
    state   = mean + std · noise
  The posterior head reads belief and observation: belief · W_b + observation · W_e + b, the weight's 1280 rows taken as
  its first 256 and its last 1024.
  Nothing here needs a finite input: the only laws used between the two programs are that a sum over 80 (1280) terms is
  the sum over its first 64 (256) plus the sum over its last 16 (1024), that `1 · x = x`, and that `0 - x = -x`, which
  hold for all extended reals.
-/
import Idealize.ShloMosaic.PureOps.Ideal
import Idealize.ShloMosaic.PureOps.Ideal.Laws
import Mathlib.Algebra.BigOperators.Fin

noncomputable section

open scoped BigOperators

namespace Cert.Rssm

open Idealize.ShloMosaic

/-- A row of `n` extended reals. -/
abbrev Row (n : ℕ) := Fin n → EReal
/-- A `k × n` weight. -/
abbrev Mat (k n : ℕ) := Fin k → Fin n → EReal

/-- The smallest standard deviation: the single-precision word nearest 10⁻⁵, at its exact binary value. -/
def minStd : EReal := Ideal.ofBits .f32 0x3727C5AC#32

/-- `x · W + b`. -/
def dense {K N : ℕ} (x : Row K) (W : Mat K N) (b : Row N) : Row N := fun q => (∑ k, x k * W k q) + b q

/-- `x₁ · W₁ + x₂ · W₂ + b`. -/
def dense2 {K₁ K₂ N : ℕ} (x₁ : Row K₁) (W₁ : Mat K₁ N) (x₂ : Row K₂) (W₂ : Mat K₂ N) (b : Row N) : Row N :=
  fun q => ((∑ k, x₁ k * W₁ k q) + ∑ k, x₂ k * W₂ k q) + b q

/-- `elu x`: `x` above zero, `eˣ - 1` elsewhere. -/
def elu (x : EReal) : EReal := Scalar.select (Ideal.cmp .ogt x 0) x (Ideal.exp x - 1)

/-- `softplus x = max x 0 + log (1 + e^(-|x - 0|))`, behind the test `x - 0 ≠ x - 0` (which selects `x + 0`). -/
def softplus (x : EReal) : EReal :=
  Scalar.select (Ideal.cmp .one (x - 0) (x - 0)) (x + 0)
    (max x 0 + Ideal.log1p (Ideal.exp (0 - max (x - 0) (-(x - 0)))))

/-- Column `q` of the reset block. -/
def col0 (q : Fin 256) : Fin 768 := ⟨q.val, by have := q.isLt; omega⟩
/-- Column `q` of the update block. -/
def col1 (q : Fin 256) : Fin 768 := ⟨256 + q.val, by have := q.isLt; omega⟩
/-- Column `q` of the new block. -/
def col2 (q : Fin 256) : Fin 768 := ⟨512 + q.val, by have := q.isLt; omega⟩
/-- Column `q` of a head's mean half. -/
def fst64 (q : Fin 64) : Fin 128 := ⟨q.val, by have := q.isLt; omega⟩
/-- Column `q` of a head's deviation half. -/
def snd64 (q : Fin 64) : Fin 128 := ⟨64 + q.val, by have := q.isLt; omega⟩

/-- The recurrent cell. -/
def cell (gi gh : Row 768) (h : Row 256) : Row 256 := fun q =>
  (1 - Ideal.logistic (gi (col1 q) + gh (col1 q)))
      * Ideal.tanh (gi (col2 q) + Ideal.logistic (gi (col0 q) + gh (col0 q)) * gh (col2 q))
    + Ideal.logistic (gi (col1 q) + gh (col1 q)) * h q

/-- The embedding of state and action. -/
def hidden (s : Row 64) (a : Row 16) (Ws : Mat 64 256) (Wa : Mat 16 256) (b : Row 256) : Row 256 :=
  fun q => elu (dense2 s Ws a Wa b q)

/-- The new belief. -/
def belief (s : Row 64) (a : Row 16) (h : Row 256) (Ws : Mat 64 256) (Wa : Mat 16 256) (bsa : Row 256)
    (Wih : Mat 256 768) (bih : Row 768) (Whh : Mat 256 768) (bhh : Row 768) : Row 256 :=
  cell (dense (hidden s a Ws Wa bsa) Wih bih) (dense h Whh bhh) h

/-- The prior head's 128 outputs. -/
def priorOut (bel : Row 256) (Wbp : Mat 256 256) (bbp : Row 256) (Wsp : Mat 256 128) (bsp : Row 128) : Row 128 :=
  dense (fun q => elu (dense bel Wbp bbp q)) Wsp bsp

/-- The posterior head's 128 outputs. -/
def postOut (bel : Row 256) (obs : Row 1024) (Wb : Mat 256 256) (We : Mat 1024 256) (bbq : Row 256)
    (Wsq : Mat 256 128) (bsq : Row 128) : Row 128 :=
  dense (fun q => elu (dense2 bel Wb obs We bbq q)) Wsq bsq

/-- A head's mean. -/
def mean (o : Row 128) : Row 64 := fun q => o (fst64 q)
/-- A head's standard deviation. -/
def std (o : Row 128) : Row 64 := fun q => softplus (o (snd64 q)) + minStd
/-- The sampled state. -/
def state (o : Row 128) (e : Row 64) : Row 64 := fun q => mean o q + std o q * e q

/-! ## The host's spellings -/

/-- The host's `elu`: the exponential's argument is first replaced by `0` where it is positive, and the result is
    multiplied by one. Where `x > 0` both take `x`; elsewhere the replaced argument is `x` itself. -/
theorem elu_host (x : EReal) :
    Scalar.select (Ideal.cmp .ogt x 0) x (1 * (Ideal.exp (Scalar.select (Ideal.cmp .ogt x 0) 0 x) - 1)) = elu x := by
  unfold elu Scalar.select
  by_cases h : Ideal.cmp .ogt x 0 = 1
  · rw [if_pos h, if_pos h]
  · rw [if_neg h, if_neg h, if_neg h, one_mul]

/-- `0 - x = -x` on the extended reals. -/
theorem zero_sub' (x : EReal) : 0 - x = -x := by rw [sub_eq_add_neg, zero_add]

/-- The host's `softplus`: the unordered twin of the test, and a negation where the kernel subtracts from zero. -/
theorem softplus_host (x : EReal) :
    Scalar.select (Ideal.cmp .une (x - 0) (x - 0)) (x + 0)
      (max x 0 + Ideal.log1p (Ideal.exp (-(max (x - 0) (-(x - 0)))))) = softplus x := by
  unfold softplus
  rw [zero_sub']
  rfl

/-- The host's logistic function, spelt with negate, exponential, add and divide. -/
theorem logistic_host (x : EReal) : Ideal.div 1 (1 + Ideal.exp (-x)) = Ideal.logistic x := rfl

/-! ## A sum over `m + n` terms -/

/-- A sum over `m + n` terms is the sum over the first `m` plus the sum over the last `n`. -/
theorem sum_split {m n : ℕ} (f : Fin (m + n) → EReal) :
    ∑ k, f k = (∑ k : Fin m, f ⟨k.val, by have := k.isLt; omega⟩) + ∑ k : Fin n, f ⟨m + k.val, by have := k.isLt; omega⟩ := by
  rw [Fin.sum_univ_add]
  rfl

/-- Row `k` of a weight's first 64 of 80 rows. -/
def lo80 (k : Fin 64) : Fin 80 := ⟨k.val, by have := k.isLt; omega⟩
/-- Row `k` of a weight's last 16 of 80 rows. -/
def hi80 (k : Fin 16) : Fin 80 := ⟨64 + k.val, by have := k.isLt; omega⟩
/-- Row `k` of a weight's first 256 of 1280 rows. -/
def lo1280 (k : Fin 256) : Fin 1280 := ⟨k.val, by have := k.isLt; omega⟩
/-- Row `k` of a weight's last 1024 of 1280 rows. -/
def hi1280 (k : Fin 1024) : Fin 1280 := ⟨256 + k.val, by have := k.isLt; omega⟩

theorem sum_split80 (f : Fin 80 → EReal) : ∑ k, f k = (∑ k : Fin 64, f (lo80 k)) + ∑ k : Fin 16, f (hi80 k) :=
  sum_split (m := 64) (n := 16) f

theorem sum_split1280 (f : Fin 1280 → EReal) : ∑ k, f k = (∑ k : Fin 256, f (lo1280 k)) + ∑ k : Fin 1024, f (hi1280 k) :=
  sum_split (m := 256) (n := 1024) f

end Cert.Rssm

end
-- ==== Proof.Goal.lean ====
/-
  The seven results as functions of the twenty argument arrays, index by index.
  Row `r` of every batch array goes through the step of `Spec`; the weights are read whole, the 80-row (1280-row)
  weight as its first 64 (256) rows and its last 16 (1024). Entry (r, q) of a result is entry q of row r's result.
-/
import proofs.«120973_j24670292148908_2_alg».proof.Proof.Spec
import Idealize.ShloMosaic.Lib.ValueIdx

noncomputable section

namespace Cert.Rssm

open Idealize.ShloMosaic Idealize.ShloMosaic.ValueIdx

/-- Row `p` of a two-axis array. -/
abbrev row {M K : ℕ} {φ : FTy} (x : FVec Ideal ⟨2, ![M, K]⟩ φ) (p : Fin M) : Row K := fun k => x (ix2 p k)
/-- A two-axis array as a weight. -/
abbrev mat {K N : ℕ} {φ : FTy} (w : FVec Ideal ⟨2, ![K, N]⟩ φ) : Mat K N := fun k q => w (ix2 k q)
/-- A one-axis array as a row. -/
abbrev vec {N : ℕ} {φ : FTy} (b : FVec Ideal ⟨1, ![N]⟩ φ) : Row N := fun q => b (ix1 q)

/-- The array whose row `r` is `f r`. -/
def arr {N : ℕ} (f : Fin 65536 → Row N) : (⟨2, ![65536, N]⟩ : Shape).Idx → EReal :=
  fun i => f ⟨(i 0).val, (i 0).isLt⟩ ⟨(i 1).val, (i 1).isLt⟩

theorem arr_ix2 {N : ℕ} (f : Fin 65536 → Row N) (r : Fin 65536) (q : Fin N) : arr f (ix2 r q) = f r q := rfl

/-- The twenty argument arrays, in the programs' order: state, action, belief, observation, the two noises, then each
    layer's weight and bias. -/
structure Args where
  s : FVec Ideal ⟨2, ![65536, 64]⟩ .f32
  a : FVec Ideal ⟨2, ![65536, 16]⟩ .f32
  h : FVec Ideal ⟨2, ![65536, 256]⟩ .f32
  obs : FVec Ideal ⟨2, ![65536, 1024]⟩ .f32
  e1 : FVec Ideal ⟨2, ![65536, 64]⟩ .f32
  e2 : FVec Ideal ⟨2, ![65536, 64]⟩ .f32
  wsa : FVec Ideal ⟨2, ![80, 256]⟩ .f32
  bsa : FVec Ideal ⟨1, ![256]⟩ .f32
  wih : FVec Ideal ⟨2, ![256, 768]⟩ .f32
  bih : FVec Ideal ⟨1, ![768]⟩ .f32
  whh : FVec Ideal ⟨2, ![256, 768]⟩ .f32
  bhh : FVec Ideal ⟨1, ![768]⟩ .f32
  wbp : FVec Ideal ⟨2, ![256, 256]⟩ .f32
  bbp : FVec Ideal ⟨1, ![256]⟩ .f32
  wsp : FVec Ideal ⟨2, ![256, 128]⟩ .f32
  bsp : FVec Ideal ⟨1, ![128]⟩ .f32
  wbq : FVec Ideal ⟨2, ![1280, 256]⟩ .f32
  bbq : FVec Ideal ⟨1, ![256]⟩ .f32
  wsq : FVec Ideal ⟨2, ![256, 128]⟩ .f32
  bsq : FVec Ideal ⟨1, ![128]⟩ .f32

namespace Args

variable (A : Args)

/-- The first 64 rows of the embedding's weight. -/
def wsaS : Mat 64 256 := fun k q => A.wsa (ix2 (lo80 k) q)
/-- The last 16 rows of the embedding's weight. -/
def wsaA : Mat 16 256 := fun k q => A.wsa (ix2 (hi80 k) q)
/-- The first 256 rows of the posterior embedding's weight. -/
def wbqB : Mat 256 256 := fun k q => A.wbq (ix2 (lo1280 k) q)
/-- The last 1024 rows of the posterior embedding's weight. -/
def wbqE : Mat 1024 256 := fun k q => A.wbq (ix2 (hi1280 k) q)

/-- Row `r`'s new belief. -/
def beliefRow (r : Fin 65536) : Row 256 :=
  belief (row A.s r) (row A.a r) (row A.h r) A.wsaS A.wsaA (vec A.bsa) (mat A.wih) (vec A.bih) (mat A.whh) (vec A.bhh)

/-- Row `r`'s prior head. -/
def priorRow (r : Fin 65536) : Row 128 :=
  priorOut (A.beliefRow r) (mat A.wbp) (vec A.bbp) (mat A.wsp) (vec A.bsp)

/-- Row `r`'s posterior head. -/
def postRow (r : Fin 65536) : Row 128 :=
  postOut (A.beliefRow r) (row A.obs r) A.wbqB A.wbqE (vec A.bbq) (mat A.wsq) (vec A.bsq)

/-- The new belief. -/
def outBelief : (⟨2, ![65536, 256]⟩ : Shape).Idx → EReal := arr A.beliefRow
/-- The prior's sampled state. -/
def outPriorState : (⟨2, ![65536, 64]⟩ : Shape).Idx → EReal := arr fun r => state (A.priorRow r) (row A.e1 r)
/-- The prior's mean. -/
def outPriorMean : (⟨2, ![65536, 64]⟩ : Shape).Idx → EReal := arr fun r => mean (A.priorRow r)
/-- The prior's deviation. -/
def outPriorStd : (⟨2, ![65536, 64]⟩ : Shape).Idx → EReal := arr fun r => std (A.priorRow r)
/-- The posterior's sampled state. -/
def outPostState : (⟨2, ![65536, 64]⟩ : Shape).Idx → EReal := arr fun r => state (A.postRow r) (row A.e2 r)
/-- The posterior's mean. -/
def outPostMean : (⟨2, ![65536, 64]⟩ : Shape).Idx → EReal := arr fun r => mean (A.postRow r)
/-- The posterior's deviation. -/
def outPostStd : (⟨2, ![65536, 64]⟩ : Shape).Idx → EReal := arr fun r => std (A.postRow r)

end Args

end Cert.Rssm

end
-- ==== Proof.Consts.lean ====
/-
  The two float words the programs spell whose values the proof needs: `0.0` denotes 0 and `1.0` denotes 1.
-/
import Idealize.ShloMosaic.PureOps.Ideal

noncomputable section

namespace Cert.Rssm.Consts

open Idealize.ShloMosaic

/-- The word of `0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

end Cert.Rssm.Consts

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.KerOps.lean ====
/-
  The kernel's block operations read at one entry, as the row functions of the step.
  A block is `M` rows of the batch. At entry (p, q): a product into the zero accumulator plus a bias laid along the
  rows is `dense` of row p; two such products summed before the bias are `dense2`; the guarded exponential is `elu`;
  the three column blocks of the two gate pre-activations combine to the recurrent `cell`; a head's 128 columns give
  the mean (first 64), the deviation (softplus of the last 64, plus the smallest deviation) and the sampled state.
-/
import proofs.«120973_j24670292148908_2_alg».proof.Proof.Spec
import proofs.«120973_j24670292148908_2_alg».proof.Proof.Consts
import proofs.«120973_j24670292148908_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.Rssm.Ker

open Idealize.ShloMosaic Idealize.ShloMosaic.ValueIdx Cert.Rssm

variable {M K K₂ N : ℕ}

/-- The kernel's `where (x > 0, x, exp x - 1)` at an entry. -/
theorem elu_apply {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = elu (v i) := by
  show Scalar.select (Ideal.cmp .ogt (v i) (Ideal.ofBits .f32 0x00000000#32)) (v i)
      (Ideal.exp (v i) - Ideal.ofBits .f32 0x3F800000#32) = _
  rw [Consts.ofBits_zero, Consts.ofBits_one]
  rfl

/-- The kernel's `softplus` at an entry. -/
theorem softplus_apply {s : Shape} (x : FVec Ideal s .f32) (i : s.Idx) :
    select (cmpf .one (subf x (broadcast s (Scalar.ofBits (F := Ideal) .f32 0x00000000#32)))
        (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32))
          (absf (subf x (broadcast s (Scalar.ofBits (F := Ideal) .f32 0x00000000#32)))))))) i = softplus (x i) := by
  show Scalar.select (Ideal.cmp .one (x i - Ideal.ofBits .f32 0x00000000#32) (x i - Ideal.ofBits .f32 0x00000000#32))
      (x i + Ideal.ofBits .f32 0x00000000#32)
      (max (x i) (Ideal.ofBits .f32 0x00000000#32) + Ideal.log1p (Ideal.exp (Ideal.ofBits .f32 0x00000000#32
        - max (x i - Ideal.ofBits .f32 0x00000000#32) (-(x i - Ideal.ofBits .f32 0x00000000#32))))) = _
  rw [Consts.ofBits_zero]
  rfl

/-- A product into the zero accumulator plus a bias laid along the rows, at (p, q): `dense` of row p. -/
theorem dense_apply {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (p : Fin M) (q : Fin N) :
    addf (matmul d none x w (constant ⟨2, ![M, N]⟩ .f32 0x00000000#32))
        (broadcastTo ⟨2, ![M, N]⟩ (shapeCast ⟨2, ![1, N]⟩ b h1) h2) (ix2 p q)
      = dense (fun k => x (ix2 p k)) (fun k q => w (ix2 k q)) (fun q => b (ix1 q)) q := by
  subst hd
  show FloatOps.matmul (DotDims.plain M K N) none x w (constant ⟨2, ![M, N]⟩ .f32 0x00000000#32) (ix2 p q)
      + broadcastTo ⟨2, ![M, N]⟩ (shapeCast ⟨2, ![1, N]⟩ b h1) h2 (ix2 p q) = _
  rw [Cert.LibDense.plain_matmul_apply, broadcastTo_1b_ab_apply, shapeCast_a_1a_apply]
  rfl

/-- Two products into zero accumulators, summed, plus a bias laid along the rows, at (p, q): `dense2` of row p. -/
theorem dense2_apply {φ₁ φ₂ φ₃ φ₄ : FTy} (d₁ : DotDims ⟨2, ![M, K]⟩ ⟨2, ![K, N]⟩ ⟨2, ![M, N]⟩) (hd₁ : d₁ = DotDims.plain M K N)
    (d₂ : DotDims ⟨2, ![M, K₂]⟩ ⟨2, ![K₂, N]⟩ ⟨2, ![M, N]⟩) (hd₂ : d₂ = DotDims.plain M K₂ N)
    (x₁ : FVec Ideal ⟨2, ![M, K]⟩ φ₁) (w₁ : FVec Ideal ⟨2, ![K, N]⟩ φ₂)
    (x₂ : FVec Ideal ⟨2, ![M, K₂]⟩ φ₃) (w₂ : FVec Ideal ⟨2, ![K₂, N]⟩ φ₄) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (q : Fin N) :
    addf (addf (matmul d₁ none x₁ w₁ (constant ⟨2, ![M, N]⟩ .f32 0x00000000#32))
          (matmul d₂ none x₂ w₂ (constant ⟨2, ![M, N]⟩ .f32 0x00000000#32)))
        (broadcastTo ⟨2, ![M, N]⟩ (shapeCast ⟨2, ![1, N]⟩ b h1) h2) (ix2 p q)
      = dense2 (fun k => x₁ (ix2 p k)) (fun k q => w₁ (ix2 k q)) (fun k => x₂ (ix2 p k)) (fun k q => w₂ (ix2 k q))
          (fun q => b (ix1 q)) q := by
  subst hd₁ hd₂
  show (FloatOps.matmul (DotDims.plain M K N) none x₁ w₁ (constant ⟨2, ![M, N]⟩ .f32 0x00000000#32) (ix2 p q)
        + FloatOps.matmul (DotDims.plain M K₂ N) none x₂ w₂ (constant ⟨2, ![M, N]⟩ .f32 0x00000000#32) (ix2 p q))
      + broadcastTo ⟨2, ![M, N]⟩ (shapeCast ⟨2, ![1, N]⟩ b h1) h2 (ix2 p q) = _
  rw [Cert.LibDense.plain_matmul_apply, Cert.LibDense.plain_matmul_apply, broadcastTo_1b_ab_apply, shapeCast_a_1a_apply]
  rfl

/-- The recurrent cell of a block at (p, q), from the two gate pre-activations' three column blocks. -/
theorem cell_apply (gi gh : FVec Ideal ⟨2, ![M, 768]⟩ .f32) (h : FVec Ideal ⟨2, ![M, 256]⟩ .f32)
    (s0 : (⟨2, ![M, 768]⟩ : Shape).Slices ![0, 0] ⟨2, ![M, 256]⟩)
    (s1 : (⟨2, ![M, 768]⟩ : Shape).Slices ![0, 256] ⟨2, ![M, 256]⟩)
    (s2 : (⟨2, ![M, 768]⟩ : Shape).Slices ![0, 512] ⟨2, ![M, 256]⟩) (p : Fin M) (q : Fin 256) :
    addf
      (mulf
        (subf (broadcast ⟨2, ![M, 256]⟩ (Scalar.ofBits (F := Ideal) .f32 0x3F800000#32))
          (logistic (addf (extractStridedSlice ⟨2, ![M, 256]⟩ ![0, 256] gi s1)
            (extractStridedSlice ⟨2, ![M, 256]⟩ ![0, 256] gh s1))))
        (tanh (addf (extractStridedSlice ⟨2, ![M, 256]⟩ ![0, 512] gi s2)
          (mulf (logistic (addf (extractStridedSlice ⟨2, ![M, 256]⟩ ![0, 0] gi s0)
              (extractStridedSlice ⟨2, ![M, 256]⟩ ![0, 0] gh s0)))
            (extractStridedSlice ⟨2, ![M, 256]⟩ ![0, 512] gh s2)))))
      (mulf (logistic (addf (extractStridedSlice ⟨2, ![M, 256]⟩ ![0, 256] gi s1)
          (extractStridedSlice ⟨2, ![M, 256]⟩ ![0, 256] gh s1))) h) (ix2 p q)
      = cell (fun j => gi (ix2 p j)) (fun j => gh (ix2 p j)) (fun j => h (ix2 p j)) q := by
  show (Ideal.ofBits .f32 0x3F800000#32
          - Ideal.logistic (extractStridedSlice ⟨2, ![M, 256]⟩ ![0, 256] gi s1 (ix2 p q)
              + extractStridedSlice ⟨2, ![M, 256]⟩ ![0, 256] gh s1 (ix2 p q)))
        * Ideal.tanh (extractStridedSlice ⟨2, ![M, 256]⟩ ![0, 512] gi s2 (ix2 p q)
            + Ideal.logistic (extractStridedSlice ⟨2, ![M, 256]⟩ ![0, 0] gi s0 (ix2 p q)
                + extractStridedSlice ⟨2, ![M, 256]⟩ ![0, 0] gh s0 (ix2 p q))
              * extractStridedSlice ⟨2, ![M, 256]⟩ ![0, 512] gh s2 (ix2 p q))
      + Ideal.logistic (extractStridedSlice ⟨2, ![M, 256]⟩ ![0, 256] gi s1 (ix2 p q)
            + extractStridedSlice ⟨2, ![M, 256]⟩ ![0, 256] gh s1 (ix2 p q)) * h (ix2 p q) = _
  rw [slice2_axis1_apply 0 gi s0 p q (col0 q) (Nat.zero_add _).symm,
    slice2_axis1_apply 0 gh s0 p q (col0 q) (Nat.zero_add _).symm,
    slice2_axis1_apply 256 gi s1 p q (col1 q) rfl, slice2_axis1_apply 256 gh s1 p q (col1 q) rfl,
    slice2_axis1_apply 512 gi s2 p q (col2 q) rfl, slice2_axis1_apply 512 gh s2 p q (col2 q) rfl,
    Consts.ofBits_one]
  rfl

/-- A head's mean at (p, q): column q of its first half. -/
theorem mean_apply (o : FVec Ideal ⟨2, ![M, 128]⟩ .f32) (s0 : (⟨2, ![M, 128]⟩ : Shape).Slices ![0, 0] ⟨2, ![M, 64]⟩)
    (p : Fin M) (q : Fin 64) :
    extractStridedSlice ⟨2, ![M, 64]⟩ ![0, 0] o s0 (ix2 p q) = mean (fun j => o (ix2 p j)) q :=
  slice2_axis1_apply 0 o s0 p q (fst64 q) (Nat.zero_add _).symm

/-- A head's deviation at (p, q): softplus of column q of its last half, plus the smallest deviation. -/
theorem std_apply (o : FVec Ideal ⟨2, ![M, 128]⟩ .f32) (s1 : (⟨2, ![M, 128]⟩ : Shape).Slices ![0, 64] ⟨2, ![M, 64]⟩)
    (p : Fin M) (q : Fin 64) :
    addf
      (select (cmpf .one (subf (extractStridedSlice ⟨2, ![M, 64]⟩ ![0, 64] o s1) (broadcast ⟨2, ![M, 64]⟩ (Scalar.ofBits (F := Ideal) .f32 0x00000000#32)))
          (subf (extractStridedSlice ⟨2, ![M, 64]⟩ ![0, 64] o s1) (broadcast ⟨2, ![M, 64]⟩ (Scalar.ofBits (F := Ideal) .f32 0x00000000#32))))
        (addf (extractStridedSlice ⟨2, ![M, 64]⟩ ![0, 64] o s1) (broadcast ⟨2, ![M, 64]⟩ (Scalar.ofBits (F := Ideal) .f32 0x00000000#32)))
        (addf (maximumf (extractStridedSlice ⟨2, ![M, 64]⟩ ![0, 64] o s1) (broadcast ⟨2, ![M, 64]⟩ (Scalar.ofBits (F := Ideal) .f32 0x00000000#32)))
          (log1p (exp (subf (broadcast ⟨2, ![M, 64]⟩ (Scalar.ofBits (F := Ideal) .f32 0x00000000#32))
            (absf (subf (extractStridedSlice ⟨2, ![M, 64]⟩ ![0, 64] o s1) (broadcast ⟨2, ![M, 64]⟩ (Scalar.ofBits (F := Ideal) .f32 0x00000000#32)))))))))
      (broadcast ⟨2, ![M, 64]⟩ (Scalar.ofBits (F := Ideal) .f32 0x3727C5AC#32)) (ix2 p q)
      = std (fun j => o (ix2 p j)) q := by
  rw [addf_apply, softplus_apply, slice2_axis1_apply 64 o s1 p q (snd64 q) rfl]
  rfl

end Cert.Rssm.Ker

end
-- ==== Proof.KerPay.lean ====
/-
  The kernel body's values at one entry of a block of 1024 rows.
  From the 22 blocks the body loads (six row blocks of the batch arrays, sixteen whole weights and biases): row p of
  the gate pre-activation is `dense (hidden …)`; of the new belief the recurrent `cell`; of each head's 128 columns
  `priorOut` / `postOut` of that belief; and the seven stored values are the belief, and each head's sampled state,
  mean and deviation.
-/
import proofs.«120973_j24670292148908_2_alg».proof.Proof.KerOps
import proofs.«120973_j24670292148908_2_alg».proof.Proof.Goal
import proofs.«120973_j24670292148908_2_alg».proof.Proof.Gen.KernelIdeal.Skeleton

noncomputable section

namespace Cert.KernelIdeal.Pay

open Cert.KernelIdeal Cert.KernelIdeal.Gen Idealize.ShloMosaic Idealize.ShloMosaic.ValueIdx Cert.Rssm

/-- The 22 blocks the body loads at a grid point, in the windows' order. -/
structure Blk where
  x0 : FVec Ideal S1024x64 .f32
  x1 : FVec Ideal S1024x16 .f32
  x2 : FVec Ideal S1024x256 .f32
  x3 : FVec Ideal S1024x1024 .f32
  x4 : FVec Ideal S1024x64 .f32
  x5 : FVec Ideal S1024x64 .f32
  x6 : FVec Ideal S64x256 .bf16
  x7 : FVec Ideal S16x256 .bf16
  x8 : FVec Ideal S256 .f32
  x9 : FVec Ideal S256x768 .bf16
  x10 : FVec Ideal S768 .f32
  x11 : FVec Ideal S256x768 .bf16
  x12 : FVec Ideal S768 .f32
  x13 : FVec Ideal S256x256 .bf16
  x14 : FVec Ideal S256 .f32
  x15 : FVec Ideal S256x128 .bf16
  x16 : FVec Ideal S128 .f32
  x17 : FVec Ideal S256x256 .bf16
  x18 : FVec Ideal S1024x256 .bf16
  x19 : FVec Ideal S256 .f32
  x20 : FVec Ideal S256x128 .bf16
  x21 : FVec Ideal S128 .f32

namespace Blk

variable (B : Blk)

/-- Row p's new belief, from the blocks. -/
def beliefRow (p : Fin 1024) : Row 256 :=
  belief (row B.x0 p) (row B.x1 p) (row B.x2 p) (mat B.x6) (mat B.x7) (vec B.x8) (mat B.x9) (vec B.x10) (mat B.x11) (vec B.x12)
/-- Row p's prior head, from the blocks. -/
def priorRow (p : Fin 1024) : Row 128 := priorOut (B.beliefRow p) (mat B.x13) (vec B.x14) (mat B.x15) (vec B.x16)
/-- Row p's posterior head, from the blocks. -/
def postRow (p : Fin 1024) : Row 128 :=
  postOut (B.beliefRow p) (row B.x3 p) (mat B.x17) (mat B.x18) (vec B.x19) (mat B.x20) (vec B.x21)

/-- The body's gate pre-activation of the embedding. -/
abbrev payGi : FVec Ideal S1024x768 .f32 := k0_pay6 (F := Ideal) B.x0 B.x1 B.x6 B.x7 B.x8 B.x9 B.x10
/-- The body's new belief. -/
abbrev payBelief : FVec Ideal S1024x256 .f32 := k0_pay7 (F := Ideal) B.x2 (k0_pay5 B.x2) B.payGi B.x11 B.x12
/-- The body's prior hidden layer. -/
abbrev payPriorHid : FVec Ideal S1024x256 .bf16 :=
  k0_pay9 (F := Ideal) B.x2 (k0_pay5 B.x2) B.payGi B.x11 B.x12 B.x13 B.x14
/-- The body's posterior pre-activation. -/
abbrev payPostLin : FVec Ideal S1024x256 .f32 :=
  k0_pay15 (F := Ideal) B.x3 (k0_pay8 B.x2 (k0_pay5 B.x2) B.payGi B.x11 B.x12) B.x17 B.x18 B.x19

end Blk

/-! ## Each payload at an entry, over arbitrary operands -/

theorem gi_apply (X0 : FVec Ideal S1024x64 .f32) (X1 : FVec Ideal S1024x16 .f32) (X6 : FVec Ideal S64x256 .bf16)
    (X7 : FVec Ideal S16x256 .bf16) (X8 : FVec Ideal S256 .f32) (X9 : FVec Ideal S256x768 .bf16) (X10 : FVec Ideal S768 .f32)
    (p : Fin 1024) (j : Fin 768) :
    k0_pay6 (F := Ideal) X0 X1 X6 X7 X8 X9 X10 (ix2 p j)
      = dense (hidden (row X0 p) (row X1 p) (mat X6) (mat X7) (vec X8)) (mat X9) (vec X10) j := by
  unfold k0_pay6
  simp only [shapeCast_self]
  refine (Ker.dense_apply _ rfl _ X9 X10 _ _ p j).trans ?_
  refine congrArg (fun f => dense f (mat X9) (vec X10) j) (funext fun k => ?_)
  refine (Ker.elu_apply _ (ix2 p k)).trans (congrArg elu ?_)
  exact Ker.dense2_apply _ rfl _ rfl _ X6 _ X7 X8 _ _ p k

theorem cell_apply (v2 : FVec Ideal S1024x256 .f32) (v26 : FVec Ideal S1024x256 .bf16) (v33 : FVec Ideal S1024x768 .f32)
    (v34 : FVec Ideal S256x768 .bf16) (v37 : FVec Ideal S768 .f32) (p : Fin 1024) (q : Fin 256) :
    k0_pay7 (F := Ideal) v2 v26 v33 v34 v37 (ix2 p q)
      = cell (row v33 p) (dense (row v26 p) (mat v34) (vec v37)) (row v2 p) q := by
  unfold k0_pay7
  simp only [shapeCast_self]
  refine (Ker.cell_apply v33 _ v2 _ _ _ p q).trans ?_
  refine congrArg (fun g => cell (row v33 p) g (row v2 p) q) (funext fun j => ?_)
  exact Ker.dense_apply _ rfl v26 v34 v37 _ _ p j

theorem priorHid_apply (v2 : FVec Ideal S1024x256 .f32) (v26 : FVec Ideal S1024x256 .bf16) (v33 : FVec Ideal S1024x768 .f32)
    (v34 : FVec Ideal S256x768 .bf16) (v37 : FVec Ideal S768 .f32) (v61 : FVec Ideal S256x256 .bf16) (v64 : FVec Ideal S256 .f32)
    (p : Fin 1024) (q : Fin 256) :
    k0_pay9 (F := Ideal) v2 v26 v33 v34 v37 v61 v64 (ix2 p q)
      = elu (dense (row (k0_pay7 (F := Ideal) v2 v26 v33 v34 v37) p) (mat v61) (vec v64) q) := by
  unfold k0_pay9 k0_pay8
  simp only [shapeCast_self]
  refine (Ker.elu_apply _ (ix2 p q)).trans (congrArg elu ?_)
  exact Ker.dense_apply _ rfl _ v61 v64 _ _ p q

theorem head_apply (v74 : FVec Ideal S1024x256 .bf16) (v76 : FVec Ideal S256x128 .bf16) (v78 : FVec Ideal S128 .f32)
    (p : Fin 1024) (q : Fin 128) :
    k0_pay11 (F := Ideal) v74 v76 (constant S1024x128 .f32 0x00000000#32) v78 (ix2 p q)
      = dense (row v74 p) (mat v76) (vec v78) q := by
  unfold k0_pay11
  exact Ker.dense_apply _ rfl v74 v76 v78 _ _ p q

theorem mean_apply (v74 : FVec Ideal S1024x256 .bf16) (v76 : FVec Ideal S256x128 .bf16) (v78 : FVec Ideal S128 .f32)
    (p : Fin 1024) (q : Fin 64) :
    k0_pay12 (F := Ideal) v74 v76 (constant S1024x128 .f32 0x00000000#32) v78 (ix2 p q)
      = mean (row (k0_pay11 (F := Ideal) v74 v76 (constant S1024x128 .f32 0x00000000#32) v78) p) q := by
  unfold k0_pay12
  exact Ker.mean_apply _ _ p q

theorem std_apply (v74 : FVec Ideal S1024x256 .bf16) (v76 : FVec Ideal S256x128 .bf16) (v78 : FVec Ideal S128 .f32)
    (p : Fin 1024) (q : Fin 64) :
    k0_pay13 (F := Ideal) v74 v76 (constant S1024x128 .f32 0x00000000#32) v78 (ix2 p q)
      = std (row (k0_pay11 (F := Ideal) v74 v76 (constant S1024x128 .f32 0x00000000#32) v78) p) q := by
  unfold k0_pay13
  exact Ker.std_apply _ _ p q

theorem state_apply (v4 : FVec Ideal S1024x64 .f32) (v74 : FVec Ideal S1024x256 .bf16) (v76 : FVec Ideal S256x128 .bf16)
    (v78 : FVec Ideal S128 .f32) (p : Fin 1024) (q : Fin 64) :
    k0_pay14 (F := Ideal) v4 v74 v76 (constant S1024x128 .f32 0x00000000#32) v78 (ix2 p q)
      = state (row (k0_pay11 (F := Ideal) v74 v76 (constant S1024x128 .f32 0x00000000#32) v78) p) (row v4 p) q := by
  unfold k0_pay14
  show k0_pay12 (F := Ideal) v74 v76 (constant S1024x128 .f32 0x00000000#32) v78 (ix2 p q)
      + k0_pay13 (F := Ideal) v74 v76 (constant S1024x128 .f32 0x00000000#32) v78 (ix2 p q) * v4 (ix2 p q) = _
  rw [mean_apply, std_apply]
  rfl

theorem postLin_apply (v3 : FVec Ideal S1024x1024 .f32) (v60 : FVec Ideal S1024x256 .bf16) (v106 : FVec Ideal S256x256 .bf16)
    (v109 : FVec Ideal S1024x256 .bf16) (v113 : FVec Ideal S256 .f32) (p : Fin 1024) (q : Fin 256) :
    k0_pay15 (F := Ideal) v3 v60 v106 v109 v113 (ix2 p q)
      = dense2 (row v60 p) (mat v106) (row v3 p) (mat v109) (vec v113) q := by
  unfold k0_pay15
  simp only [shapeCast_self]
  exact Ker.dense2_apply _ rfl _ rfl v60 v106 _ v109 v113 _ _ p q

theorem postHead_apply (v116 : FVec Ideal S1024x256 .f32) (v124 : FVec Ideal S256x128 .bf16) (v127 : FVec Ideal S128 .f32)
    (p : Fin 1024) (q : Fin 128) :
    k0_pay1 (F := Ideal) v116 v124 v127 (ix2 p q) = dense (fun k => elu (v116 (ix2 p k))) (mat v124) (vec v127) q := by
  unfold k0_pay1
  simp only [shapeCast_self]
  refine (Ker.dense_apply _ rfl _ v124 v127 _ _ p q).trans ?_
  exact congrArg (fun f => dense f (mat v124) (vec v127) q) (funext fun k => Ker.elu_apply v116 (ix2 p k))

theorem postMean_apply (v116 : FVec Ideal S1024x256 .f32) (v124 : FVec Ideal S256x128 .bf16) (v127 : FVec Ideal S128 .f32)
    (p : Fin 1024) (q : Fin 64) :
    k0_pay2 (F := Ideal) v116 v124 v127 (ix2 p q) = mean (row (k0_pay1 (F := Ideal) v116 v124 v127) p) q := by
  unfold k0_pay2
  exact Ker.mean_apply _ _ p q

theorem postStd_apply (v116 : FVec Ideal S1024x256 .f32) (v124 : FVec Ideal S256x128 .bf16) (v127 : FVec Ideal S128 .f32)
    (p : Fin 1024) (q : Fin 64) :
    k0_pay3 (F := Ideal) v116 v124 v127 (ix2 p q) = std (row (k0_pay1 (F := Ideal) v116 v124 v127) p) q := by
  unfold k0_pay3
  exact Ker.std_apply _ _ p q

theorem postState_apply (v5 : FVec Ideal S1024x64 .f32) (v116 : FVec Ideal S1024x256 .f32) (v124 : FVec Ideal S256x128 .bf16)
    (v127 : FVec Ideal S128 .f32) (p : Fin 1024) (q : Fin 64) :
    k0_pay4 (F := Ideal) v5 v116 v124 v127 (ix2 p q)
      = state (row (k0_pay1 (F := Ideal) v116 v124 v127) p) (row v5 p) q := by
  unfold k0_pay4
  show k0_pay2 (F := Ideal) v116 v124 v127 (ix2 p q) + k0_pay3 (F := Ideal) v116 v124 v127 (ix2 p q) * v5 (ix2 p q) = _
  rw [postMean_apply, postStd_apply]
  rfl

/-! ## The stored values of a block -/

variable (B : Blk)

/-- The belief the body stores, at (p, q). -/
theorem payBelief_apply (p : Fin 1024) (q : Fin 256) : B.payBelief (ix2 p q) = B.beliefRow p q := by
  refine (cell_apply B.x2 (k0_pay5 B.x2) B.payGi B.x11 B.x12 p q).trans ?_
  exact congrArg (fun g => cell g (dense (row B.x2 p) (mat B.x11) (vec B.x12)) (row B.x2 p) q)
    (funext fun j => gi_apply B.x0 B.x1 B.x6 B.x7 B.x8 B.x9 B.x10 p j)

/-- The prior head the body computes, at (p, j). -/
theorem payPrior_apply (p : Fin 1024) (j : Fin 128) :
    k0_pay11 (F := Ideal) B.payPriorHid (k0_pay10 B.x15) (constant S1024x128 .f32 0x00000000#32) B.x16 (ix2 p j)
      = B.priorRow p j := by
  refine (head_apply B.payPriorHid (k0_pay10 B.x15) B.x16 p j).trans ?_
  unfold Blk.priorRow priorOut k0_pay10
  simp only [shapeCast_self]
  refine congrArg (fun f => dense f (mat B.x15) (vec B.x16) j) (funext fun k => ?_)
  refine (priorHid_apply B.x2 (k0_pay5 B.x2) B.payGi B.x11 B.x12 B.x13 B.x14 p k).trans (congrArg elu ?_)
  exact congrArg (fun f => dense f (mat B.x13) (vec B.x14) k) (funext fun i => payBelief_apply B p i)

/-- The posterior head the body computes, at (p, j). -/
theorem payPost_apply (p : Fin 1024) (j : Fin 128) :
    k0_pay1 (F := Ideal) B.payPostLin B.x20 B.x21 (ix2 p j) = B.postRow p j := by
  refine (postHead_apply B.payPostLin B.x20 B.x21 p j).trans ?_
  unfold Blk.postRow postOut
  refine congrArg (fun f => dense f (mat B.x20) (vec B.x21) j) (funext fun k => congrArg elu ?_)
  refine (postLin_apply B.x3 _ B.x17 B.x18 B.x19 p k).trans ?_
  exact congrArg (fun f => dense2 f (mat B.x17) (row B.x3 p) (mat B.x18) (vec B.x19) k)
    (funext fun i => payBelief_apply B p i)

/-- The prior's sampled state the body stores, at (p, q). -/
theorem payPriorState_apply (p : Fin 1024) (q : Fin 64) :
    k0_pay14 (F := Ideal) B.x4 B.payPriorHid (k0_pay10 B.x15) (constant S1024x128 .f32 0x00000000#32) B.x16 (ix2 p q)
      = state (B.priorRow p) (row B.x4 p) q := by
  rw [state_apply]
  exact congrArg (fun o => state o (row B.x4 p) q) (funext fun j => payPrior_apply B p j)

/-- The prior's mean the body stores, at (p, q). -/
theorem payPriorMean_apply (p : Fin 1024) (q : Fin 64) :
    k0_pay12 (F := Ideal) B.payPriorHid (k0_pay10 B.x15) (constant S1024x128 .f32 0x00000000#32) B.x16 (ix2 p q)
      = mean (B.priorRow p) q := by
  rw [mean_apply]
  exact congrArg (fun o => mean o q) (funext fun j => payPrior_apply B p j)

/-- The prior's deviation the body stores, at (p, q). -/
theorem payPriorStd_apply (p : Fin 1024) (q : Fin 64) :
    k0_pay13 (F := Ideal) B.payPriorHid (k0_pay10 B.x15) (constant S1024x128 .f32 0x00000000#32) B.x16 (ix2 p q)
      = std (B.priorRow p) q := by
  rw [std_apply]
  exact congrArg (fun o => std o q) (funext fun j => payPrior_apply B p j)

/-- The posterior's sampled state the body stores, at (p, q). -/
theorem payPostState_apply (p : Fin 1024) (q : Fin 64) :
    k0_pay4 (F := Ideal) B.x5 B.payPostLin B.x20 B.x21 (ix2 p q) = state (B.postRow p) (row B.x5 p) q := by
  rw [postState_apply]
  exact congrArg (fun o => state o (row B.x5 p) q) (funext fun j => payPost_apply B p j)

/-- The posterior's mean the body stores, at (p, q). -/
theorem payPostMean_apply (p : Fin 1024) (q : Fin 64) :
    k0_pay2 (F := Ideal) B.payPostLin B.x20 B.x21 (ix2 p q) = mean (B.postRow p) q := by
  rw [postMean_apply]
  exact congrArg (fun o => mean o q) (funext fun j => payPost_apply B p j)

/-- The posterior's deviation the body stores, at (p, q). -/
theorem payPostStd_apply (p : Fin 1024) (q : Fin 64) :
    k0_pay3 (F := Ideal) B.payPostLin B.x20 B.x21 (ix2 p q) = std (B.postRow p) q := by
  rw [postStd_apply]
  exact congrArg (fun o => std o q) (funext fun j => payPost_apply B p j)

end Cert.KernelIdeal.Pay

end
-- ==== Proof.KerBlocks.lean ====
/-
  The blocks the kernel loads at grid point t, as rows of the argument arrays.
  The grid has 64 points; point t's block of each batch array is its rows 1024 t … 1024 t + 1023 (all columns), and its
  block of each weight or bias is the whole array. The weights reach the kernel through the host's slices and casts:
  the embedding's weight as its rows 0 … 63 and its rows 64 … 79, the posterior embedding's as its rows 0 … 255 and
  256 … 1279, every weight cast to a narrower format, which on the extended reals changes nothing.
  So row p of the step computed from the blocks at point t is row 1024 t + p of the step computed from the arrays.
-/
import proofs.«120973_j24670292148908_2_alg».proof.Proof.FrameIdealP
import proofs.«120973_j24670292148908_2_alg».proof.Proof.Goal
import proofs.«120973_j24670292148908_2_alg».proof.Proof.KerPay
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.GenP Cert.Rssm

variable (m : (ℓ : Loc nD τ sig) → Buf (Elt Ideal) ℓ) (ρ : Dev nD → PrngReg)

theorem hN : cfg0.N = 64 := N_0

/-- Row p of point t's block is row 1024 t + p of the array. -/
def rowAt (t : Fin cfg0.N) (p : Fin 1024) : Fin 65536 :=
  ⟨1024 * t.val + p.val, by have h : t.val < 64 := lt_of_lt_of_eq t.isLt hN; have := p.isLt; omega⟩

/-- The twenty argument arrays of core c. -/
def args (c : Dev nD) : Args where
  s := m ((c.tc : Thread nD τ).loc main_arg0)
  a := m ((c.tc : Thread nD τ).loc main_arg1)
  h := m ((c.tc : Thread nD τ).loc main_arg2)
  obs := m ((c.tc : Thread nD τ).loc main_arg3)
  e1 := m ((c.tc : Thread nD τ).loc main_arg4)
  e2 := m ((c.tc : Thread nD τ).loc main_arg5)
  wsa := m ((c.tc : Thread nD τ).loc main_arg6)
  bsa := m ((c.tc : Thread nD τ).loc main_arg7)
  wih := m ((c.tc : Thread nD τ).loc main_arg8)
  bih := m ((c.tc : Thread nD τ).loc main_arg9)
  whh := m ((c.tc : Thread nD τ).loc main_arg10)
  bhh := m ((c.tc : Thread nD τ).loc main_arg11)
  wbp := m ((c.tc : Thread nD τ).loc main_arg12)
  bbp := m ((c.tc : Thread nD τ).loc main_arg13)
  wsp := m ((c.tc : Thread nD τ).loc main_arg14)
  bsp := m ((c.tc : Thread nD τ).loc main_arg15)
  wbq := m ((c.tc : Thread nD τ).loc main_arg16)
  bbq := m ((c.tc : Thread nD τ).loc main_arg17)
  wsq := m ((c.tc : Thread nD τ).loc main_arg18)
  bsq := m ((c.tc : Thread nD τ).loc main_arg19)

/-- The 22 blocks the body loads at point t. -/
def blkOf (c : Dev nD) (t : Fin cfg0.N) : Pay.Blk where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t

/-! ## The printed index maps, decided over the 64 points -/

/-- The batch windows (inputs 0–5, outputs 22–28) move down the rows with the point and stay at column block 0. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem idx_outs : ∀ t : Fin cfg0.N,
    (win0_22.index t (0 : Fin 2) = t.val ∧ win0_22.index t (1 : Fin 2) = 0)
    ∧ (win0_23.index t (0 : Fin 2) = t.val ∧ win0_23.index t (1 : Fin 2) = 0)
    ∧ (win0_24.index t (0 : Fin 2) = t.val ∧ win0_24.index t (1 : Fin 2) = 0)
    ∧ (win0_25.index t (0 : Fin 2) = t.val ∧ win0_25.index t (1 : Fin 2) = 0)
    ∧ (win0_26.index t (0 : Fin 2) = t.val ∧ win0_26.index t (1 : Fin 2) = 0)
    ∧ (win0_27.index t (0 : Fin 2) = t.val ∧ win0_27.index t (1 : Fin 2) = 0)
    ∧ (win0_28.index t (0 : Fin 2) = t.val ∧ win0_28.index t (1 : Fin 2) = 0) :=
  (by decide +kernel : ∀ t : Fin grid0.N, _)

/-- The weight windows stay at block (0, 0). -/
theorem idx_mats : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_13.index t (0 : Fin 2) = 0 ∧ win0_13.index t (1 : Fin 2) = 0)
    ∧ (win0_15.index t (0 : Fin 2) = 0 ∧ win0_15.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_20.index t (0 : Fin 2) = 0 ∧ win0_20.index t (1 : Fin 2) = 0) :=
  (by decide +kernel : ∀ t : Fin grid0.N, _)

/-- The bias windows stay at block 0. -/
theorem idx_vecs : ∀ t : Fin cfg0.N,
    win0_8.index t (0 : Fin 1) = 0 ∧ win0_10.index t (0 : Fin 1) = 0 ∧ win0_12.index t (0 : Fin 1) = 0
    ∧ win0_14.index t (0 : Fin 1) = 0 ∧ win0_16.index t (0 : Fin 1) = 0 ∧ win0_19.index t (0 : Fin 1) = 0
    ∧ win0_21.index t (0 : Fin 1) = 0 :=
  (by decide +kernel : ∀ t : Fin grid0.N, _)

/-! ## The repeated arithmetic, once

A block's coordinate along an axis is `index × size + 1 × (the coordinate inside the block)`. For a batch window the row
index is the point and the column index 0; for a weight or a bias every index is 0. -/

/-- Entry (p, k) of a batch window's block at point t is entry (1024 t + p, k) of its array. -/
local macro "block_row " w:ident arg:ident Varg:ident cols:num hi:ident t:ident p:ident k:ident : tactic =>
  `(tactic| (
      unfold iblk
      rw [View.read_apply]
      show V _ _ $arg _ = _
      rw [$Varg:ident]
      congr 1
      funext ax
      apply Fin.ext
      match ax with
      | ⟨0, _⟩ => (show ($w).index $t 0 * 1024 + 1 * ($p).val = 1024 * ($t).val + ($p).val; rw [($hi).1]; omega)
      | ⟨1, _⟩ => (show ($w).index $t 1 * $cols + 1 * ($k).val = ($k).val; rw [($hi).2]; omega)))

/-- A weight window's block is the whole array: entry (k, q) of the block is entry (k, q). -/
local macro "block_id2 " w:ident a:num b:num hi:ident t:ident k:ident q:ident : tactic =>
  `(tactic| (
      funext ax
      apply Fin.ext
      match ax with
      | ⟨0, _⟩ => (show ($w).index $t 0 * $a + 1 * ($k).val = ($k).val; rw [($hi).1]; omega)
      | ⟨1, _⟩ => (show ($w).index $t 1 * $b + 1 * ($q).val = ($q).val; rw [($hi).2]; omega)))

/-- A bias window's block is the whole vector. -/
local macro "block_id1 " w:ident a:num hi:ident t:ident q:ident : tactic =>
  `(tactic| (
      funext ax
      apply Fin.ext
      match ax with
      | ⟨0, _⟩ => (show ($w).index $t 0 * $a + 1 * ($q).val = ($q).val; rw [$hi:ident]; omega)))

/-! ## The batch windows -/

theorem x0_row (c : Dev nD) (t : Fin cfg0.N) (p : Fin 1024) : row (blkOf m c t).x0 p = row (args m c).s (rowAt t p) := by
  funext k
  have hi := (idx_rows t).1
  show (iblk m c 0 t : FVec Ideal S1024x64 .f32) (ix2 p k)
      = (m ((c.tc : Thread nD τ).loc main_arg0) : S65536x64.Idx → EReal) (ix2 (rowAt t p) k)
  block_row win0_0 main_arg0 V_main_arg0 64 hi t p k

theorem x1_row (c : Dev nD) (t : Fin cfg0.N) (p : Fin 1024) : row (blkOf m c t).x1 p = row (args m c).a (rowAt t p) := by
  funext k
  have hi := (idx_rows t).2.1
  show (iblk m c 1 t : FVec Ideal S1024x16 .f32) (ix2 p k)
      = (m ((c.tc : Thread nD τ).loc main_arg1) : S65536x16.Idx → EReal) (ix2 (rowAt t p) k)
  block_row win0_1 main_arg1 V_main_arg1 16 hi t p k

theorem x2_row (c : Dev nD) (t : Fin cfg0.N) (p : Fin 1024) : row (blkOf m c t).x2 p = row (args m c).h (rowAt t p) := by
  funext k
  have hi := (idx_rows t).2.2.1
  show (iblk m c 2 t : FVec Ideal S1024x256 .f32) (ix2 p k)
      = (m ((c.tc : Thread nD τ).loc main_arg2) : S65536x256.Idx → EReal) (ix2 (rowAt t p) k)
  block_row win0_2 main_arg2 V_main_arg2 256 hi t p k

theorem x3_row (c : Dev nD) (t : Fin cfg0.N) (p : Fin 1024) : row (blkOf m c t).x3 p = row (args m c).obs (rowAt t p) := by
  funext k
  have hi := (idx_rows t).2.2.2.1
  show (iblk m c 3 t : FVec Ideal S1024x1024 .f32) (ix2 p k)
      = (m ((c.tc : Thread nD τ).loc main_arg3) : S65536x1024.Idx → EReal) (ix2 (rowAt t p) k)
  block_row win0_3 main_arg3 V_main_arg3 1024 hi t p k

theorem x4_row (c : Dev nD) (t : Fin cfg0.N) (p : Fin 1024) : row (blkOf m c t).x4 p = row (args m c).e1 (rowAt t p) := by
  funext k
  have hi := (idx_rows t).2.2.2.2.1
  show (iblk m c 4 t : FVec Ideal S1024x64 .f32) (ix2 p k)
      = (m ((c.tc : Thread nD τ).loc main_arg4) : S65536x64.Idx → EReal) (ix2 (rowAt t p) k)
  block_row win0_4 main_arg4 V_main_arg4 64 hi t p k

theorem x5_row (c : Dev nD) (t : Fin cfg0.N) (p : Fin 1024) : row (blkOf m c t).x5 p = row (args m c).e2 (rowAt t p) := by
  funext k
  have hi := (idx_rows t).2.2.2.2.2
  show (iblk m c 5 t : FVec Ideal S1024x64 .f32) (ix2 p k)
      = (m ((c.tc : Thread nD τ).loc main_arg5) : S65536x64.Idx → EReal) (ix2 (rowAt t p) k)
  block_row win0_5 main_arg5 V_main_arg5 64 hi t p k

/-! ## The weights as the host hands them to the kernel -/

theorem V_v1 (c : Dev nD) : @Eq (S64x256.Idx → EReal) (V m c main_v1)
    (truncf (F := Ideal) .bf16 (extractStridedSlice S64x256 ![0, 0]
      (m ((c.tc : Thread nD τ).loc main_arg6) : FVec Ideal S80x256 .f32) slices_S80x256_S64x256_0_0) bitsLt_bf16_f32) := by
  dsimp only [V, hostOps0]
  after_results

theorem V_v3 (c : Dev nD) : @Eq (S16x256.Idx → EReal) (V m c main_v3)
    (truncf (F := Ideal) .bf16 (extractStridedSlice S16x256 ![64, 0]
      (m ((c.tc : Thread nD τ).loc main_arg6) : FVec Ideal S80x256 .f32) slices_S80x256_S16x256_64_0) bitsLt_bf16_f32) := by
  dsimp only [V, hostOps0]
  after_results

theorem V_v4 (c : Dev nD) : @Eq (S256x768.Idx → EReal) (V m c main_v4)
    (truncf (F := Ideal) .bf16 (m ((c.tc : Thread nD τ).loc main_arg8) : FVec Ideal S256x768 .f32) bitsLt_bf16_f32) := by
  dsimp only [V, hostOps0]
  after_results

theorem V_v5 (c : Dev nD) : @Eq (S256x768.Idx → EReal) (V m c main_v5)
    (truncf (F := Ideal) .bf16 (m ((c.tc : Thread nD τ).loc main_arg10) : FVec Ideal S256x768 .f32) bitsLt_bf16_f32) := by
  dsimp only [V, hostOps0]
  after_results

theorem V_v6 (c : Dev nD) : @Eq (S256x256.Idx → EReal) (V m c main_v6)
    (truncf (F := Ideal) .bf16 (m ((c.tc : Thread nD τ).loc main_arg12) : FVec Ideal S256x256 .f32) bitsLt_bf16_f32) := by
  dsimp only [V, hostOps0]
  after_results

theorem V_v7 (c : Dev nD) : @Eq (S256x128.Idx → EReal) (V m c main_v7)
    (truncf (F := Ideal) .bf16 (m ((c.tc : Thread nD τ).loc main_arg14) : FVec Ideal S256x128 .f32) bitsLt_bf16_f32) := by
  dsimp only [V, hostOps0]
  after_results

theorem V_v9 (c : Dev nD) : @Eq (S256x256.Idx → EReal) (V m c main_v9)
    (truncf (F := Ideal) .bf16 (extractStridedSlice S256x256 ![0, 0]
      (m ((c.tc : Thread nD τ).loc main_arg16) : FVec Ideal S1280x256 .f32) slices_S1280x256_S256x256_0_0) bitsLt_bf16_f32) := by
  dsimp only [V, hostOps0]
  after_results

theorem V_v11 (c : Dev nD) : @Eq (S1024x256.Idx → EReal) (V m c main_v11)
    (truncf (F := Ideal) .bf16 (extractStridedSlice S1024x256 ![256, 0]
      (m ((c.tc : Thread nD τ).loc main_arg16) : FVec Ideal S1280x256 .f32) slices_S1280x256_S1024x256_256_0) bitsLt_bf16_f32) := by
  dsimp only [V, hostOps0]
  after_results

theorem V_v12 (c : Dev nD) : @Eq (S256x128.Idx → EReal) (V m c main_v12)
    (truncf (F := Ideal) .bf16 (m ((c.tc : Thread nD τ).loc main_arg18) : FVec Ideal S256x128 .f32) bitsLt_bf16_f32) := by
  dsimp only [V, hostOps0]
  after_results

/-! ## The weight windows -/

theorem x6_mat (c : Dev nD) (t : Fin cfg0.N) : mat (blkOf m c t).x6 = (args m c).wsaS := by
  funext k q
  have hi := (idx_mats t).1
  show (iblk m c 6 t : FVec Ideal S64x256 .bf16) (ix2 k q)
      = (m ((c.tc : Thread nD τ).loc main_arg6) : S80x256.Idx → EReal) (ix2 (lo80 k) q)
  have e : (((cfg0.win 6).blk t).view.emb (ix2 k q) : S64x256.Idx) = ix2 k q := by block_id2 win0_6 64 256 hi t k q
  unfold iblk
  rw [View.read_apply, e]
  show V m c main_v1 _ = _
  rw [V_v1]
  show extractStridedSlice S64x256 ![0, 0] (m ((c.tc : Thread nD τ).loc main_arg6) : S80x256.Idx → EReal) slices_S80x256_S64x256_0_0 (ix2 k q) = _
  exact slice2_axis0_apply 0 _ _ k q (lo80 k) (Nat.zero_add _).symm

theorem x7_mat (c : Dev nD) (t : Fin cfg0.N) : mat (blkOf m c t).x7 = (args m c).wsaA := by
  funext k q
  have hi := (idx_mats t).2.1
  show (iblk m c 7 t : FVec Ideal S16x256 .bf16) (ix2 k q)
      = (m ((c.tc : Thread nD τ).loc main_arg6) : S80x256.Idx → EReal) (ix2 (hi80 k) q)
  have e : (((cfg0.win 7).blk t).view.emb (ix2 k q) : S16x256.Idx) = ix2 k q := by block_id2 win0_7 16 256 hi t k q
  unfold iblk
  rw [View.read_apply, e]
  show V m c main_v3 _ = _
  rw [V_v3]
  show extractStridedSlice S16x256 ![64, 0] (m ((c.tc : Thread nD τ).loc main_arg6) : S80x256.Idx → EReal) slices_S80x256_S16x256_64_0 (ix2 k q) = _
  exact slice2_axis0_apply 64 _ _ k q (hi80 k) rfl

theorem x9_mat (c : Dev nD) (t : Fin cfg0.N) : mat (blkOf m c t).x9 = mat (args m c).wih := by
  funext k q
  have hi := (idx_mats t).2.2.1
  show (iblk m c 9 t : FVec Ideal S256x768 .bf16) (ix2 k q)
      = (m ((c.tc : Thread nD τ).loc main_arg8) : S256x768.Idx → EReal) (ix2 k q)
  have e : (((cfg0.win 9).blk t).view.emb (ix2 k q) : S256x768.Idx) = ix2 k q := by block_id2 win0_9 256 768 hi t k q
  unfold iblk
  rw [View.read_apply, e]
  show V m c main_v4 _ = _
  rw [V_v4]
  rfl

theorem x11_mat (c : Dev nD) (t : Fin cfg0.N) : mat (blkOf m c t).x11 = mat (args m c).whh := by
  funext k q
  have hi := (idx_mats t).2.2.2.1
  show (iblk m c 11 t : FVec Ideal S256x768 .bf16) (ix2 k q)
      = (m ((c.tc : Thread nD τ).loc main_arg10) : S256x768.Idx → EReal) (ix2 k q)
  have e : (((cfg0.win 11).blk t).view.emb (ix2 k q) : S256x768.Idx) = ix2 k q := by block_id2 win0_11 256 768 hi t k q
  unfold iblk
  rw [View.read_apply, e]
  show V m c main_v5 _ = _
  rw [V_v5]
  rfl

theorem x13_mat (c : Dev nD) (t : Fin cfg0.N) : mat (blkOf m c t).x13 = mat (args m c).wbp := by
  funext k q
  have hi := (idx_mats t).2.2.2.2.1
  show (iblk m c 13 t : FVec Ideal S256x256 .bf16) (ix2 k q)
      = (m ((c.tc : Thread nD τ).loc main_arg12) : S256x256.Idx → EReal) (ix2 k q)
  have e : (((cfg0.win 13).blk t).view.emb (ix2 k q) : S256x256.Idx) = ix2 k q := by block_id2 win0_13 256 256 hi t k q
  unfold iblk
  rw [View.read_apply, e]
  show V m c main_v6 _ = _
  rw [V_v6]
  rfl

theorem x15_mat (c : Dev nD) (t : Fin cfg0.N) : mat (blkOf m c t).x15 = mat (args m c).wsp := by
  funext k q
  have hi := (idx_mats t).2.2.2.2.2.1
  show (iblk m c 15 t : FVec Ideal S256x128 .bf16) (ix2 k q)
      = (m ((c.tc : Thread nD τ).loc main_arg14) : S256x128.Idx → EReal) (ix2 k q)
  have e : (((cfg0.win 15).blk t).view.emb (ix2 k q) : S256x128.Idx) = ix2 k q := by block_id2 win0_15 256 128 hi t k q
  unfold iblk
  rw [View.read_apply, e]
  show V m c main_v7 _ = _
  rw [V_v7]
  rfl

theorem x17_mat (c : Dev nD) (t : Fin cfg0.N) : mat (blkOf m c t).x17 = (args m c).wbqB := by
  funext k q
  have hi := (idx_mats t).2.2.2.2.2.2.1
  show (iblk m c 17 t : FVec Ideal S256x256 .bf16) (ix2 k q)
      = (m ((c.tc : Thread nD τ).loc main_arg16) : S1280x256.Idx → EReal) (ix2 (lo1280 k) q)
  have e : (((cfg0.win 17).blk t).view.emb (ix2 k q) : S256x256.Idx) = ix2 k q := by block_id2 win0_17 256 256 hi t k q
  unfold iblk
  rw [View.read_apply, e]
  show V m c main_v9 _ = _
  rw [V_v9]
  show extractStridedSlice S256x256 ![0, 0] (m ((c.tc : Thread nD τ).loc main_arg16) : S1280x256.Idx → EReal) slices_S1280x256_S256x256_0_0 (ix2 k q) = _
  exact slice2_axis0_apply 0 _ _ k q (lo1280 k) (Nat.zero_add _).symm

theorem x18_mat (c : Dev nD) (t : Fin cfg0.N) : mat (blkOf m c t).x18 = (args m c).wbqE := by
  funext k q
  have hi := (idx_mats t).2.2.2.2.2.2.2.1
  show (iblk m c 18 t : FVec Ideal S1024x256 .bf16) (ix2 k q)
      = (m ((c.tc : Thread nD τ).loc main_arg16) : S1280x256.Idx → EReal) (ix2 (hi1280 k) q)
  have e : (((cfg0.win 18).blk t).view.emb (ix2 k q) : S1024x256.Idx) = ix2 k q := by block_id2 win0_18 1024 256 hi t k q
  unfold iblk
  rw [View.read_apply, e]
  show V m c main_v11 _ = _
  rw [V_v11]
  show extractStridedSlice S1024x256 ![256, 0] (m ((c.tc : Thread nD τ).loc main_arg16) : S1280x256.Idx → EReal) slices_S1280x256_S1024x256_256_0 (ix2 k q) = _
  exact slice2_axis0_apply 256 _ _ k q (hi1280 k) rfl

theorem x20_mat (c : Dev nD) (t : Fin cfg0.N) : mat (blkOf m c t).x20 = mat (args m c).wsq := by
  funext k q
  have hi := (idx_mats t).2.2.2.2.2.2.2.2
  show (iblk m c 20 t : FVec Ideal S256x128 .bf16) (ix2 k q)
      = (m ((c.tc : Thread nD τ).loc main_arg18) : S256x128.Idx → EReal) (ix2 k q)
  have e : (((cfg0.win 20).blk t).view.emb (ix2 k q) : S256x128.Idx) = ix2 k q := by block_id2 win0_20 256 128 hi t k q
  unfold iblk
  rw [View.read_apply, e]
  show V m c main_v12 _ = _
  rw [V_v12]
  rfl

/-! ## The bias windows -/

theorem x8_vec (c : Dev nD) (t : Fin cfg0.N) : vec (blkOf m c t).x8 = vec (args m c).bsa := by
  funext q
  have hi := (idx_vecs t).1
  show (iblk m c 8 t : FVec Ideal S256 .f32) (ix1 q) = (m ((c.tc : Thread nD τ).loc main_arg7) : S256.Idx → EReal) (ix1 q)
  have e : (((cfg0.win 8).blk t).view.emb (ix1 q) : S256.Idx) = ix1 q := by block_id1 win0_8 256 hi t q
  unfold iblk
  rw [View.read_apply, e]
  show V m c main_arg7 _ = _
  rw [V_main_arg7]

theorem x10_vec (c : Dev nD) (t : Fin cfg0.N) : vec (blkOf m c t).x10 = vec (args m c).bih := by
  funext q
  have hi := (idx_vecs t).2.1
  show (iblk m c 10 t : FVec Ideal S768 .f32) (ix1 q) = (m ((c.tc : Thread nD τ).loc main_arg9) : S768.Idx → EReal) (ix1 q)
  have e : (((cfg0.win 10).blk t).view.emb (ix1 q) : S768.Idx) = ix1 q := by block_id1 win0_10 768 hi t q
  unfold iblk
  rw [View.read_apply, e]
  show V m c main_arg9 _ = _
  rw [V_main_arg9]

theorem x12_vec (c : Dev nD) (t : Fin cfg0.N) : vec (blkOf m c t).x12 = vec (args m c).bhh := by
  funext q
  have hi := (idx_vecs t).2.2.1
  show (iblk m c 12 t : FVec Ideal S768 .f32) (ix1 q) = (m ((c.tc : Thread nD τ).loc main_arg11) : S768.Idx → EReal) (ix1 q)
  have e : (((cfg0.win 12).blk t).view.emb (ix1 q) : S768.Idx) = ix1 q := by block_id1 win0_12 768 hi t q
  unfold iblk
  rw [View.read_apply, e]
  show V m c main_arg11 _ = _
  rw [V_main_arg11]

theorem x14_vec (c : Dev nD) (t : Fin cfg0.N) : vec (blkOf m c t).x14 = vec (args m c).bbp := by
  funext q
  have hi := (idx_vecs t).2.2.2.1
  show (iblk m c 14 t : FVec Ideal S256 .f32) (ix1 q) = (m ((c.tc : Thread nD τ).loc main_arg13) : S256.Idx → EReal) (ix1 q)
  have e : (((cfg0.win 14).blk t).view.emb (ix1 q) : S256.Idx) = ix1 q := by block_id1 win0_14 256 hi t q
  unfold iblk
  rw [View.read_apply, e]
  show V m c main_arg13 _ = _
  rw [V_main_arg13]

theorem x16_vec (c : Dev nD) (t : Fin cfg0.N) : vec (blkOf m c t).x16 = vec (args m c).bsp := by
  funext q
  have hi := (idx_vecs t).2.2.2.2.1
  show (iblk m c 16 t : FVec Ideal S128 .f32) (ix1 q) = (m ((c.tc : Thread nD τ).loc main_arg15) : S128.Idx → EReal) (ix1 q)
  have e : (((cfg0.win 16).blk t).view.emb (ix1 q) : S128.Idx) = ix1 q := by block_id1 win0_16 128 hi t q
  unfold iblk
  rw [View.read_apply, e]
  show V m c main_arg15 _ = _
  rw [V_main_arg15]

theorem x19_vec (c : Dev nD) (t : Fin cfg0.N) : vec (blkOf m c t).x19 = vec (args m c).bbq := by
  funext q
  have hi := (idx_vecs t).2.2.2.2.2.1
  show (iblk m c 19 t : FVec Ideal S256 .f32) (ix1 q) = (m ((c.tc : Thread nD τ).loc main_arg17) : S256.Idx → EReal) (ix1 q)
  have e : (((cfg0.win 19).blk t).view.emb (ix1 q) : S256.Idx) = ix1 q := by block_id1 win0_19 256 hi t q
  unfold iblk
  rw [View.read_apply, e]
  show V m c main_arg17 _ = _
  rw [V_main_arg17]

theorem x21_vec (c : Dev nD) (t : Fin cfg0.N) : vec (blkOf m c t).x21 = vec (args m c).bsq := by
  funext q
  have hi := (idx_vecs t).2.2.2.2.2.2
  show (iblk m c 21 t : FVec Ideal S128 .f32) (ix1 q) = (m ((c.tc : Thread nD τ).loc main_arg19) : S128.Idx → EReal) (ix1 q)
  have e : (((cfg0.win 21).blk t).view.emb (ix1 q) : S128.Idx) = ix1 q := by block_id1 win0_21 128 hi t q
  unfold iblk
  rw [View.read_apply, e]
  show V m c main_arg19 _ = _
  rw [V_main_arg19]

/-! ## Row p of the blocks' step is row 1024 t + p of the arrays' step -/

theorem blk_belief (c : Dev nD) (t : Fin cfg0.N) (p : Fin 1024) :
    (blkOf m c t).beliefRow p = (args m c).beliefRow (rowAt t p) := by
  unfold Pay.Blk.beliefRow Args.beliefRow
  rw [x0_row, x1_row, x2_row, x6_mat, x7_mat, x8_vec, x9_mat, x10_vec, x11_mat, x12_vec]

theorem blk_prior (c : Dev nD) (t : Fin cfg0.N) (p : Fin 1024) :
    (blkOf m c t).priorRow p = (args m c).priorRow (rowAt t p) := by
  unfold Pay.Blk.priorRow Args.priorRow
  rw [blk_belief, x13_mat, x14_vec, x15_mat, x16_vec]

theorem blk_post (c : Dev nD) (t : Fin cfg0.N) (p : Fin 1024) :
    (blkOf m c t).postRow p = (args m c).postRow (rowAt t p) := by
  unfold Pay.Blk.postRow Args.postRow
  rw [blk_belief, x3_row, x17_mat, x18_mat, x19_vec, x20_mat, x21_vec]

end Cert.KernelIdeal.Val

end
-- ==== Proof.KerValue.lean ====
/-
  The arrays the kernel leaves.
  At point t each output window writes back the body's stored value over the blocks at t; by the block lemmas this is
  the block at t — rows 1024 t … 1024 t + 1023 — of the target array. The 64 blocks tile each output array (the point
  that covers row r is r / 1024), so after the run each output array IS its target: the belief and, for each head,
  the sampled state, the mean and the deviation of every row.
-/
import proofs.«120973_j24670292148908_2_alg».proof.Proof.KerBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.GenP Cert.Rssm

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Each load of the body reads a whole staging buffer: the loaded value is the buffer's contents. -/
local macro "whole_loads" : tactic =>
  `(tactic| simp only [View.ld_unit_zero (S := S1024x64) hz2, View.ld_unit_zero (S := S1024x16) hz2,
      View.ld_unit_zero (S := S1024x256) hz2, View.ld_unit_zero (S := S1024x1024) hz2, View.ld_unit_zero (S := S64x256) hz2,
      View.ld_unit_zero (S := S16x256) hz2, View.ld_unit_zero (S := S256x768) hz2, View.ld_unit_zero (S := S256x256) hz2,
      View.ld_unit_zero (S := S256x128) hz2, View.ld_unit_zero (S := S256) hz1, View.ld_unit_zero (S := S768) hz1,
      View.ld_unit_zero (S := S128) hz1])

/-- Entry (p, q) of an output window's block at point t sits at (1024 t + p, q) of its array. -/
local macro "out_emb " w:ident cols:num hi:ident t:ident p:ident q:ident : tactic =>
  `(tactic| (
      funext ax
      apply Fin.ext
      match ax with
      | ⟨0, _⟩ => (show ($w).index $t 0 * 1024 + 1 * ($p).val = 1024 * ($t).val + ($p).val; rw [($hi).1]; omega)
      | ⟨1, _⟩ => (show ($w).index $t 1 * $cols + 1 * ($q).val = ($q).val; rw [($hi).2]; omega)))

/-- Index i lies in the block of point (i 0) / 1024. -/
local macro "in_block " w:ident cols:num hi:ident i:ident : tactic =>
  `(tactic| (
      intro ax
      match ax with
      | ⟨0, _⟩ =>
        (show ($w).index _ 0 * 1024 ≤ (($i) 0).val ∧ (($i) 0).val < ($w).index _ 0 * 1024 + 1024
         rw [($hi).1]
         show (($i) 0).val / 1024 * 1024 ≤ (($i) 0).val ∧ (($i) 0).val < (($i) 0).val / 1024 * 1024 + 1024
         omega)
      | ⟨1, _⟩ =>
        (show ($w).index _ 1 * $cols ≤ (($i) 1).val ∧ (($i) 1).val < ($w).index _ 1 * $cols + $cols
         rw [($hi).2]
         have hcol : (($i) 1).val < $cols := (($i) 1).isLt
         omega)))

/-! ## Output window 22: the belief -/

theorem emb22 (t : Fin cfg0.N) (p : Fin 1024) (q : Fin 256) :
    (((cfg0.win 22).blk t).view.emb (ix2 p q) : S65536x256.Idx) = ix2 (rowAt t p) q := by
  have hi := (idx_outs t).1
  out_emb win0_22 256 hi t p q

set_option maxHeartbeats 1000000 in
theorem flushed22_eq (c : Dev nD) (t : Fin cfg0.N) :
    (dats m 0 c).flushed 22 t = ((cfg0.win 22).blk t).view.read (Elt Ideal) (args m c).outBelief := by
  show (cfg0.win 22).cut (grid0.coords t) ((dats m 0 c).after 22 t) = _
  rw [after0_22]
  unfold out0_22
  rw [View.canon_unit_zero hz2]
  whole_loads
  funext j
  obtain ⟨p, q, rfl⟩ : ∃ (p : Fin 1024) (q : Fin 256), j = ix2 p q := ⟨j 0, j 1, eq_ix2 j⟩
  rw [View.read_apply, emb22]
  refine (Pay.payBelief_apply (blkOf m c t) p q).trans ?_
  rw [blk_belief]
  rfl

theorem mem_blk22 (t : Fin cfg0.N) (i : S65536x256.Idx) :
    i ∈ ((cfg0.win 22).blk t).view.set ↔ ∀ a : Fin 2, win0_22.index t a * S1024x256.size a ≤ (i a).val
      ∧ (i a).val < win0_22.index t a * S1024x256.size a + S1024x256.size a := by
  show i ∈ ((View.whole main_v13_0).slice (win0_22.rect t)).set ↔ _
  rw [View.set_slice_whole, Rect.mem_set_unit]
  exact Iff.rfl

theorem cover22 (i : S65536x256.Idx) :
    ∃ t : Fin cfg0.N, (cfg0.win 22).flush t = true ∧ i ∈ ((cfg0.win 22).blk t).view.set := by
  have hi0 : (i 0).val < 65536 := (i 0).isLt
  have ht : (i 0).val / 1024 < cfg0.N := by rw [hN]; omega
  refine ⟨⟨(i 0).val / 1024, ht⟩, flush0_22 _, ?_⟩
  rw [mem_blk22]
  have hi := (idx_outs ⟨(i 0).val / 1024, ht⟩).1
  in_block win0_22 256 hi i

theorem final22 (c : Dev nD) : (dats m 0 c).arrAt 22 cfg0.N = (args m c).outBelief :=
  (dats m 0 c).arrAt_eq_of_cover 22 _ (fun t _ => flushed22_eq m c t) cover22

/-! ## Output window 23: the prior's sampled state -/

theorem emb23 (t : Fin cfg0.N) (p : Fin 1024) (q : Fin 64) :
    (((cfg0.win 23).blk t).view.emb (ix2 p q) : S65536x64.Idx) = ix2 (rowAt t p) q := by
  have hi := (idx_outs t).2.1
  out_emb win0_23 64 hi t p q

set_option maxHeartbeats 1000000 in
theorem flushed23_eq (c : Dev nD) (t : Fin cfg0.N) :
    (dats m 0 c).flushed 23 t = ((cfg0.win 23).blk t).view.read (Elt Ideal) (args m c).outPriorState := by
  show (cfg0.win 23).cut (grid0.coords t) ((dats m 0 c).after 23 t) = _
  rw [after0_23]
  unfold out0_23
  rw [View.canon_unit_zero hz2]
  whole_loads
  funext j
  obtain ⟨p, q, rfl⟩ : ∃ (p : Fin 1024) (q : Fin 64), j = ix2 p q := ⟨j 0, j 1, eq_ix2 j⟩
  rw [View.read_apply, emb23]
  refine (Pay.payPriorState_apply (blkOf m c t) p q).trans ?_
  rw [blk_prior, x4_row]
  rfl

theorem mem_blk23 (t : Fin cfg0.N) (i : S65536x64.Idx) :
    i ∈ ((cfg0.win 23).blk t).view.set ↔ ∀ a : Fin 2, win0_23.index t a * S1024x64.size a ≤ (i a).val
      ∧ (i a).val < win0_23.index t a * S1024x64.size a + S1024x64.size a := by
  show i ∈ ((View.whole main_v13_1).slice (win0_23.rect t)).set ↔ _
  rw [View.set_slice_whole, Rect.mem_set_unit]
  exact Iff.rfl

theorem cover23 (i : S65536x64.Idx) :
    ∃ t : Fin cfg0.N, (cfg0.win 23).flush t = true ∧ i ∈ ((cfg0.win 23).blk t).view.set := by
  have hi0 : (i 0).val < 65536 := (i 0).isLt
  have ht : (i 0).val / 1024 < cfg0.N := by rw [hN]; omega
  refine ⟨⟨(i 0).val / 1024, ht⟩, flush0_23 _, ?_⟩
  rw [mem_blk23]
  have hi := (idx_outs ⟨(i 0).val / 1024, ht⟩).2.1
  in_block win0_23 64 hi i

theorem final23 (c : Dev nD) : (dats m 0 c).arrAt 23 cfg0.N = (args m c).outPriorState :=
  (dats m 0 c).arrAt_eq_of_cover 23 _ (fun t _ => flushed23_eq m c t) cover23

/-! ## Output window 24: the prior's mean -/

theorem emb24 (t : Fin cfg0.N) (p : Fin 1024) (q : Fin 64) :
    (((cfg0.win 24).blk t).view.emb (ix2 p q) : S65536x64.Idx) = ix2 (rowAt t p) q := by
  have hi := (idx_outs t).2.2.1
  out_emb win0_24 64 hi t p q

set_option maxHeartbeats 1000000 in
theorem flushed24_eq (c : Dev nD) (t : Fin cfg0.N) :
    (dats m 0 c).flushed 24 t = ((cfg0.win 24).blk t).view.read (Elt Ideal) (args m c).outPriorMean := by
  show (cfg0.win 24).cut (grid0.coords t) ((dats m 0 c).after 24 t) = _
  rw [after0_24]
  unfold out0_24
  rw [View.canon_unit_zero hz2]
  whole_loads
  funext j
  obtain ⟨p, q, rfl⟩ : ∃ (p : Fin 1024) (q : Fin 64), j = ix2 p q := ⟨j 0, j 1, eq_ix2 j⟩
  rw [View.read_apply, emb24]
  refine (Pay.payPriorMean_apply (blkOf m c t) p q).trans ?_
  rw [blk_prior]
  rfl

theorem mem_blk24 (t : Fin cfg0.N) (i : S65536x64.Idx) :
    i ∈ ((cfg0.win 24).blk t).view.set ↔ ∀ a : Fin 2, win0_24.index t a * S1024x64.size a ≤ (i a).val
      ∧ (i a).val < win0_24.index t a * S1024x64.size a + S1024x64.size a := by
  show i ∈ ((View.whole main_v13_2).slice (win0_24.rect t)).set ↔ _
  rw [View.set_slice_whole, Rect.mem_set_unit]
  exact Iff.rfl

theorem cover24 (i : S65536x64.Idx) :
    ∃ t : Fin cfg0.N, (cfg0.win 24).flush t = true ∧ i ∈ ((cfg0.win 24).blk t).view.set := by
  have hi0 : (i 0).val < 65536 := (i 0).isLt
  have ht : (i 0).val / 1024 < cfg0.N := by rw [hN]; omega
  refine ⟨⟨(i 0).val / 1024, ht⟩, flush0_24 _, ?_⟩
  rw [mem_blk24]
  have hi := (idx_outs ⟨(i 0).val / 1024, ht⟩).2.2.1
  in_block win0_24 64 hi i

theorem final24 (c : Dev nD) : (dats m 0 c).arrAt 24 cfg0.N = (args m c).outPriorMean :=
  (dats m 0 c).arrAt_eq_of_cover 24 _ (fun t _ => flushed24_eq m c t) cover24

/-! ## Output window 25: the prior's deviation -/

theorem emb25 (t : Fin cfg0.N) (p : Fin 1024) (q : Fin 64) :
    (((cfg0.win 25).blk t).view.emb (ix2 p q) : S65536x64.Idx) = ix2 (rowAt t p) q := by
  have hi := (idx_outs t).2.2.2.1
  out_emb win0_25 64 hi t p q

set_option maxHeartbeats 1000000 in
theorem flushed25_eq (c : Dev nD) (t : Fin cfg0.N) :
    (dats m 0 c).flushed 25 t = ((cfg0.win 25).blk t).view.read (Elt Ideal) (args m c).outPriorStd := by
  show (cfg0.win 25).cut (grid0.coords t) ((dats m 0 c).after 25 t) = _
  rw [after0_25]
  unfold out0_25
  rw [View.canon_unit_zero hz2]
  whole_loads
  funext j
  obtain ⟨p, q, rfl⟩ : ∃ (p : Fin 1024) (q : Fin 64), j = ix2 p q := ⟨j 0, j 1, eq_ix2 j⟩
  rw [View.read_apply, emb25]
  refine (Pay.payPriorStd_apply (blkOf m c t) p q).trans ?_
  rw [blk_prior]
  rfl

theorem mem_blk25 (t : Fin cfg0.N) (i : S65536x64.Idx) :
    i ∈ ((cfg0.win 25).blk t).view.set ↔ ∀ a : Fin 2, win0_25.index t a * S1024x64.size a ≤ (i a).val
      ∧ (i a).val < win0_25.index t a * S1024x64.size a + S1024x64.size a := by
  show i ∈ ((View.whole main_v13_3).slice (win0_25.rect t)).set ↔ _
  rw [View.set_slice_whole, Rect.mem_set_unit]
  exact Iff.rfl

theorem cover25 (i : S65536x64.Idx) :
    ∃ t : Fin cfg0.N, (cfg0.win 25).flush t = true ∧ i ∈ ((cfg0.win 25).blk t).view.set := by
  have hi0 : (i 0).val < 65536 := (i 0).isLt
  have ht : (i 0).val / 1024 < cfg0.N := by rw [hN]; omega
  refine ⟨⟨(i 0).val / 1024, ht⟩, flush0_25 _, ?_⟩
  rw [mem_blk25]
  have hi := (idx_outs ⟨(i 0).val / 1024, ht⟩).2.2.2.1
  in_block win0_25 64 hi i

theorem final25 (c : Dev nD) : (dats m 0 c).arrAt 25 cfg0.N = (args m c).outPriorStd :=
  (dats m 0 c).arrAt_eq_of_cover 25 _ (fun t _ => flushed25_eq m c t) cover25

/-! ## Output window 26: the posterior's sampled state -/

theorem emb26 (t : Fin cfg0.N) (p : Fin 1024) (q : Fin 64) :
    (((cfg0.win 26).blk t).view.emb (ix2 p q) : S65536x64.Idx) = ix2 (rowAt t p) q := by
  have hi := (idx_outs t).2.2.2.2.1
  out_emb win0_26 64 hi t p q

set_option maxHeartbeats 1000000 in
theorem flushed26_eq (c : Dev nD) (t : Fin cfg0.N) :
    (dats m 0 c).flushed 26 t = ((cfg0.win 26).blk t).view.read (Elt Ideal) (args m c).outPostState := by
  show (cfg0.win 26).cut (grid0.coords t) ((dats m 0 c).after 26 t) = _
  rw [after0_26]
  unfold out0_26
  rw [View.canon_unit_zero hz2]
  whole_loads
  funext j
  obtain ⟨p, q, rfl⟩ : ∃ (p : Fin 1024) (q : Fin 64), j = ix2 p q := ⟨j 0, j 1, eq_ix2 j⟩
  rw [View.read_apply, emb26]
  refine (Pay.payPostState_apply (blkOf m c t) p q).trans ?_
  rw [blk_post, x5_row]
  rfl

theorem mem_blk26 (t : Fin cfg0.N) (i : S65536x64.Idx) :
    i ∈ ((cfg0.win 26).blk t).view.set ↔ ∀ a : Fin 2, win0_26.index t a * S1024x64.size a ≤ (i a).val
      ∧ (i a).val < win0_26.index t a * S1024x64.size a + S1024x64.size a := by
  show i ∈ ((View.whole main_v13_4).slice (win0_26.rect t)).set ↔ _
  rw [View.set_slice_whole, Rect.mem_set_unit]
  exact Iff.rfl

theorem cover26 (i : S65536x64.Idx) :
    ∃ t : Fin cfg0.N, (cfg0.win 26).flush t = true ∧ i ∈ ((cfg0.win 26).blk t).view.set := by
  have hi0 : (i 0).val < 65536 := (i 0).isLt
  have ht : (i 0).val / 1024 < cfg0.N := by rw [hN]; omega
  refine ⟨⟨(i 0).val / 1024, ht⟩, flush0_26 _, ?_⟩
  rw [mem_blk26]
  have hi := (idx_outs ⟨(i 0).val / 1024, ht⟩).2.2.2.2.1
  in_block win0_26 64 hi i

theorem final26 (c : Dev nD) : (dats m 0 c).arrAt 26 cfg0.N = (args m c).outPostState :=
  (dats m 0 c).arrAt_eq_of_cover 26 _ (fun t _ => flushed26_eq m c t) cover26

/-! ## Output window 27: the posterior's mean -/

theorem emb27 (t : Fin cfg0.N) (p : Fin 1024) (q : Fin 64) :
    (((cfg0.win 27).blk t).view.emb (ix2 p q) : S65536x64.Idx) = ix2 (rowAt t p) q := by
  have hi := (idx_outs t).2.2.2.2.2.1
  out_emb win0_27 64 hi t p q

set_option maxHeartbeats 1000000 in
theorem flushed27_eq (c : Dev nD) (t : Fin cfg0.N) :
    (dats m 0 c).flushed 27 t = ((cfg0.win 27).blk t).view.read (Elt Ideal) (args m c).outPostMean := by
  show (cfg0.win 27).cut (grid0.coords t) ((dats m 0 c).after 27 t) = _
  rw [after0_27]
  unfold out0_27
  rw [View.canon_unit_zero hz2]
  whole_loads
  funext j
  obtain ⟨p, q, rfl⟩ : ∃ (p : Fin 1024) (q : Fin 64), j = ix2 p q := ⟨j 0, j 1, eq_ix2 j⟩
  rw [View.read_apply, emb27]
  refine (Pay.payPostMean_apply (blkOf m c t) p q).trans ?_
  rw [blk_post]
  rfl

theorem mem_blk27 (t : Fin cfg0.N) (i : S65536x64.Idx) :
    i ∈ ((cfg0.win 27).blk t).view.set ↔ ∀ a : Fin 2, win0_27.index t a * S1024x64.size a ≤ (i a).val
      ∧ (i a).val < win0_27.index t a * S1024x64.size a + S1024x64.size a := by
  show i ∈ ((View.whole main_v13_5).slice (win0_27.rect t)).set ↔ _
  rw [View.set_slice_whole, Rect.mem_set_unit]
  exact Iff.rfl

theorem cover27 (i : S65536x64.Idx) :
    ∃ t : Fin cfg0.N, (cfg0.win 27).flush t = true ∧ i ∈ ((cfg0.win 27).blk t).view.set := by
  have hi0 : (i 0).val < 65536 := (i 0).isLt
  have ht : (i 0).val / 1024 < cfg0.N := by rw [hN]; omega
  refine ⟨⟨(i 0).val / 1024, ht⟩, flush0_27 _, ?_⟩
  rw [mem_blk27]
  have hi := (idx_outs ⟨(i 0).val / 1024, ht⟩).2.2.2.2.2.1
  in_block win0_27 64 hi i

theorem final27 (c : Dev nD) : (dats m 0 c).arrAt 27 cfg0.N = (args m c).outPostMean :=
  (dats m 0 c).arrAt_eq_of_cover 27 _ (fun t _ => flushed27_eq m c t) cover27

/-! ## Output window 28: the posterior's deviation -/

theorem emb28 (t : Fin cfg0.N) (p : Fin 1024) (q : Fin 64) :
    (((cfg0.win 28).blk t).view.emb (ix2 p q) : S65536x64.Idx) = ix2 (rowAt t p) q := by
  have hi := (idx_outs t).2.2.2.2.2.2
  out_emb win0_28 64 hi t p q

set_option maxHeartbeats 1000000 in
theorem flushed28_eq (c : Dev nD) (t : Fin cfg0.N) :
    (dats m 0 c).flushed 28 t = ((cfg0.win 28).blk t).view.read (Elt Ideal) (args m c).outPostStd := by
  show (cfg0.win 28).cut (grid0.coords t) ((dats m 0 c).after 28 t) = _
  rw [after0_28]
  unfold out0_28
  rw [View.canon_unit_zero hz2]
  whole_loads
  funext j
  obtain ⟨p, q, rfl⟩ : ∃ (p : Fin 1024) (q : Fin 64), j = ix2 p q := ⟨j 0, j 1, eq_ix2 j⟩
  rw [View.read_apply, emb28]
  refine (Pay.payPostStd_apply (blkOf m c t) p q).trans ?_
  rw [blk_post]
  rfl

theorem mem_blk28 (t : Fin cfg0.N) (i : S65536x64.Idx) :
    i ∈ ((cfg0.win 28).blk t).view.set ↔ ∀ a : Fin 2, win0_28.index t a * S1024x64.size a ≤ (i a).val
      ∧ (i a).val < win0_28.index t a * S1024x64.size a + S1024x64.size a := by
  show i ∈ ((View.whole main_v13_6).slice (win0_28.rect t)).set ↔ _
  rw [View.set_slice_whole, Rect.mem_set_unit]
  exact Iff.rfl

theorem cover28 (i : S65536x64.Idx) :
    ∃ t : Fin cfg0.N, (cfg0.win 28).flush t = true ∧ i ∈ ((cfg0.win 28).blk t).view.set := by
  have hi0 : (i 0).val < 65536 := (i 0).isLt
  have ht : (i 0).val / 1024 < cfg0.N := by rw [hN]; omega
  refine ⟨⟨(i 0).val / 1024, ht⟩, flush0_28 _, ?_⟩
  rw [mem_blk28]
  have hi := (idx_outs ⟨(i 0).val / 1024, ht⟩).2.2.2.2.2.2
  in_block win0_28 64 hi i

theorem final28 (c : Dev nD) : (dats m 0 c).arrAt 28 cfg0.N = (args m c).outPostStd :=
  (dats m 0 c).arrAt_eq_of_cover 28 _ (fun t _ => flushed28_eq m c t) cover28

/-! ## The run -/

set_option maxHeartbeats 4000000 in
/-- Every weakly fair execution of the idealized kernel terminates with the seven result arrays at their targets and
    the twenty arguments as launched. -/
theorem run : θ_run (defs (F := Ideal)) (onTc (τ := τ) (main (F := Ideal))) ⟨m, fun _ => 0, ρ⟩ fun r => ∀ c : Dev nD,
      r.2.mem ((c.tc : Thread nD τ).loc main_v13_0) = (args m c).outBelief
      ∧ r.2.mem ((c.tc : Thread nD τ).loc main_v13_1) = (args m c).outPriorState
      ∧ r.2.mem ((c.tc : Thread nD τ).loc main_v13_2) = (args m c).outPriorMean
      ∧ r.2.mem ((c.tc : Thread nD τ).loc main_v13_3) = (args m c).outPriorStd
      ∧ r.2.mem ((c.tc : Thread nD τ).loc main_v13_4) = (args m c).outPostState
      ∧ r.2.mem ((c.tc : Thread nD τ).loc main_v13_5) = (args m c).outPostMean
      ∧ r.2.mem ((c.tc : Thread nD τ).loc main_v13_6) = (args m c).outPostStd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run (defs (F := Ideal)) _ _).mono (fun r h c => ⟨((h c).1 22).trans (final22 m c),
      ((h c).1 23).trans (final23 m c),
      ((h c).1 24).trans (final24 m c),
      ((h c).1 25).trans (final25 m c),
      ((h c).1 26).trans (final26 m c),
      ((h c).1 27).trans (final27 m c),
      ((h c).1 28).trans (final28 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c),
      ((h c).1 12).trans (((dats m 0 c).arrAt_in 12 rfl _).trans ((A_eq m c 12).trans (V_main_arg11 m c))),
      ((h c).2 main_arg12 (Pipeline.mem_restRefs_of main_arg12 (by decide) (by decide))).trans (V_main_arg12 m c),
      ((h c).1 14).trans (((dats m 0 c).arrAt_in 14 rfl _).trans ((A_eq m c 14).trans (V_main_arg13 m c))),
      ((h c).2 main_arg14 (Pipeline.mem_restRefs_of main_arg14 (by decide) (by decide))).trans (V_main_arg14 m c),
      ((h c).1 16).trans (((dats m 0 c).arrAt_in 16 rfl _).trans ((A_eq m c 16).trans (V_main_arg15 m c))),
      ((h c).2 main_arg16 (Pipeline.mem_restRefs_of main_arg16 (by decide) (by decide))).trans (V_main_arg16 m c),
      ((h c).1 19).trans (((dats m 0 c).arrAt_in 19 rfl _).trans ((A_eq m c 19).trans (V_main_arg17 m c))),
      ((h c).2 main_arg18 (Pipeline.mem_restRefs_of main_arg18 (by decide) (by decide))).trans (V_main_arg18 m c),
      ((h c).1 21).trans (((dats m 0 c).arrAt_in 21 rfl _).trans ((A_eq m c 21).trans (V_main_arg19 m c)))⟩)
    (run_main m ρ)

end Cert.KernelIdeal.Val

end
-- ==== Proof.RefWrites.lean ====
/-
  A reference among a list is, as a device buffer, among the list's device buffers: the form in which "this operation
  writes the buffer listed for it" is stated operation by operation.
-/
import proofs.«120973_j24670292148908_2_alg».proof.Proof.Gen.ReferenceIdeal
import Idealize.ShloMosaic.Lib.StableHlo.Run

noncomputable section

namespace Cert.ReferenceIdeal.RefRun

open Cert.ReferenceIdeal Idealize.ShloMosaic Idealize.ShloMosaic.StableHlo

/-- A reference among a list is, as a device buffer, among the list's device buffers. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert.ReferenceIdeal.RefRun

end
-- ==== Proof.RefTables.lean ====
/-
  The reference program's @main as one straight line of host operations, in the program's order, the five calls written
  out at their sites, cut by data flow into six consecutive stretches; for each stretch the buffers its operations write;
  and, operation by operation, that each touches TensorCore buffers only, writes the buffer listed for it, and
  allocates nothing.
-/
import proofs.«120973_j24670292148908_2_alg».proof.Proof.Gen.ReferenceIdeal
import proofs.«120973_j24670292148908_2_alg».proof.Proof.RefWrites
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The embedding: the state and action side by side, times W_sa, plus b_sa on every row, through `elu` (written out: the two comparisons with zero, the inner selection, `expm1`, the product with one, the outer selection). -/
abbrev opsA : List (HloOp τ sig (Elt F)) :=
  [ binary main_arg0 main_arg1 main_v0 ((fun a b => concatenate S65536x80 1 [⟨S65536x64, a⟩, ⟨S65536x16, b⟩] concatenates_S65536x64_S65536x16_S65536x80_d1) : (⟨S65536x64, .f32⟩ : BufTy).Contents (Elt F) → (⟨S65536x16, .f32⟩ : BufTy).Contents (Elt F) → (⟨S65536x80, .f32⟩ : BufTy).Contents (Elt F)),
    binary main_v0 main_arg6 main_v1 ((fun l r => Host.dotGeneral dot_S65536x80_S80x256_S65536x256_1_0_0_1_n_n none l r) : (⟨S65536x80, .f32⟩ : BufTy).Contents (Elt F) → (⟨S80x256, .f32⟩ : BufTy).Contents (Elt F) → (⟨S65536x256, .f32⟩ : BufTy).Contents (Elt F)),
    unary main_arg7 main_v2 (broadcastInDim S1x256 ![1] bcast_S256_S1x256_1 : (⟨S256, .f32⟩ : BufTy).Contents (Elt F) → (⟨S1x256, .f32⟩ : BufTy).Contents (Elt F)),
    unary main_v2 main_v3 (broadcastInDim S65536x256 ![0, 1] bcast_S1x256_S65536x256_0_1 : (⟨S1x256, .f32⟩ : BufTy).Contents (Elt F) → (⟨S65536x256, .f32⟩ : BufTy).Contents (Elt F)),
    binary main_v1 main_v3 main_v4 (addf : (⟨S65536x256, .f32⟩ : BufTy).Contents (Elt F) → (⟨S65536x256, .f32⟩ : BufTy).Contents (Elt F) → (⟨S65536x256, .f32⟩ : BufTy).Contents (Elt F)),
    TRef.nullary main_call0.cst (constant S_ .f32 0x00000000#32),
    TRef.unary main_call0.cst main_call0.v0 (broadcastInDim S65536x256 ![] bcast_S_S65536x256),
    TRef.binary (.of main_v4 : TRef sig ⟨S65536x256, .f32⟩) main_call0.v0 main_call0.v1 (cmpf .ogt),
    TRef.nullary main_call0.cst_0 (constant S_ .f32 0x00000000#32),
    TRef.unary main_call0.cst_0 main_call0.v2 (broadcastInDim S65536x256 ![] bcast_S_S65536x256),
    TRef.binary (.of main_v4 : TRef sig ⟨S65536x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S65536x256 ![] bcast_S_S65536x256),
    TRef.ternary main_call0.v3 main_call0.call0.v1 (.of main_v4 : TRef sig ⟨S65536x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S65536x256 ![] bcast_S_S65536x256),
    TRef.binary main_call0.v6 main_call0.v5 main_call0.v7 mulf,
    TRef.ternary main_call0.v1 (.of main_v4 : TRef sig ⟨S65536x256, .f32⟩) main_call0.v7 main_call0.call1.v0 select ]

/-- The recurrent cell: the two gate pre-activations (a product with the weights plus the bias on every row), their three column blocks each, the two logistic gates, the candidate through `tanh`, and the blend with the previous belief. -/
abbrev opsB : List (HloOp τ sig (Elt F)) :=
  [ binary main_v5 main_arg8 main_v6 ((fun l r => Host.dotGeneral dot_S65536x256_S256x768_S65536x768_1_0_0_1_n_n none l r) : (⟨S65536x256, .f32⟩ : BufTy).Contents (Elt F) → (⟨S256x768, .f32⟩ : BufTy).Contents (Elt F) → (⟨S65536x768, .f32⟩ : BufTy).Contents (Elt F)),
    unary main_arg9 main_v7 (broadcastInDim S1x768 ![1] bcast_S768_S1x768_1 : (⟨S768, .f32⟩ : BufTy).Contents (Elt F) → (⟨S1x768, .f32⟩ : BufTy).Contents (Elt F)),
    unary main_v7 main_v8 (broadcastInDim S65536x768 ![0, 1] bcast_S1x768_S65536x768_0_1 : (⟨S1x768, .f32⟩ : BufTy).Contents (Elt F) → (⟨S65536x768, .f32⟩ : BufTy).Contents (Elt F)),
    binary main_v6 main_v8 main_v9 (addf : (⟨S65536x768, .f32⟩ : BufTy).Contents (Elt F) → (⟨S65536x768, .f32⟩ : BufTy).Contents (Elt F) → (⟨S65536x768, .f32⟩ : BufTy).Contents (Elt F)),
    binary main_arg2 main_arg10 main_v10 ((fun l r => Host.dotGeneral dot_S65536x256_S256x768_S65536x768_1_0_0_1_n_n none l r) : (⟨S65536x256, .f32⟩ : BufTy).Contents (Elt F) → (⟨S256x768, .f32⟩ : BufTy).Contents (Elt F) → (⟨S65536x768, .f32⟩ : BufTy).Contents (Elt F)),
    unary main_arg11 main_v11 (broadcastInDim S1x768 ![1] bcast_S768_S1x768_1 : (⟨S768, .f32⟩ : BufTy).Contents (Elt F) → (⟨S1x768, .f32⟩ : BufTy).Contents (Elt F)),
    unary main_v11 main_v12 (broadcastInDim S65536x768 ![0, 1] bcast_S1x768_S65536x768_0_1 : (⟨S1x768, .f32⟩ : BufTy).Contents (Elt F) → (⟨S65536x768, .f32⟩ : BufTy).Contents (Elt F)),
    binary main_v10 main_v12 main_v13 (addf : (⟨S65536x768, .f32⟩ : BufTy).Contents (Elt F) → (⟨S65536x768, .f32⟩ : BufTy).Contents (Elt F) → (⟨S65536x768, .f32⟩ : BufTy).Contents (Elt F)),
    unary main_v9 main_v14 ((extractStridedSlice S65536x256 ![0, 0] · slices_S65536x768_S65536x256_0_0) : (⟨S65536x768, .f32⟩ : BufTy).Contents (Elt F) → (⟨S65536x256, .f32⟩ : BufTy).Contents (Elt F)),
    unary main_v9 main_v15 ((extractStridedSlice S65536x256 ![0, 256] · slices_S65536x768_S65536x256_0_256) : (⟨S65536x768, .f32⟩ : BufTy).Contents (Elt F) → (⟨S65536x256, .f32⟩ : BufTy).Contents (Elt F)),
    unary main_v9 main_v16 ((extractStridedSlice S65536x256 ![0, 512] · slices_S65536x768_S65536x256_0_512) : (⟨S65536x768, .f32⟩ : BufTy).Contents (Elt F) → (⟨S65536x256, .f32⟩ : BufTy).Contents (Elt F)),
    unary main_v13 main_v17 ((extractStridedSlice S65536x256 ![0, 0] · slices_S65536x768_S65536x256_0_0) : (⟨S65536x768, .f32⟩ : BufTy).Contents (Elt F) → (⟨S65536x256, .f32⟩ : BufTy).Contents (Elt F)),
    unary main_v13 main_v18 ((extractStridedSlice S65536x256 ![0, 256] · slices_S65536x768_S65536x256_0_256) : (⟨S65536x768, .f32⟩ : BufTy).Contents (Elt F) → (⟨S65536x256, .f32⟩ : BufTy).Contents (Elt F)),
    unary main_v13 main_v19 ((extractStridedSlice S65536x256 ![0, 512] · slices_S65536x768_S65536x256_0_512) : (⟨S65536x768, .f32⟩ : BufTy).Contents (Elt F) → (⟨S65536x256, .f32⟩ : BufTy).Contents (Elt F)),
    binary main_v14 main_v17 main_v20 (addf : (⟨S65536x256, .f32⟩ : BufTy).Contents (Elt F) → (⟨S65536x256, .f32⟩ : BufTy).Contents (Elt F) → (⟨S65536x256, .f32⟩ : BufTy).Contents (Elt F)),
    unary main_v20 main_v21 (Host.negf : (⟨S65536x256, .f32⟩ : BufTy).Contents (Elt F) → (⟨S65536x256, .f32⟩ : BufTy).Contents (Elt F)),
    unary main_v21 main_v22 (Host.exp : (⟨S65536x256, .f32⟩ : BufTy).Contents (Elt F) → (⟨S65536x256, .f32⟩ : BufTy).Contents (Elt F)),
    nullary main_cst (constant S_ .f32 0x3F800000#32),
    unary main_cst main_v23 (broadcastInDim S65536x256 ![] bcast_S_S65536x256 : (⟨S_, .f32⟩ : BufTy).Contents (Elt F) → (⟨S65536x256, .f32⟩ : BufTy).Contents (Elt F)),
    binary main_v23 main_v22 main_v24 (addf : (⟨S65536x256, .f32⟩ : BufTy).Contents (Elt F) → (⟨S65536x256, .f32⟩ : BufTy).Contents (Elt F) → (⟨S65536x256, .f32⟩ : BufTy).Contents (Elt F)),
    nullary main_cst_0 (constant S_ .f32 0x3F800000#32),
    unary main_cst_0 main_v25 (broadcastInDim S65536x256 ![] bcast_S_S65536x256 : (⟨S_, .f32⟩ : BufTy).Contents (Elt F) → (⟨S65536x256, .f32⟩ : BufTy).Contents (Elt F)),
    binary main_v25 main_v24 main_v26 (Host.divf : (⟨S65536x256, .f32⟩ : BufTy).Contents (Elt F) → (⟨S65536x256, .f32⟩ : BufTy).Contents (Elt F) → (⟨S65536x256, .f32⟩ : BufTy).Contents (Elt F)),
    binary main_v15 main_v18 main_v27 (addf : (⟨S65536x256, .f32⟩ : BufTy).Contents (Elt F) → (⟨S65536x256, .f32⟩ : BufTy).Contents (Elt F) → (⟨S65536x256, .f32⟩ : BufTy).Contents (Elt F)),
    unary main_v27 main_v28 (Host.negf : (⟨S65536x256, .f32⟩ : BufTy).Contents (Elt F) → (⟨S65536x256, .f32⟩ : BufTy).Contents (Elt F)),
    unary main_v28 main_v29 (Host.exp : (⟨S65536x256, .f32⟩ : BufTy).Contents (Elt F) → (⟨S65536x256, .f32⟩ : BufTy).Contents (Elt F)),
    nullary main_cst_1 (constant S_ .f32 0x3F800000#32),
    unary main_cst_1 main_v30 (broadcastInDim S65536x256 ![] bcast_S_S65536x256 : (⟨S_, .f32⟩ : BufTy).Contents (Elt F) → (⟨S65536x256, .f32⟩ : BufTy).Contents (Elt F)),
    binary main_v30 main_v29 main_v31 (addf : (⟨S65536x256, .f32⟩ : BufTy).Contents (Elt F) → (⟨S65536x256, .f32⟩ : BufTy).Contents (Elt F) → (⟨S65536x256, .f32⟩ : BufTy).Contents (Elt F)),
    nullary main_cst_2 (constant S_ .f32 0x3F800000#32),
    unary main_cst_2 main_v32 (broadcastInDim S65536x256 ![] bcast_S_S65536x256 : (⟨S_, .f32⟩ : BufTy).Contents (Elt F) → (⟨S65536x256, .f32⟩ : BufTy).Contents (Elt F)),
    binary main_v32 main_v31 main_v33 (Host.divf : (⟨S65536x256, .f32⟩ : BufTy).Contents (Elt F) → (⟨S65536x256, .f32⟩ : BufTy).Contents (Elt F) → (⟨S65536x256, .f32⟩ : BufTy).Contents (Elt F)),
    binary main_v26 main_v19 main_v34 (mulf : (⟨S65536x256, .f32⟩ : BufTy).Contents (Elt F) → (⟨S65536x256, .f32⟩ : BufTy).Contents (Elt F) → (⟨S65536x256, .f32⟩ : BufTy).Contents (Elt F)),
    binary main_v16 main_v34 main_v35 (addf : (⟨S65536x256, .f32⟩ : BufTy).Contents (Elt F) → (⟨S65536x256, .f32⟩ : BufTy).Contents (Elt F) → (⟨S65536x256, .f32⟩ : BufTy).Contents (Elt F)),
    unary main_v35 main_v36 (Host.tanh : (⟨S65536x256, .f32⟩ : BufTy).Contents (Elt F) → (⟨S65536x256, .f32⟩ : BufTy).Contents (Elt F)),
    nullary main_cst_3 (constant S_ .f32 0x3F800000#32),
    unary main_cst_3 main_v37 (broadcastInDim S65536x256 ![] bcast_S_S65536x256 : (⟨S_, .f32⟩ : BufTy).Contents (Elt F) → (⟨S65536x256, .f32⟩ : BufTy).Contents (Elt F)),
    binary main_v37 main_v33 main_v38 (subf : (⟨S65536x256, .f32⟩ : BufTy).Contents (Elt F) → (⟨S65536x256, .f32⟩ : BufTy).Contents (Elt F) → (⟨S65536x256, .f32⟩ : BufTy).Contents (Elt F)),
    binary main_v38 main_v36 main_v39 (mulf : (⟨S65536x256, .f32⟩ : BufTy).Contents (Elt F) → (⟨S65536x256, .f32⟩ : BufTy).Contents (Elt F) → (⟨S65536x256, .f32⟩ : BufTy).Contents (Elt F)),
    binary main_v33 main_arg2 main_v40 (mulf : (⟨S65536x256, .f32⟩ : BufTy).Contents (Elt F) → (⟨S65536x256, .f32⟩ : BufTy).Contents (Elt F) → (⟨S65536x256, .f32⟩ : BufTy).Contents (Elt F)),
    binary main_v39 main_v40 main_v41 (addf : (⟨S65536x256, .f32⟩ : BufTy).Contents (Elt F) → (⟨S65536x256, .f32⟩ : BufTy).Contents (Elt F) → (⟨S65536x256, .f32⟩ : BufTy).Contents (Elt F)) ]

/-- The prior head: the belief times W_bp plus b_bp through `elu`, then times the output weights plus the bias; its first 64 columns (the mean) and its last 64. -/
abbrev opsC : List (HloOp τ sig (Elt F)) :=
  [ binary main_v41 main_arg12 main_v42 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg13 main_v43 (broadcastInDim S1x256 ![1] bcast_S256_S1x256_1 : (⟨S256, .f32⟩ : BufTy).Contents (Elt F) → (⟨S1x256, .f32⟩ : BufTy).Contents (Elt F)),
    unary main_v43 main_v44 (broadcastInDim S65536x256 ![0, 1] bcast_S1x256_S65536x256_0_1 : (⟨S1x256, .f32⟩ : BufTy).Contents (Elt F) → (⟨S65536x256, .f32⟩ : BufTy).Contents (Elt F)),
    binary main_v42 main_v44 main_v45 (addf : (⟨S65536x256, .f32⟩ : BufTy).Contents (Elt F) → (⟨S65536x256, .f32⟩ : BufTy).Contents (Elt F) → (⟨S65536x256, .f32⟩ : BufTy).Contents (Elt F)),
    TRef.nullary main_call1.cst (constant S_ .f32 0x00000000#32),
    TRef.unary main_call1.cst main_call1.v0 (broadcastInDim S65536x256 ![] bcast_S_S65536x256),
    TRef.binary (.of main_v45 : TRef sig ⟨S65536x256, .f32⟩) main_call1.v0 main_call1.v1 (cmpf .ogt),
    TRef.nullary main_call1.cst_0 (constant S_ .f32 0x00000000#32),
    TRef.unary main_call1.cst_0 main_call1.v2 (broadcastInDim S65536x256 ![] bcast_S_S65536x256),
    TRef.binary (.of main_v45 : TRef sig ⟨S65536x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S65536x256 ![] bcast_S_S65536x256),
    TRef.ternary main_call1.v3 main_call1.call0.v1 (.of main_v45 : TRef sig ⟨S65536x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S65536x256 ![] bcast_S_S65536x256),
    TRef.binary main_call1.v6 main_call1.v5 main_call1.v7 mulf,
    TRef.ternary main_call1.v1 (.of main_v45 : TRef sig ⟨S65536x256, .f32⟩) main_call1.v7 main_call1.call1.v0 select,
    binary main_v46 main_arg14 main_v47 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    unary main_arg15 main_v48 (broadcastInDim S1x128 ![1] bcast_S128_S1x128_1 : (⟨S128, .f32⟩ : BufTy).Contents (Elt F) → (⟨S1x128, .f32⟩ : BufTy).Contents (Elt F)),
    unary main_v48 main_v49 (broadcastInDim S65536x128 ![0, 1] bcast_S1x128_S65536x128_0_1 : (⟨S1x128, .f32⟩ : BufTy).Contents (Elt F) → (⟨S65536x128, .f32⟩ : BufTy).Contents (Elt F)),
    binary main_v47 main_v49 main_v50 (addf : (⟨S65536x128, .f32⟩ : BufTy).Contents (Elt F) → (⟨S65536x128, .f32⟩ : BufTy).Contents (Elt F) → (⟨S65536x128, .f32⟩ : BufTy).Contents (Elt F)),
    unary main_v50 main_v51 ((extractStridedSlice S65536x64 ![0, 0] · slices_S65536x128_S65536x64_0_0) : (⟨S65536x128, .f32⟩ : BufTy).Contents (Elt F) → (⟨S65536x64, .f32⟩ : BufTy).Contents (Elt F)),
    unary main_v50 main_v52 ((extractStridedSlice S65536x64 ![0, 64] · slices_S65536x128_S65536x64_0_64) : (⟨S65536x128, .f32⟩ : BufTy).Contents (Elt F) → (⟨S65536x64, .f32⟩ : BufTy).Contents (Elt F)) ]

/-- The prior deviation and state: `softplus` of the last 64 columns (written out), plus the smallest deviation; the mean plus the deviation times the noise. -/
abbrev opsD : List (HloOp τ sig (Elt F)) :=
  [ TRef.nullary main_call2.cst (constant S_ .f32 0x00000000#32),
    TRef.unary main_call2.cst main_call2.v0 (broadcastInDim S65536x64 ![] bcast_S_S65536x64),
    TRef.binary (.of main_v52 : TRef sig ⟨S65536x64, .f32⟩) main_call2.v0 main_call2.v1 maximumf,
    TRef.unary main_call2.cst main_call2.v2 (broadcastInDim S65536x64 ![] bcast_S_S65536x64),
    TRef.binary (.of main_v52 : TRef sig ⟨S65536x64, .f32⟩) main_call2.v2 main_call2.v3 subf,
    TRef.binary main_call2.v3 main_call2.v3 main_call2.v4 (cmpf .une),
    TRef.unary main_call2.cst main_call2.v5 (broadcastInDim S65536x64 ![] bcast_S_S65536x64),
    TRef.binary (.of main_v52 : TRef sig ⟨S65536x64, .f32⟩) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    nullary main_cst_4 (constant S_ .f32 0x3727C5AC#32),
    unary main_cst_4 main_v54 (broadcastInDim S65536x64 ![] bcast_S_S65536x64 : (⟨S_, .f32⟩ : BufTy).Contents (Elt F) → (⟨S65536x64, .f32⟩ : BufTy).Contents (Elt F)),
    binary main_v53 main_v54 main_v55 (addf : (⟨S65536x64, .f32⟩ : BufTy).Contents (Elt F) → (⟨S65536x64, .f32⟩ : BufTy).Contents (Elt F) → (⟨S65536x64, .f32⟩ : BufTy).Contents (Elt F)),
    binary main_v55 main_arg4 main_v56 (mulf : (⟨S65536x64, .f32⟩ : BufTy).Contents (Elt F) → (⟨S65536x64, .f32⟩ : BufTy).Contents (Elt F) → (⟨S65536x64, .f32⟩ : BufTy).Contents (Elt F)),
    binary main_v51 main_v56 main_v57 (addf : (⟨S65536x64, .f32⟩ : BufTy).Contents (Elt F) → (⟨S65536x64, .f32⟩ : BufTy).Contents (Elt F) → (⟨S65536x64, .f32⟩ : BufTy).Contents (Elt F)) ]

/-- The posterior head: the belief beside the observation, times W_bq plus b_bq through `elu`, then times the output weights plus the bias; its first 64 columns (the mean) and its last 64. -/
abbrev opsE : List (HloOp τ sig (Elt F)) :=
  [ binary main_v41 main_arg3 main_v58 ((fun a b => concatenate S65536x1280 1 [⟨S65536x256, a⟩, ⟨S65536x1024, b⟩] concatenates_S65536x256_S65536x1024_S65536x1280_d1) : (⟨S65536x256, .f32⟩ : BufTy).Contents (Elt F) → (⟨S65536x1024, .f32⟩ : BufTy).Contents (Elt F) → (⟨S65536x1280, .f32⟩ : BufTy).Contents (Elt F)),
    binary main_v58 main_arg16 main_v59 ((fun l r => Host.dotGeneral dot_S65536x1280_S1280x256_S65536x256_1_0_0_1_n_n none l r) : (⟨S65536x1280, .f32⟩ : BufTy).Contents (Elt F) → (⟨S1280x256, .f32⟩ : BufTy).Contents (Elt F) → (⟨S65536x256, .f32⟩ : BufTy).Contents (Elt F)),
    unary main_arg17 main_v60 (broadcastInDim S1x256 ![1] bcast_S256_S1x256_1 : (⟨S256, .f32⟩ : BufTy).Contents (Elt F) → (⟨S1x256, .f32⟩ : BufTy).Contents (Elt F)),
    unary main_v60 main_v61 (broadcastInDim S65536x256 ![0, 1] bcast_S1x256_S65536x256_0_1 : (⟨S1x256, .f32⟩ : BufTy).Contents (Elt F) → (⟨S65536x256, .f32⟩ : BufTy).Contents (Elt F)),
    binary main_v59 main_v61 main_v62 (addf : (⟨S65536x256, .f32⟩ : BufTy).Contents (Elt F) → (⟨S65536x256, .f32⟩ : BufTy).Contents (Elt F) → (⟨S65536x256, .f32⟩ : BufTy).Contents (Elt F)),
    TRef.nullary main_call3.cst (constant S_ .f32 0x00000000#32),
    TRef.unary main_call3.cst main_call3.v0 (broadcastInDim S65536x256 ![] bcast_S_S65536x256),
    TRef.binary (.of main_v62 : TRef sig ⟨S65536x256, .f32⟩) main_call3.v0 main_call3.v1 (cmpf .ogt),
    TRef.nullary main_call3.cst_0 (constant S_ .f32 0x00000000#32),
    TRef.unary main_call3.cst_0 main_call3.v2 (broadcastInDim S65536x256 ![] bcast_S_S65536x256),
    TRef.binary (.of main_v62 : TRef sig ⟨S65536x256, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S65536x256 ![] bcast_S_S65536x256),
    TRef.ternary main_call3.v3 main_call3.call0.v1 (.of main_v62 : TRef sig ⟨S65536x256, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S65536x256 ![] bcast_S_S65536x256),
    TRef.binary main_call3.v6 main_call3.v5 main_call3.v7 mulf,
    TRef.ternary main_call3.v1 (.of main_v62 : TRef sig ⟨S65536x256, .f32⟩) main_call3.v7 main_call3.call1.v0 select,
    binary main_v63 main_arg18 main_v64 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    unary main_arg19 main_v65 (broadcastInDim S1x128 ![1] bcast_S128_S1x128_1 : (⟨S128, .f32⟩ : BufTy).Contents (Elt F) → (⟨S1x128, .f32⟩ : BufTy).Contents (Elt F)),
    unary main_v65 main_v66 (broadcastInDim S65536x128 ![0, 1] bcast_S1x128_S65536x128_0_1 : (⟨S1x128, .f32⟩ : BufTy).Contents (Elt F) → (⟨S65536x128, .f32⟩ : BufTy).Contents (Elt F)),
    binary main_v64 main_v66 main_v67 (addf : (⟨S65536x128, .f32⟩ : BufTy).Contents (Elt F) → (⟨S65536x128, .f32⟩ : BufTy).Contents (Elt F) → (⟨S65536x128, .f32⟩ : BufTy).Contents (Elt F)),
    unary main_v67 main_v68 ((extractStridedSlice S65536x64 ![0, 0] · slices_S65536x128_S65536x64_0_0) : (⟨S65536x128, .f32⟩ : BufTy).Contents (Elt F) → (⟨S65536x64, .f32⟩ : BufTy).Contents (Elt F)),
    unary main_v67 main_v69 ((extractStridedSlice S65536x64 ![0, 64] · slices_S65536x128_S65536x64_0_64) : (⟨S65536x128, .f32⟩ : BufTy).Contents (Elt F) → (⟨S65536x64, .f32⟩ : BufTy).Contents (Elt F)) ]

/-- The posterior deviation and state: `softplus` of the last 64 columns (written out), plus the smallest deviation; the mean plus the deviation times the noise. -/
abbrev opsG : List (HloOp τ sig (Elt F)) :=
  [ TRef.nullary main_call4.cst (constant S_ .f32 0x00000000#32),
    TRef.unary main_call4.cst main_call4.v0 (broadcastInDim S65536x64 ![] bcast_S_S65536x64),
    TRef.binary (.of main_v69 : TRef sig ⟨S65536x64, .f32⟩) main_call4.v0 main_call4.v1 maximumf,
    TRef.unary main_call4.cst main_call4.v2 (broadcastInDim S65536x64 ![] bcast_S_S65536x64),
    TRef.binary (.of main_v69 : TRef sig ⟨S65536x64, .f32⟩) main_call4.v2 main_call4.v3 subf,
    TRef.binary main_call4.v3 main_call4.v3 main_call4.v4 (cmpf .une),
    TRef.unary main_call4.cst main_call4.v5 (broadcastInDim S65536x64 ![] bcast_S_S65536x64),
    TRef.binary (.of main_v69 : TRef sig ⟨S65536x64, .f32⟩) main_call4.v5 main_call4.v6 addf,
    TRef.unary main_call4.v3 main_call4.v7 Host.absf,
    TRef.unary main_call4.v7 main_call4.v8 Host.negf,
    TRef.unary main_call4.v8 main_call4.v9 Host.exp,
    TRef.unary main_call4.v9 main_call4.v10 Host.log1p,
    TRef.binary main_call4.v1 main_call4.v10 main_call4.v11 addf,
    TRef.ternary main_call4.v4 main_call4.v6 main_call4.v11 main_call4.v12 select,
    nullary main_cst_5 (constant S_ .f32 0x3727C5AC#32),
    unary main_cst_5 main_v71 (broadcastInDim S65536x64 ![] bcast_S_S65536x64 : (⟨S_, .f32⟩ : BufTy).Contents (Elt F) → (⟨S65536x64, .f32⟩ : BufTy).Contents (Elt F)),
    binary main_v70 main_v71 main_v72 (addf : (⟨S65536x64, .f32⟩ : BufTy).Contents (Elt F) → (⟨S65536x64, .f32⟩ : BufTy).Contents (Elt F) → (⟨S65536x64, .f32⟩ : BufTy).Contents (Elt F)),
    binary main_v72 main_arg5 main_v73 (mulf : (⟨S65536x64, .f32⟩ : BufTy).Contents (Elt F) → (⟨S65536x64, .f32⟩ : BufTy).Contents (Elt F) → (⟨S65536x64, .f32⟩ : BufTy).Contents (Elt F)),
    binary main_v68 main_v73 main_v74 (addf : (⟨S65536x64, .f32⟩ : BufTy).Contents (Elt F) → (⟨S65536x64, .f32⟩ : BufTy).Contents (Elt F) → (⟨S65536x64, .f32⟩ : BufTy).Contents (Elt F)) ]

/-- @main's operations in order, the calls written out at their sites. -/
abbrev ops : List (HloOp τ sig (Elt F)) := opsA ++ (opsB ++ (opsC ++ (opsD ++ (opsE ++ opsG))))

/-- Every operation touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    binary_bufs_sub .., unary_bufs_sub .., unary_bufs_sub .., binary_bufs_sub .., unary_bufs_sub .., unary_bufs_sub ..,
    unary_bufs_sub .., unary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., nullary_bufs_sub .., unary_bufs_sub .., binary_bufs_sub .., binary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., nullary_bufs_sub .., unary_bufs_sub ..,
    binary_bufs_sub .., binary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., nullary_bufs_sub .., unary_bufs_sub .., binary_bufs_sub .., binary_bufs_sub .., binary_bufs_sub ..⟩

/-- The buffers stretch A writes, one per operation. -/
abbrev WA : List (Ref sig .tc) :=
  [main_v0, main_v1, main_v2, main_v3, main_v4, main_call0.cst.ref, main_call0.v0.ref, main_call0.v1.ref,
   main_call0.cst_0.ref, main_call0.v2.ref, main_call0.v3.ref, main_call0.cst_1.ref, main_call0.call0.v0.ref, main_call0.call0.v1.ref, main_call0.call0.v2.ref, main_call0.v5.ref,
   main_call0.cst_2.ref, main_call0.v6.ref, main_call0.v7.ref, main_call0.call1.v0.ref]

/-- Each operation of stretch A writes the buffer listed for it. -/
theorem writesA : (opsA : List (HloOp τ sig (Elt F))).Forall fun op => op.writes ⊆ (WA.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide)⟩

/-- The buffers stretch B writes, one per operation. -/
abbrev WB : List (Ref sig .tc) :=
  [main_v6, main_v7, main_v8, main_v9, main_v10, main_v11, main_v12, main_v13,
   main_v14, main_v15, main_v16, main_v17, main_v18, main_v19, main_v20, main_v21,
   main_v22, main_cst, main_v23, main_v24, main_cst_0, main_v25, main_v26, main_v27,
   main_v28, main_v29, main_cst_1, main_v30, main_v31, main_cst_2, main_v32, main_v33,
   main_v34, main_v35, main_v36, main_cst_3, main_v37, main_v38, main_v39, main_v40,
   main_v41]

/-- Each operation of stretch B writes the buffer listed for it. -/
theorem writesB : (opsB : List (HloOp τ sig (Elt F))).Forall fun op => op.writes ⊆ (WB.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide)⟩

/-- The buffers stretch C writes, one per operation. -/
abbrev WC : List (Ref sig .tc) :=
  [main_v42, main_v43, main_v44, main_v45, main_call1.cst.ref, main_call1.v0.ref, main_call1.v1.ref, main_call1.cst_0.ref,
   main_call1.v2.ref, main_call1.v3.ref, main_call1.cst_1.ref, main_call1.call0.v0.ref, main_call1.call0.v1.ref, main_call1.call0.v2.ref, main_call1.v5.ref, main_call1.cst_2.ref,
   main_call1.v6.ref, main_call1.v7.ref, main_call1.call1.v0.ref, main_v47, main_v48, main_v49, main_v50, main_v51,
   main_v52]

/-- Each operation of stretch C writes the buffer listed for it. -/
theorem writesC : (opsC : List (HloOp τ sig (Elt F))).Forall fun op => op.writes ⊆ (WC.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide)⟩

/-- The buffers stretch D writes, one per operation. -/
abbrev WD : List (Ref sig .tc) :=
  [main_call2.cst.ref, main_call2.v0.ref, main_call2.v1.ref, main_call2.v2.ref, main_call2.v3.ref, main_call2.v4.ref, main_call2.v5.ref, main_call2.v6.ref,
   main_call2.v7.ref, main_call2.v8.ref, main_call2.v9.ref, main_call2.v10.ref, main_call2.v11.ref, main_call2.v12.ref, main_cst_4, main_v54,
   main_v55, main_v56, main_v57]

/-- Each operation of stretch D writes the buffer listed for it. -/
theorem writesD : (opsD : List (HloOp τ sig (Elt F))).Forall fun op => op.writes ⊆ (WD.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide)⟩

/-- The buffers stretch E writes, one per operation. -/
abbrev WE : List (Ref sig .tc) :=
  [main_v58, main_v59, main_v60, main_v61, main_v62, main_call3.cst.ref, main_call3.v0.ref, main_call3.v1.ref,
   main_call3.cst_0.ref, main_call3.v2.ref, main_call3.v3.ref, main_call3.cst_1.ref, main_call3.call0.v0.ref, main_call3.call0.v1.ref, main_call3.call0.v2.ref, main_call3.v5.ref,
   main_call3.cst_2.ref, main_call3.v6.ref, main_call3.v7.ref, main_call3.call1.v0.ref, main_v64, main_v65, main_v66, main_v67,
   main_v68, main_v69]

/-- Each operation of stretch E writes the buffer listed for it. -/
theorem writesE : (opsE : List (HloOp τ sig (Elt F))).Forall fun op => op.writes ⊆ (WE.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide)⟩

/-- The buffers stretch G writes, one per operation. -/
abbrev WG : List (Ref sig .tc) :=
  [main_call4.cst.ref, main_call4.v0.ref, main_call4.v1.ref, main_call4.v2.ref, main_call4.v3.ref, main_call4.v4.ref, main_call4.v5.ref, main_call4.v6.ref,
   main_call4.v7.ref, main_call4.v8.ref, main_call4.v9.ref, main_call4.v10.ref, main_call4.v11.ref, main_call4.v12.ref, main_cst_5, main_v71,
   main_v72, main_v73, main_v74]

/-- Each operation of stretch G writes the buffer listed for it. -/
theorem writesG : (opsG : List (HloOp τ sig (Elt F))).Forall fun op => op.writes ⊆ (WG.map (Proc.devRef (τ := τ) .tc)).toFinset :=
  ⟨writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide), writes_sub (by decide),
    writes_sub (by decide), writes_sub (by decide), writes_sub (by decide), writes_sub (by decide)⟩

/-- Every operation determines what it writes: none of them allocates. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps.lean ====
/-
  The reference program IS the straight line of host operations listed in RefTables.lean, and nothing of its signature
  is scoped: the two facts, with the list's own (every operation touches TensorCore buffers only), that a run of a
  straight line takes.
-/
import proofs.«120973_j24670292148908_2_alg».proof.Proof.RefTables

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

-- one hundred and fifty binds re-associated: the rewriting recurses once per statement
set_option maxRecDepth 8192 in
set_option maxHeartbeats 4000000 in
/-- @main is that straight line: the functions unfolded at their calls, the records at their fields, and the
    sequencing re-associated, both sides are one chain of steps. -/
theorem main_eq (c : Dev nD) : main (F := F) c = seq ops := by
  simp only [main, main_part0, main_part1, fn_elu.body, fn_where.body, fn_where_0.body, fn_softplus.body, seq,
    List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefTerms.lean ====
/-
  The reference's results as terms over whole arrays, one definition per stage of its text.
  With B = 65536 rows: `hidden = elu ([s | a] · W_sa + b_sa)` (the two inputs laid side by side along the second
  axis, 64 + 16 = 80 columns); the two gate pre-activations `gi = hidden · W_ih + b_ih`, `gh = h · W_hh + b_hh`
  (768 = 3 · 256 columns: reset, update, new); the recurrent cell
  `belief = (1 - z) · n + z · h`, `r = σ (gi₀ + gh₀)`, `z = σ (gi₁ + gh₁)`, `n = tanh (gi₂ + r · gh₂)`, the subscripts
  the three column blocks, σ x = 1 / (1 + e^(-x)) spelt with negate, exponential, add and divide; a head
  `elu (· W + b) · W' + b'` of 128 columns whose first 64 are a mean and whose last 64 go through
  `softplus x = max x 0 + log (1 + e^(-|x - 0|))` (behind a test `x - 0 ≠ x - 0` that never fires on the
  extended reals) plus the smallest deviation, and `state = mean + std · eps`; the posterior head reads
  `[belief | observation]` (256 + 1024 = 1280 columns).
-/
import proofs.«120973_j24670292148908_2_alg».proof.Proof.Gen.ReferenceIdeal

noncomputable section

namespace Cert.ReferenceIdeal.Terms

open Cert.ReferenceIdeal Cert.ReferenceIdeal.Facts₀ Idealize.ShloMosaic

variable {F : FTy → Type} [FloatOps F]

/-- The scalar constant `b` on every entry of a B×256 array. -/
abbrev splat256 (b : BitVec 32) : FVec F S65536x256 .f32 :=
  broadcastInDim S65536x256 ![] bcast_S_S65536x256 (constant S_ .f32 b)

/-- The scalar constant `b` on every entry of a B×64 array. -/
abbrev splat64 (b : BitVec 32) : FVec F S65536x64 .f32 :=
  broadcastInDim S65536x64 ![] bcast_S_S65536x64 (constant S_ .f32 b)

/-- A length-256 vector on every row of a B×256 array. -/
abbrev rows256 (b : FVec F S256 .f32) : FVec F S65536x256 .f32 :=
  broadcastInDim S65536x256 ![0, 1] bcast_S1x256_S65536x256_0_1 (broadcastInDim S1x256 ![1] bcast_S256_S1x256_1 b)

/-- A length-768 vector on every row of a B×768 array. -/
abbrev rows768 (b : FVec F S768 .f32) : FVec F S65536x768 .f32 :=
  broadcastInDim S65536x768 ![0, 1] bcast_S1x768_S65536x768_0_1 (broadcastInDim S1x768 ![1] bcast_S768_S1x768_1 b)

/-- A length-128 vector on every row of a B×128 array. -/
abbrev rows128 (b : FVec F S128 .f32) : FVec F S65536x128 .f32 :=
  broadcastInDim S65536x128 ![0, 1] bcast_S1x128_S65536x128_0_1 (broadcastInDim S1x128 ![1] bcast_S128_S1x128_1 b)

/-- `elu` as the host spells it: `x` where `x > 0`, elsewhere `1 · expm1 x'`, `x'` being `x` where `x ≤ 0` and `0` elsewhere. -/
def eluT (x : FVec F S65536x256 .f32) : FVec F S65536x256 .f32 :=
  select (cmpf .ogt x (splat256 0x00000000#32)) x
    (mulf (splat256 0x3F800000#32)
      (Host.expm1 (select (cmpf .ogt x (splat256 0x00000000#32)) (splat256 0x00000000#32) x)))

/-- The logistic function as the host spells it: `1 / (1 + e^(-x))`. -/
def sigmT (x : FVec F S65536x256 .f32) : FVec F S65536x256 .f32 :=
  Host.divf (splat256 0x3F800000#32) (addf (splat256 0x3F800000#32) (Host.exp (Host.negf x)))

/-- `softplus` as the host spells it. -/
def softplusT (x : FVec F S65536x64 .f32) : FVec F S65536x64 .f32 :=
  select (cmpf .une (subf x (splat64 0x00000000#32)) (subf x (splat64 0x00000000#32)))
    (addf x (splat64 0x00000000#32))
    (addf (maximumf x (splat64 0x00000000#32))
      (Host.log1p (Host.exp (Host.negf (Host.absf (subf x (splat64 0x00000000#32)))))))

/-- The embedding of state and action: `elu ([s | a] · W_sa + b_sa)`. -/
def hiddenT (s : FVec F S65536x64 .f32) (a : FVec F S65536x16 .f32) (w : FVec F S80x256 .f32) (b : FVec F S256 .f32) :
    FVec F S65536x256 .f32 :=
  eluT (addf (Host.dotGeneral dot_S65536x80_S80x256_S65536x256_1_0_0_1_n_n none
      (concatenate S65536x80 1 [⟨S65536x64, s⟩, ⟨S65536x16, a⟩] concatenates_S65536x64_S65536x16_S65536x80_d1) w) (rows256 b))

/-- A gate pre-activation: `x · W + b`, 768 columns. -/
def gateT (x : FVec F S65536x256 .f32) (w : FVec F S256x768 .f32) (b : FVec F S768 .f32) : FVec F S65536x768 .f32 :=
  addf (Host.dotGeneral dot_S65536x256_S256x768_S65536x768_1_0_0_1_n_n none x w) (rows768 b)

/-- The recurrent cell from the two gate pre-activations and the previous belief. -/
def cellT (gi gh : FVec F S65536x768 .f32) (h : FVec F S65536x256 .f32) : FVec F S65536x256 .f32 :=
  addf
    (mulf
      (subf (splat256 0x3F800000#32)
        (sigmT (addf (extractStridedSlice S65536x256 ![0, 256] gi slices_S65536x768_S65536x256_0_256)
          (extractStridedSlice S65536x256 ![0, 256] gh slices_S65536x768_S65536x256_0_256))))
      (Host.tanh (addf (extractStridedSlice S65536x256 ![0, 512] gi slices_S65536x768_S65536x256_0_512)
        (mulf
          (sigmT (addf (extractStridedSlice S65536x256 ![0, 0] gi slices_S65536x768_S65536x256_0_0)
            (extractStridedSlice S65536x256 ![0, 0] gh slices_S65536x768_S65536x256_0_0)))
          (extractStridedSlice S65536x256 ![0, 512] gh slices_S65536x768_S65536x256_0_512)))))
    (mulf
      (sigmT (addf (extractStridedSlice S65536x256 ![0, 256] gi slices_S65536x768_S65536x256_0_256)
        (extractStridedSlice S65536x256 ![0, 256] gh slices_S65536x768_S65536x256_0_256)))
      h)

/-- The new belief. -/
def beliefT (s : FVec F S65536x64 .f32) (a : FVec F S65536x16 .f32) (h : FVec F S65536x256 .f32)
    (wsa : FVec F S80x256 .f32) (bsa : FVec F S256 .f32) (wih : FVec F S256x768 .f32) (bih : FVec F S768 .f32)
    (whh : FVec F S256x768 .f32) (bhh : FVec F S768 .f32) : FVec F S65536x256 .f32 :=
  cellT (gateT (hiddenT s a wsa bsa) wih bih) (gateT h whh bhh) h

/-- The prior head's hidden layer: `elu (belief · W_bp + b_bp)`. -/
def priorHidT (bel : FVec F S65536x256 .f32) (w : FVec F S256x256 .f32) (b : FVec F S256 .f32) : FVec F S65536x256 .f32 :=
  eluT (addf (Host.dotGeneral dot_S65536x256_S256x256_S65536x256_1_0_0_1_n_n none bel w) (rows256 b))

/-- The posterior head's hidden layer: `elu ([belief | observation] · W_bq + b_bq)`. -/
def postHidT (bel : FVec F S65536x256 .f32) (obs : FVec F S65536x1024 .f32) (w : FVec F S1280x256 .f32) (b : FVec F S256 .f32) :
    FVec F S65536x256 .f32 :=
  eluT (addf (Host.dotGeneral dot_S65536x1280_S1280x256_S65536x256_1_0_0_1_n_n none
      (concatenate S65536x1280 1 [⟨S65536x256, bel⟩, ⟨S65536x1024, obs⟩] concatenates_S65536x256_S65536x1024_S65536x1280_d1) w) (rows256 b))

/-- A head's output layer: `x · W + b`, 128 columns. -/
def headT (x : FVec F S65536x256 .f32) (w : FVec F S256x128 .f32) (b : FVec F S128 .f32) : FVec F S65536x128 .f32 :=
  addf (Host.dotGeneral dot_S65536x256_S256x128_S65536x128_1_0_0_1_n_n none x w) (rows128 b)

/-- The mean: a head's first 64 columns. -/
def meanT (o : FVec F S65536x128 .f32) : FVec F S65536x64 .f32 :=
  extractStridedSlice S65536x64 ![0, 0] o slices_S65536x128_S65536x64_0_0

/-- The deviation: `softplus` of a head's last 64 columns, plus the smallest deviation. -/
def stdT (o : FVec F S65536x128 .f32) : FVec F S65536x64 .f32 :=
  addf (softplusT (extractStridedSlice S65536x64 ![0, 64] o slices_S65536x128_S65536x64_0_64)) (splat64 0x3727C5AC#32)

/-- The sampled state: `mean + std · eps`. -/
def stateT (o : FVec F S65536x128 .f32) (eps : FVec F S65536x64 .f32) : FVec F S65536x64 .f32 :=
  addf (meanT o) (mulf (stdT o) eps)

end Cert.ReferenceIdeal.Terms

end
-- ==== Proof.RefFrames.lean ====
/-
  What each stretch of the reference's line leaves alone: a buffer none of its operations writes holds after the
  stretch what it held before.
-/
import proofs.«120973_j24670292148908_2_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A buffer stretch A does not write keeps its contents through it. -/
theorem frameA (V : Valuation τ sig (Elt F)) {r : Ref sig .tc} (hr : r ∉ WA) :
    after opsA V (Proc.devRef .tc r) = V (Proc.devRef .tc r) := after_of_writes_sub opsA V writesA hr

/-- A buffer stretch B does not write keeps its contents through it. -/
theorem frameB (V : Valuation τ sig (Elt F)) {r : Ref sig .tc} (hr : r ∉ WB) :
    after opsB V (Proc.devRef .tc r) = V (Proc.devRef .tc r) := after_of_writes_sub opsB V writesB hr

/-- A buffer stretch C does not write keeps its contents through it. -/
theorem frameC (V : Valuation τ sig (Elt F)) {r : Ref sig .tc} (hr : r ∉ WC) :
    after opsC V (Proc.devRef .tc r) = V (Proc.devRef .tc r) := after_of_writes_sub opsC V writesC hr

/-- A buffer stretch D does not write keeps its contents through it. -/
theorem frameD (V : Valuation τ sig (Elt F)) {r : Ref sig .tc} (hr : r ∉ WD) :
    after opsD V (Proc.devRef .tc r) = V (Proc.devRef .tc r) := after_of_writes_sub opsD V writesD hr

/-- A buffer stretch E does not write keeps its contents through it. -/
theorem frameE (V : Valuation τ sig (Elt F)) {r : Ref sig .tc} (hr : r ∉ WE) :
    after opsE V (Proc.devRef .tc r) = V (Proc.devRef .tc r) := after_of_writes_sub opsE V writesE hr

/-- A buffer stretch G does not write keeps its contents through it. -/
theorem frameG (V : Valuation τ sig (Elt F)) {r : Ref sig .tc} (hr : r ∉ WG) :
    after opsG V (Proc.devRef .tc r) = V (Proc.devRef .tc r) := after_of_writes_sub opsG V writesG hr

end Cert.ReferenceIdeal.RefRun

end
-- ==== Proof.RefA.lean ====
/-
  The first stretch read back: the embedding of the state and the action.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- After the first stretch the buffer of the embedding holds `elu ([s | a] · W_sa + b_sa)` of what the argument
    buffers held before it. -/
theorem hidden_eq (V : Valuation τ sig (Elt F)) :
    after opsA V (main_v5 : DevRef τ sig)
      = Terms.hiddenT (V (main_arg0 : DevRef τ sig)) (V (main_arg1 : DevRef τ sig)) (V (main_arg6 : DevRef τ sig))
          (V (main_arg7 : DevRef τ sig)) := by
  after_results_simp
  rfl

end Cert.ReferenceIdeal.RefRun

end
-- ==== Proof.RefB.lean ====
/-
  The second stretch read back: the recurrent cell.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- After the second stretch the buffer of the new belief holds the cell of the two gate pre-activations — of the
    embedding with W_ih, b_ih and of the previous belief with W_hh, b_hh — and the previous belief, as the buffers
    held them before it. -/
theorem cell_eq (V : Valuation τ sig (Elt F)) :
    after opsB V (main_v41 : DevRef τ sig)
      = Terms.cellT (Terms.gateT (V (main_v5 : DevRef τ sig)) (V (main_arg8 : DevRef τ sig)) (V (main_arg9 : DevRef τ sig)))
          (Terms.gateT (V (main_arg2 : DevRef τ sig)) (V (main_arg10 : DevRef τ sig)) (V (main_arg11 : DevRef τ sig))) (V (main_arg2 : DevRef τ sig)) := by
  after_results_simp
  rfl

end Cert.ReferenceIdeal.RefRun

end
-- ==== Proof.RefC.lean ====
/-
  The third stretch read back: the prior head.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The prior head's 128 columns of what the buffers hold: `elu (belief · W_bp + b_bp) · W + b`. -/
abbrev priorHead (V : Valuation τ sig (Elt F)) : FVec F S65536x128 .f32 :=
  Terms.headT (Terms.priorHidT (V (main_v41 : DevRef τ sig)) (V (main_arg12 : DevRef τ sig)) (V (main_arg13 : DevRef τ sig))) (V (main_arg14 : DevRef τ sig)) (V (main_arg15 : DevRef τ sig))

/-- After the stretch the mean's buffer holds the head's first 64 columns. -/
theorem priorHead_mean (V : Valuation τ sig (Elt F)) :
    after opsC V (main_v51 : DevRef τ sig) = Terms.meanT (priorHead V) := by
  after_results_simp
  rfl

/-- After the stretch the next buffer holds the head's last 64 columns. -/
theorem priorHead_tail (V : Valuation τ sig (Elt F)) :
    after opsC V (main_v52 : DevRef τ sig)
      = extractStridedSlice S65536x64 ![0, 64] (priorHead V) slices_S65536x128_S65536x64_0_64 := by
  after_results_simp
  rfl

end Cert.ReferenceIdeal.RefRun

end
-- ==== Proof.RefD.lean ====
/-
  The fourth stretch read back: the prior deviation and the prior state.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The deviation of a head's last 64 columns: their `softplus` plus the smallest deviation. -/
abbrev priorDev (V : Valuation τ sig (Elt F)) : FVec F S65536x64 .f32 :=
  addf (Terms.softplusT (V (main_v52 : DevRef τ sig))) (Terms.splat64 0x3727C5AC#32)

/-- After the stretch the deviation's buffer holds it. -/
theorem priorDev_eq (V : Valuation τ sig (Elt F)) :
    after opsD V (main_v55 : DevRef τ sig) = priorDev V := by
  after_results_simp
  rfl

/-- After the stretch the state's buffer holds the mean plus the deviation times the noise. -/
theorem priorState_eq (V : Valuation τ sig (Elt F)) :
    after opsD V (main_v57 : DevRef τ sig) = addf (V (main_v51 : DevRef τ sig)) (mulf (priorDev V) (V (main_arg4 : DevRef τ sig))) := by
  after_results_simp
  rfl

end Cert.ReferenceIdeal.RefRun

end
-- ==== Proof.RefE.lean ====
/-
  The fifth stretch read back: the posterior head.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The posterior head's 128 columns of what the buffers hold: `elu ([belief | observation] · W_bq + b_bq) · W + b`. -/
abbrev postHead (V : Valuation τ sig (Elt F)) : FVec F S65536x128 .f32 :=
  Terms.headT (Terms.postHidT (V (main_v41 : DevRef τ sig)) (V (main_arg3 : DevRef τ sig)) (V (main_arg16 : DevRef τ sig)) (V (main_arg17 : DevRef τ sig))) (V (main_arg18 : DevRef τ sig)) (V (main_arg19 : DevRef τ sig))

/-- After the stretch the mean's buffer holds the head's first 64 columns. -/
theorem postHead_mean (V : Valuation τ sig (Elt F)) :
    after opsE V (main_v68 : DevRef τ sig) = Terms.meanT (postHead V) := by
  after_results_simp
  rfl

/-- After the stretch the next buffer holds the head's last 64 columns. -/
theorem postHead_tail (V : Valuation τ sig (Elt F)) :
    after opsE V (main_v69 : DevRef τ sig)
      = extractStridedSlice S65536x64 ![0, 64] (postHead V) slices_S65536x128_S65536x64_0_64 := by
  after_results_simp
  rfl

end Cert.ReferenceIdeal.RefRun

end
-- ==== Proof.RefG.lean ====
/-
  The sixth stretch read back: the posterior deviation and the posterior state.
-/
import proofs.«120973_j24670292148908_2_alg».proof.Proof.RefOps
import proofs.«120973_j24670292148908_2_alg».proof.Proof.RefTerms

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The deviation of a head's last 64 columns: their `softplus` plus the smallest deviation. -/
abbrev postDev (V : Valuation τ sig (Elt F)) : FVec F S65536x64 .f32 :=
  addf (Terms.softplusT (V (main_v69 : DevRef τ sig))) (Terms.splat64 0x3727C5AC#32)

/-- After the stretch the deviation's buffer holds it. -/
theorem postDev_eq (V : Valuation τ sig (Elt F)) :
    after opsG V (main_v72 : DevRef τ sig) = postDev V := by
  after_results_simp
  rfl

/-- After the stretch the state's buffer holds the mean plus the deviation times the noise. -/
theorem postState_eq (V : Valuation τ sig (Elt F)) :
    after opsG V (main_v74 : DevRef τ sig) = addf (V (main_v68 : DevRef τ sig)) (mulf (postDev V) (V (main_arg5 : DevRef τ sig))) := by
  after_results_simp
  rfl

end Cert.ReferenceIdeal.RefRun

end
-- ==== Proof.RefRun.lean ====
/-
  The reference's run read back. The six stretches composed: each later stretch reads what the earlier ones wrote and
  leaves the rest alone, so the belief, and each head's state, mean and deviation, are at the end the stage terms of
  the arguments' contents at the start, and the arguments are what they were.
-/
import Idealize.ShloMosaic.Lib.Pipeline.Frame
import proofs.«120973_j24670292148908_2_alg».proof.Proof.RefOps
import proofs.«120973_j24670292148908_2_alg».proof.Proof.RefTerms
import proofs.«120973_j24670292148908_2_alg».proof.Proof.RefFrames
import proofs.«120973_j24670292148908_2_alg».proof.Proof.RefA
import proofs.«120973_j24670292148908_2_alg».proof.Proof.RefB
import proofs.«120973_j24670292148908_2_alg».proof.Proof.RefC
import proofs.«120973_j24670292148908_2_alg».proof.Proof.RefD
import proofs.«120973_j24670292148908_2_alg».proof.Proof.RefE
import proofs.«120973_j24670292148908_2_alg».proof.Proof.RefG

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The line run from contents `V` is its six stretches run in turn. -/
theorem after_ops (V : Valuation τ sig (Elt F)) :
    after ops V = after opsG (after opsE (after opsD (after opsC (after opsB (after opsA V))))) := by
  show after (opsA ++ (opsB ++ (opsC ++ (opsD ++ (opsE ++ opsG))))) V = _
  rw [StableHlo.after_append, StableHlo.after_append, StableHlo.after_append, StableHlo.after_append, StableHlo.after_append]

/-! A buffer none of the first stretches writes holds after them what it held at the start. -/

theorem keepAB (V : Valuation τ sig (Elt F)) {r : Ref sig .tc} (hA : r ∉ WA) (hB : r ∉ WB) :
    after opsB (after opsA V) (Proc.devRef .tc r) = V (Proc.devRef .tc r) := by
  rw [frameB _ hB, frameA _ hA]

theorem keepABC (V : Valuation τ sig (Elt F)) {r : Ref sig .tc} (hA : r ∉ WA) (hB : r ∉ WB) (hC : r ∉ WC) :
    after opsC (after opsB (after opsA V)) (Proc.devRef .tc r) = V (Proc.devRef .tc r) := by
  rw [frameC _ hC, frameB _ hB, frameA _ hA]

theorem keepABCD (V : Valuation τ sig (Elt F)) {r : Ref sig .tc} (hA : r ∉ WA) (hB : r ∉ WB) (hC : r ∉ WC) (hD : r ∉ WD) :
    after opsD (after opsC (after opsB (after opsA V))) (Proc.devRef .tc r) = V (Proc.devRef .tc r) := by
  rw [frameD _ hD, frameC _ hC, frameB _ hB, frameA _ hA]

theorem keepABCDE (V : Valuation τ sig (Elt F)) {r : Ref sig .tc} (hA : r ∉ WA) (hB : r ∉ WB) (hC : r ∉ WC) (hD : r ∉ WD) (hE : r ∉ WE) :
    after opsE (after opsD (after opsC (after opsB (after opsA V)))) (Proc.devRef .tc r) = V (Proc.devRef .tc r) := by
  rw [frameE _ hE, frameD _ hD, frameC _ hC, frameB _ hB, frameA _ hA]

theorem keepAll (V : Valuation τ sig (Elt F)) {r : Ref sig .tc} (hA : r ∉ WA) (hB : r ∉ WB) (hC : r ∉ WC) (hD : r ∉ WD) (hE : r ∉ WE) (hG : r ∉ WG) :
    after opsG (after opsE (after opsD (after opsC (after opsB (after opsA V))))) (Proc.devRef .tc r) = V (Proc.devRef .tc r) := by
  rw [frameG _ hG, frameE _ hE, frameD _ hD, frameC _ hC, frameB _ hB, frameA _ hA]

/-- The new belief of what the argument buffers hold. -/
abbrev belV (V : Valuation τ sig (Elt F)) : FVec F S65536x256 .f32 :=
  Terms.beliefT (V (Proc.devRef .tc main_arg0)) (V (Proc.devRef .tc main_arg1)) (V (Proc.devRef .tc main_arg2)) (V (Proc.devRef .tc main_arg6)) (V (Proc.devRef .tc main_arg7)) (V (Proc.devRef .tc main_arg8)) (V (Proc.devRef .tc main_arg9)) (V (Proc.devRef .tc main_arg10)) (V (Proc.devRef .tc main_arg11))

/-- The prior head of what the argument buffers hold. -/
abbrev priorV (V : Valuation τ sig (Elt F)) : FVec F S65536x128 .f32 :=
  Terms.headT (Terms.priorHidT (belV V) (V (Proc.devRef .tc main_arg12)) (V (Proc.devRef .tc main_arg13))) (V (Proc.devRef .tc main_arg14)) (V (Proc.devRef .tc main_arg15))

/-- The posterior head of what the argument buffers hold. -/
abbrev postV (V : Valuation τ sig (Elt F)) : FVec F S65536x128 .f32 :=
  Terms.headT (Terms.postHidT (belV V) (V (Proc.devRef .tc main_arg3)) (V (Proc.devRef .tc main_arg16)) (V (Proc.devRef .tc main_arg17))) (V (Proc.devRef .tc main_arg18)) (V (Proc.devRef .tc main_arg19))

/-- After the first two stretches the belief's buffer holds the new belief: the cell over the embedding, each
    argument still what it was. -/
theorem belief_AB (V : Valuation τ sig (Elt F)) : after opsB (after opsA V) (Proc.devRef .tc main_v41) = belV V := by
  rw [cell_eq, hidden_eq, frameA V (r := main_arg8) (by decide), frameA V (r := main_arg9) (by decide),
    frameA V (r := main_arg2) (by decide), frameA V (r := main_arg10) (by decide), frameA V (r := main_arg11) (by decide)]
  rfl

/-- The prior head after the first two stretches is the prior head of the arguments. -/
theorem priorHead_AB (V : Valuation τ sig (Elt F)) : priorHead (after opsB (after opsA V)) = priorV V := by
  show Terms.headT (Terms.priorHidT ((after opsB (after opsA V)) (Proc.devRef .tc main_v41)) ((after opsB (after opsA V)) (Proc.devRef .tc main_arg12)) ((after opsB (after opsA V)) (Proc.devRef .tc main_arg13))) ((after opsB (after opsA V)) (Proc.devRef .tc main_arg14)) ((after opsB (after opsA V)) (Proc.devRef .tc main_arg15)) = _
  rw [belief_AB, keepAB V (r := main_arg12) (by decide) (by decide), keepAB V (r := main_arg13) (by decide) (by decide),
    keepAB V (r := main_arg14) (by decide) (by decide), keepAB V (r := main_arg15) (by decide) (by decide)]

/-- The posterior head after the first four stretches is the posterior head of the arguments: the belief's buffer is
    not written again. -/
theorem postHead_ABCD (V : Valuation τ sig (Elt F)) : postHead (after opsD (after opsC (after opsB (after opsA V)))) = postV V := by
  show Terms.headT (Terms.postHidT ((after opsD (after opsC (after opsB (after opsA V)))) (Proc.devRef .tc main_v41)) ((after opsD (after opsC (after opsB (after opsA V)))) (Proc.devRef .tc main_arg3)) ((after opsD (after opsC (after opsB (after opsA V)))) (Proc.devRef .tc main_arg16)) ((after opsD (after opsC (after opsB (after opsA V)))) (Proc.devRef .tc main_arg17))) ((after opsD (after opsC (after opsB (after opsA V)))) (Proc.devRef .tc main_arg18)) ((after opsD (after opsC (after opsB (after opsA V)))) (Proc.devRef .tc main_arg19)) = _
  rw [frameD _ (r := main_v41) (by decide), frameC _ (r := main_v41) (by decide), belief_AB,
    keepABCD V (r := main_arg3) (by decide) (by decide) (by decide) (by decide), keepABCD V (r := main_arg16) (by decide) (by decide) (by decide) (by decide), keepABCD V (r := main_arg17) (by decide) (by decide) (by decide) (by decide),
    keepABCD V (r := main_arg18) (by decide) (by decide) (by decide) (by decide), keepABCD V (r := main_arg19) (by decide) (by decide) (by decide) (by decide)]

/-- The belief at the end. -/
theorem out_belief (V : Valuation τ sig (Elt F)) : after ops V (Proc.devRef .tc main_v41) = belV V := by
  rw [after_ops, frameG _ (r := main_v41) (by decide), frameE _ (r := main_v41) (by decide), frameD _ (r := main_v41) (by decide),
    frameC _ (r := main_v41) (by decide), belief_AB]

/-- The prior mean at the end. -/
theorem out_priorMean (V : Valuation τ sig (Elt F)) : after ops V (Proc.devRef .tc main_v51) = Terms.meanT (priorV V) := by
  rw [after_ops, frameG _ (r := main_v51) (by decide), frameE _ (r := main_v51) (by decide), frameD _ (r := main_v51) (by decide),
    priorHead_mean, priorHead_AB]

/-- The prior deviation after the fourth stretch: `softplus` of the head's last 64 columns plus the smallest deviation. -/
theorem priorDev_ABC (V : Valuation τ sig (Elt F)) : priorDev (after opsC (after opsB (after opsA V))) = Terms.stdT (priorV V) := by
  show addf (Terms.softplusT ((after opsC (after opsB (after opsA V))) (Proc.devRef .tc main_v52))) (Terms.splat64 0x3727C5AC#32) = _
  rw [priorHead_tail, priorHead_AB]
  rfl

/-- The prior deviation at the end. -/
theorem out_priorStd (V : Valuation τ sig (Elt F)) : after ops V (Proc.devRef .tc main_v55) = Terms.stdT (priorV V) := by
  rw [after_ops, frameG _ (r := main_v55) (by decide), frameE _ (r := main_v55) (by decide), priorDev_eq, priorDev_ABC]

/-- The prior state at the end. -/
theorem out_priorState (V : Valuation τ sig (Elt F)) :
    after ops V (Proc.devRef .tc main_v57) = Terms.stateT (priorV V) (V (Proc.devRef .tc main_arg4)) := by
  rw [after_ops, frameG _ (r := main_v57) (by decide), frameE _ (r := main_v57) (by decide), priorState_eq, priorDev_ABC,
    priorHead_mean, priorHead_AB, keepABC V (r := main_arg4) (by decide) (by decide) (by decide)]
  rfl

/-- The posterior mean at the end. -/
theorem out_postMean (V : Valuation τ sig (Elt F)) : after ops V (Proc.devRef .tc main_v68) = Terms.meanT (postV V) := by
  rw [after_ops, frameG _ (r := main_v68) (by decide), postHead_mean, postHead_ABCD]

/-- The posterior deviation after the fifth stretch. -/
theorem postDev_ABCDE (V : Valuation τ sig (Elt F)) : postDev (after opsE (after opsD (after opsC (after opsB (after opsA V))))) = Terms.stdT (postV V) := by
  show addf (Terms.softplusT ((after opsE (after opsD (after opsC (after opsB (after opsA V))))) (Proc.devRef .tc main_v69))) (Terms.splat64 0x3727C5AC#32) = _
  rw [postHead_tail, postHead_ABCD]
  rfl

/-- The posterior deviation at the end. -/
theorem out_postStd (V : Valuation τ sig (Elt F)) : after ops V (Proc.devRef .tc main_v72) = Terms.stdT (postV V) := by
  rw [after_ops, postDev_eq, postDev_ABCDE]

/-- The posterior state at the end. -/
theorem out_postState (V : Valuation τ sig (Elt F)) :
    after ops V (Proc.devRef .tc main_v74) = Terms.stateT (postV V) (V (Proc.devRef .tc main_arg5)) := by
  rw [after_ops, postState_eq, postDev_ABCDE, postHead_mean, postHead_ABCD, keepABCDE V (r := main_arg5) (by decide) (by decide) (by decide) (by decide) (by decide)]
  rfl

/-- An argument's buffer at the end holds what it held at the start. -/
theorem out_arg (V : Valuation τ sig (Elt F)) {r : Ref sig .tc} (hA : r ∉ WA) (hB : r ∉ WB) (hC : r ∉ WC) (hD : r ∉ WD)
    (hE : r ∉ WE) (hG : r ∉ WG) : after ops V (Proc.devRef .tc r) = V (Proc.devRef .tc r) := by
  rw [after_ops, keepAll V hA hB hC hD hE hG]

/-- The new belief as a term of the launch contents. -/
abbrev bel (m : (ℓ : Loc nD τ sig) → Buf (Elt F) ℓ) (c : Dev nD) : FVec F S65536x256 .f32 :=
  Terms.beliefT (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- On every device, for any float values, from any memory with zero counters: every weakly fair execution of @main
    terminates with the belief, and each head's state, mean and deviation, at their terms of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = bel m c
      ∧ r.2.mem ((c.tc : Thread nD τ).loc main_v57) = Terms.stateT (Terms.headT (Terms.priorHidT (bel m c) (m ((c.tc : Thread nD τ).loc main_arg12)) (m ((c.tc : Thread nD τ).loc main_arg13))) (m ((c.tc : Thread nD τ).loc main_arg14)) (m ((c.tc : Thread nD τ).loc main_arg15))) (m ((c.tc : Thread nD τ).loc main_arg4))
      ∧ r.2.mem ((c.tc : Thread nD τ).loc main_v51) = Terms.meanT (Terms.headT (Terms.priorHidT (bel m c) (m ((c.tc : Thread nD τ).loc main_arg12)) (m ((c.tc : Thread nD τ).loc main_arg13))) (m ((c.tc : Thread nD τ).loc main_arg14)) (m ((c.tc : Thread nD τ).loc main_arg15)))
      ∧ r.2.mem ((c.tc : Thread nD τ).loc main_v55) = Terms.stdT (Terms.headT (Terms.priorHidT (bel m c) (m ((c.tc : Thread nD τ).loc main_arg12)) (m ((c.tc : Thread nD τ).loc main_arg13))) (m ((c.tc : Thread nD τ).loc main_arg14)) (m ((c.tc : Thread nD τ).loc main_arg15)))
      ∧ r.2.mem ((c.tc : Thread nD τ).loc main_v74) = Terms.stateT (Terms.headT (Terms.postHidT (bel m c) (m ((c.tc : Thread nD τ).loc main_arg3)) (m ((c.tc : Thread nD τ).loc main_arg16)) (m ((c.tc : Thread nD τ).loc main_arg17))) (m ((c.tc : Thread nD τ).loc main_arg18)) (m ((c.tc : Thread nD τ).loc main_arg19))) (m ((c.tc : Thread nD τ).loc main_arg5))
      ∧ r.2.mem ((c.tc : Thread nD τ).loc main_v68) = Terms.meanT (Terms.headT (Terms.postHidT (bel m c) (m ((c.tc : Thread nD τ).loc main_arg3)) (m ((c.tc : Thread nD τ).loc main_arg16)) (m ((c.tc : Thread nD τ).loc main_arg17))) (m ((c.tc : Thread nD τ).loc main_arg18)) (m ((c.tc : Thread nD τ).loc main_arg19)))
      ∧ r.2.mem ((c.tc : Thread nD τ).loc main_v72) = Terms.stdT (Terms.headT (Terms.postHidT (bel m c) (m ((c.tc : Thread nD τ).loc main_arg3)) (m ((c.tc : Thread nD τ).loc main_arg16)) (m ((c.tc : Thread nD τ).loc main_arg17))) (m ((c.tc : Thread nD τ).loc main_arg18)) (m ((c.tc : Thread nD τ).loc main_arg19)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v41).trans (out_belief (launchContents m c)),
      (h c main_v57).trans (out_priorState (launchContents m c)),
      (h c main_v51).trans (out_priorMean (launchContents m c)),
      (h c main_v55).trans (out_priorStd (launchContents m c)),
      (h c main_v74).trans (out_postState (launchContents m c)),
      (h c main_v68).trans (out_postMean (launchContents m c)),
      (h c main_v72).trans (out_postStd (launchContents m c)),
      (h c main_arg0).trans (out_arg (launchContents m c) (by decide) (by decide) (by decide) (by decide) (by decide) (by decide)),
      (h c main_arg1).trans (out_arg (launchContents m c) (by decide) (by decide) (by decide) (by decide) (by decide) (by decide)),
      (h c main_arg2).trans (out_arg (launchContents m c) (by decide) (by decide) (by decide) (by decide) (by decide) (by decide)),
      (h c main_arg3).trans (out_arg (launchContents m c) (by decide) (by decide) (by decide) (by decide) (by decide) (by decide)),
      (h c main_arg4).trans (out_arg (launchContents m c) (by decide) (by decide) (by decide) (by decide) (by decide) (by decide)),
      (h c main_arg5).trans (out_arg (launchContents m c) (by decide) (by decide) (by decide) (by decide) (by decide) (by decide)),
      (h c main_arg6).trans (out_arg (launchContents m c) (by decide) (by decide) (by decide) (by decide) (by decide) (by decide)),
      (h c main_arg7).trans (out_arg (launchContents m c) (by decide) (by decide) (by decide) (by decide) (by decide) (by decide)),
      (h c main_arg8).trans (out_arg (launchContents m c) (by decide) (by decide) (by decide) (by decide) (by decide) (by decide)),
      (h c main_arg9).trans (out_arg (launchContents m c) (by decide) (by decide) (by decide) (by decide) (by decide) (by decide)),
      (h c main_arg10).trans (out_arg (launchContents m c) (by decide) (by decide) (by decide) (by decide) (by decide) (by decide)),
      (h c main_arg11).trans (out_arg (launchContents m c) (by decide) (by decide) (by decide) (by decide) (by decide) (by decide)),
      (h c main_arg12).trans (out_arg (launchContents m c) (by decide) (by decide) (by decide) (by decide) (by decide) (by decide)),
      (h c main_arg13).trans (out_arg (launchContents m c) (by decide) (by decide) (by decide) (by decide) (by decide) (by decide)),
      (h c main_arg14).trans (out_arg (launchContents m c) (by decide) (by decide) (by decide) (by decide) (by decide) (by decide)),
      (h c main_arg15).trans (out_arg (launchContents m c) (by decide) (by decide) (by decide) (by decide) (by decide) (by decide)),
      (h c main_arg16).trans (out_arg (launchContents m c) (by decide) (by decide) (by decide) (by decide) (by decide) (by decide)),
      (h c main_arg17).trans (out_arg (launchContents m c) (by decide) (by decide) (by decide) (by decide) (by decide) (by decide)),
      (h c main_arg18).trans (out_arg (launchContents m c) (by decide) (by decide) (by decide) (by decide) (by decide) (by decide)),
      (h c main_arg19).trans (out_arg (launchContents m c) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.RefRead.lean ====
/-
  The reference's whole-array terms read at one entry, and the seven results as the target arrays.
  With B = 65536 rows, entry (r, q) of each stage is the row function of the step applied to row r:
  a scalar laid over an array reads the scalar everywhere; a product plus a bias laid along the rows is `dense` of
  row r; the guarded exponential is `elu`; the contraction over [s | a] (80 columns) is the sum over the first 64
  columns, which read s, plus the sum over the last 16, which read a; likewise [belief | observation] (1280 = 256 + 1024);
  the three column blocks of the two gate pre-activations combine to the recurrent `cell`; a head's 128 columns give
  the mean (first 64), the deviation (softplus of the last 64, plus the smallest deviation) and the sampled state.
-/
import proofs.«120973_j24670292148908_2_alg».proof.Proof.RefTerms
import proofs.«120973_j24670292148908_2_alg».proof.Proof.Spec
import proofs.«120973_j24670292148908_2_alg».proof.Proof.Goal
import proofs.«120973_j24670292148908_2_alg».proof.Proof.Consts
import proofs.«120973_j24670292148908_2_alg».proof.Proof.LibDense
import proofs.«120973_j24670292148908_2_alg».proof.Proof.LibRowBias
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Read

open Cert.ReferenceIdeal Cert.Rssm Idealize.ShloMosaic Idealize.ShloMosaic.ValueIdx

/-! ## The pointwise stages at an entry -/

/-- The host's `elu` at an entry. -/
theorem eluT_apply (x : FVec Ideal S65536x256 .f32) (i : S65536x256.Idx) : Terms.eluT (F := Ideal) x i = elu (x i) := by
  unfold Terms.eluT
  show Scalar.select (Ideal.cmp .ogt (x i) (Ideal.ofBits .f32 0x00000000#32)) (x i)
      (Ideal.ofBits .f32 0x3F800000#32
        * (Ideal.exp (Scalar.select (Ideal.cmp .ogt (x i) (Ideal.ofBits .f32 0x00000000#32))
            (Ideal.ofBits .f32 0x00000000#32) (x i)) - 1)) = _
  rw [Consts.ofBits_zero, Consts.ofBits_one]
  exact elu_host (x i)

/-- The host's logistic function at an entry. -/
theorem sigmT_apply (x : FVec Ideal S65536x256 .f32) (i : S65536x256.Idx) :
    Terms.sigmT (F := Ideal) x i = Ideal.logistic (x i) := by
  unfold Terms.sigmT
  show Ideal.div (Ideal.ofBits .f32 0x3F800000#32) (Ideal.ofBits .f32 0x3F800000#32 + Ideal.exp (-(x i))) = _
  rw [Consts.ofBits_one]
  exact logistic_host (x i)

/-- The host's `softplus` at an entry. -/
theorem softplusT_apply (x : FVec Ideal S65536x64 .f32) (i : S65536x64.Idx) :
    Terms.softplusT (F := Ideal) x i = softplus (x i) := by
  unfold Terms.softplusT
  show Scalar.select (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32)
            (-(x i - Ideal.ofBits .f32 0x00000000#32)))))) = _
  rw [Consts.ofBits_zero]
  exact softplus_host (x i)

/-! ## A product plus a bias laid along the rows -/

/-- The host's product plus a bias laid along the rows, at (p, q): `dense` of row p. -/
theorem hostDense_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none x w)
        (broadcastInDim ⟨2, ![M, N]⟩ ![0, 1] h2 (broadcastInDim ⟨2, ![1, N]⟩ ![1] h1 b)) (ix2 p q)
      = dense (row x p) (mat w) (vec b) q := by
  subst hd
  show FloatOps.dotGeneral (DotDims.plain M K N) none .single x w (ix2 p q)
      + broadcastInDim ⟨2, ![M, N]⟩ ![0, 1] h2 (broadcastInDim ⟨2, ![1, N]⟩ ![1] h1 b) (ix2 p q) = _
  rw [Cert.LibDense.plain_dotGeneral_apply, Cert.LibRowBias.bcast_row_apply]
  rfl

/-- A gate pre-activation at (r, q). -/
theorem gateT_apply (x : FVec Ideal S65536x256 .f32) (w : FVec Ideal S256x768 .f32) (b : FVec Ideal S768 .f32)
    (r : Fin 65536) (q : Fin 768) :
    Terms.gateT (F := Ideal) x w b (ix2 r q) = dense (row x r) (mat w) (vec b) q := by
  unfold Terms.gateT
  exact hostDense_apply _ rfl x w b _ _ r q

/-- A head's output layer at (r, q). -/
theorem headT_apply (x : FVec Ideal S65536x256 .f32) (w : FVec Ideal S256x128 .f32) (b : FVec Ideal S128 .f32)
    (r : Fin 65536) (q : Fin 128) :
    Terms.headT (F := Ideal) x w b (ix2 r q) = dense (row x r) (mat w) (vec b) q := by
  unfold Terms.headT
  exact hostDense_apply _ rfl x w b _ _ r q

/-- The prior head's hidden layer at (r, q). -/
theorem priorHidT_apply (bel : FVec Ideal S65536x256 .f32) (w : FVec Ideal S256x256 .f32) (b : FVec Ideal S256 .f32)
    (r : Fin 65536) (q : Fin 256) :
    Terms.priorHidT (F := Ideal) bel w b (ix2 r q) = elu (dense (row bel r) (mat w) (vec b) q) := by
  unfold Terms.priorHidT
  refine (eluT_apply _ (ix2 r q)).trans (congrArg elu ?_)
  exact hostDense_apply _ rfl bel w b _ _ r q

/-! ## Two arrays laid side by side along the second axis -/

section Concat
variable {α : Type} {M n₁ n₂ n : ℕ}

/-- A column of the first array's extent reads the first array. -/
theorem concat2_left (x₁ : (⟨2, ![M, n₁]⟩ : Shape).Idx → α) (x₂ : (⟨2, ![M, n₂]⟩ : Shape).Idx → α)
    (h : Shape.Concatenates [⟨2, ![M, n₁]⟩, ⟨2, ![M, n₂]⟩] ⟨2, ![M, n]⟩ 1) (r : Fin M) (k : Fin n₁) (k' : Fin n)
    (hk : k'.val = k.val) :
    concatenate ⟨2, ![M, n]⟩ 1 [⟨⟨2, ![M, n₁]⟩, x₁⟩, ⟨⟨2, ![M, n₂]⟩, x₂⟩] h (ix2 r k') = x₁ (ix2 r k) :=
  concatenate_pair_apply_left (t := ⟨2, ![M, n]⟩) (s₁ := ⟨2, ![M, n₁]⟩) (s₂ := ⟨2, ![M, n₂]⟩) (1 : Fin 2) x₁ x₂ h
    (ix2 r k') rfl (ix2 r k) (by
      intro b
      match b with
      | ⟨0, _⟩ => rfl
      | ⟨1, _⟩ => exact hk.symm)

/-- A column past the first array's extent reads the second array, the extent less. -/
theorem concat2_right (x₁ : (⟨2, ![M, n₁]⟩ : Shape).Idx → α) (x₂ : (⟨2, ![M, n₂]⟩ : Shape).Idx → α)
    (h : Shape.Concatenates [⟨2, ![M, n₁]⟩, ⟨2, ![M, n₂]⟩] ⟨2, ![M, n]⟩ 1) (r : Fin M) (k : Fin n₂) (k' : Fin n)
    (hk : k'.val = n₁ + k.val) :
    concatenate ⟨2, ![M, n]⟩ 1 [⟨⟨2, ![M, n₁]⟩, x₁⟩, ⟨⟨2, ![M, n₂]⟩, x₂⟩] h (ix2 r k') = x₂ (ix2 r k) :=
  concatenate_pair_apply_right (t := ⟨2, ![M, n]⟩) (s₁ := ⟨2, ![M, n₁]⟩) (s₂ := ⟨2, ![M, n₂]⟩) (1 : Fin 2) x₁ x₂ h
    (ix2 r k') rfl rfl (ix2 r k) (by
      intro b hb
      match b with
      | ⟨0, _⟩ => rfl
      | ⟨1, _⟩ => exact absurd rfl hb) (by
      show k.val + n₁ = k'.val
      omega)

end Concat

/-- The embedding of state and action at (r, q): the contraction over [s | a] is the sum over s's 64 columns plus
    the sum over a's 16. -/
theorem hiddenT_apply (s : FVec Ideal S65536x64 .f32) (a : FVec Ideal S65536x16 .f32) (w : FVec Ideal S80x256 .f32)
    (b : FVec Ideal S256 .f32) (r : Fin 65536) (q : Fin 256) :
    Terms.hiddenT (F := Ideal) s a w b (ix2 r q)
      = hidden (row s r) (row a r) (fun k q => w (ix2 (lo80 k) q)) (fun k q => w (ix2 (hi80 k) q)) (vec b) q := by
  unfold Terms.hiddenT
  refine (eluT_apply _ (ix2 r q)).trans (congrArg elu ?_)
  refine (hostDense_apply _ rfl _ w b _ _ r q).trans ?_
  show (∑ k : Fin 80, concatenate S65536x80 1 [⟨S65536x64, s⟩, ⟨S65536x16, a⟩] _ (ix2 r k) * w (ix2 k q)) + b (ix1 q)
      = ((∑ k : Fin 64, s (ix2 r k) * w (ix2 (lo80 k) q)) + ∑ k : Fin 16, a (ix2 r k) * w (ix2 (hi80 k) q)) + b (ix1 q)
  rw [sum_split80]
  refine congrArg (· + b (ix1 q)) (congrArg₂ (· + ·) ?_ ?_)
  · exact Finset.sum_congr rfl fun k _ => congrArg (· * w (ix2 (lo80 k) q)) (concat2_left s a _ r k (lo80 k) rfl)
  · exact Finset.sum_congr rfl fun k _ => congrArg (· * w (ix2 (hi80 k) q)) (concat2_right s a _ r k (hi80 k) rfl)

/-- The posterior head's hidden layer at (r, q): the contraction over [belief | observation] is the sum over the
    belief's 256 columns plus the sum over the observation's 1024. -/
theorem postHidT_apply (bel : FVec Ideal S65536x256 .f32) (obs : FVec Ideal S65536x1024 .f32) (w : FVec Ideal S1280x256 .f32)
    (b : FVec Ideal S256 .f32) (r : Fin 65536) (q : Fin 256) :
    Terms.postHidT (F := Ideal) bel obs w b (ix2 r q)
      = elu (dense2 (row bel r) (fun k q => w (ix2 (lo1280 k) q)) (row obs r) (fun k q => w (ix2 (hi1280 k) q)) (vec b) q) := by
  unfold Terms.postHidT
  refine (eluT_apply _ (ix2 r q)).trans (congrArg elu ?_)
  refine (hostDense_apply _ rfl _ w b _ _ r q).trans ?_
  show (∑ k : Fin 1280, concatenate S65536x1280 1 [⟨S65536x256, bel⟩, ⟨S65536x1024, obs⟩] _ (ix2 r k) * w (ix2 k q)) + b (ix1 q)
      = ((∑ k : Fin 256, bel (ix2 r k) * w (ix2 (lo1280 k) q)) + ∑ k : Fin 1024, obs (ix2 r k) * w (ix2 (hi1280 k) q))
        + b (ix1 q)
  rw [sum_split1280]
  refine congrArg (· + b (ix1 q)) (congrArg₂ (· + ·) ?_ ?_)
  · exact Finset.sum_congr rfl fun k _ => congrArg (· * w (ix2 (lo1280 k) q)) (concat2_left bel obs _ r k (lo1280 k) rfl)
  · exact Finset.sum_congr rfl fun k _ => congrArg (· * w (ix2 (hi1280 k) q)) (concat2_right bel obs _ r k (hi1280 k) rfl)

/-! ## The recurrent cell and a head's three readings -/

/-- The recurrent cell at (r, q), from the two gate pre-activations' three column blocks. -/
theorem cellT_apply (gi gh : FVec Ideal S65536x768 .f32) (h : FVec Ideal S65536x256 .f32) (r : Fin 65536) (q : Fin 256) :
    Terms.cellT (F := Ideal) gi gh h (ix2 r q) = cell (row gi r) (row gh r) (row h r) q := by
  unfold Terms.cellT
  show (Ideal.ofBits .f32 0x3F800000#32
          - Terms.sigmT (F := Ideal) (addf (extractStridedSlice S65536x256 ![0, 256] gi _)
              (extractStridedSlice S65536x256 ![0, 256] gh _)) (ix2 r q))
        * Ideal.tanh (extractStridedSlice S65536x256 ![0, 512] gi _ (ix2 r q)
            + Terms.sigmT (F := Ideal) (addf (extractStridedSlice S65536x256 ![0, 0] gi _)
                (extractStridedSlice S65536x256 ![0, 0] gh _)) (ix2 r q)
              * extractStridedSlice S65536x256 ![0, 512] gh _ (ix2 r q))
      + Terms.sigmT (F := Ideal) (addf (extractStridedSlice S65536x256 ![0, 256] gi _)
            (extractStridedSlice S65536x256 ![0, 256] gh _)) (ix2 r q) * h (ix2 r q) = _
  rw [sigmT_apply, sigmT_apply, addf_apply, addf_apply,
    slice2_axis1_apply 0 gi _ r q (col0 q) (Nat.zero_add _).symm,
    slice2_axis1_apply 0 gh _ r q (col0 q) (Nat.zero_add _).symm,
    slice2_axis1_apply 256 gi _ r q (col1 q) rfl, slice2_axis1_apply 256 gh _ r q (col1 q) rfl,
    slice2_axis1_apply 512 gi _ r q (col2 q) rfl, slice2_axis1_apply 512 gh _ r q (col2 q) rfl,
    Consts.ofBits_one]
  rfl

/-- A head's mean at (r, q): column q of its first half. -/
theorem meanT_apply (o : FVec Ideal S65536x128 .f32) (r : Fin 65536) (q : Fin 64) :
    Terms.meanT (F := Ideal) o (ix2 r q) = mean (row o r) q := by
  unfold Terms.meanT
  exact slice2_axis1_apply 0 o _ r q (fst64 q) (Nat.zero_add _).symm

/-- A head's deviation at (r, q): softplus of column q of its last half, plus the smallest deviation. -/
theorem stdT_apply (o : FVec Ideal S65536x128 .f32) (r : Fin 65536) (q : Fin 64) :
    Terms.stdT (F := Ideal) o (ix2 r q) = std (row o r) q := by
  unfold Terms.stdT
  show Terms.softplusT (F := Ideal) (extractStridedSlice S65536x64 ![0, 64] o _) (ix2 r q)
      + Ideal.ofBits .f32 0x3727C5AC#32 = _
  rw [softplusT_apply, slice2_axis1_apply 64 o _ r q (snd64 q) rfl]
  rfl

/-- A head's sampled state at (r, q). -/
theorem stateT_apply (o : FVec Ideal S65536x128 .f32) (eps : FVec Ideal S65536x64 .f32) (r : Fin 65536) (q : Fin 64) :
    Terms.stateT (F := Ideal) o eps (ix2 r q) = state (row o r) (row eps r) q := by
  unfold Terms.stateT
  show Terms.meanT (F := Ideal) o (ix2 r q) + Terms.stdT (F := Ideal) o (ix2 r q) * eps (ix2 r q) = _
  rw [meanT_apply, stdT_apply]
  rfl

/-! ## The seven results -/

variable (A : Args)

/-- The new belief at (r, q). -/
theorem beliefT_apply (r : Fin 65536) (q : Fin 256) :
    Terms.beliefT (F := Ideal) A.s A.a A.h A.wsa A.bsa A.wih A.bih A.whh A.bhh (ix2 r q) = A.beliefRow r q := by
  unfold Terms.beliefT
  refine (cellT_apply _ _ A.h r q).trans ?_
  have e1 : row (Terms.gateT (F := Ideal) (Terms.hiddenT A.s A.a A.wsa A.bsa) A.wih A.bih) r
      = dense (hidden (row A.s r) (row A.a r) A.wsaS A.wsaA (vec A.bsa)) (mat A.wih) (vec A.bih) :=
    funext fun j => (gateT_apply _ A.wih A.bih r j).trans
      (congrArg (fun f => dense f (mat A.wih) (vec A.bih) j) (funext fun k => hiddenT_apply A.s A.a A.wsa A.bsa r k))
  have e2 : row (Terms.gateT (F := Ideal) A.h A.whh A.bhh) r = dense (row A.h r) (mat A.whh) (vec A.bhh) :=
    funext fun j => gateT_apply A.h A.whh A.bhh r j
  exact congrArg₂ (fun g g' => cell g g' (row A.h r) q) e1 e2

theorem belief_eq : Terms.beliefT (F := Ideal) A.s A.a A.h A.wsa A.bsa A.wih A.bih A.whh A.bhh = A.outBelief := by
  funext i
  obtain ⟨r, q, rfl⟩ : ∃ (r : Fin 65536) (q : Fin 256), i = ix2 r q := ⟨i 0, i 1, eq_ix2 i⟩
  exact beliefT_apply A r q

/-- The prior head's 128 columns at (r, j), the belief read from the array of beliefs. -/
theorem priorHead_apply (r : Fin 65536) (j : Fin 128) :
    Terms.headT (F := Ideal) (Terms.priorHidT A.outBelief A.wbp A.bbp) A.wsp A.bsp (ix2 r j) = A.priorRow r j := by
  refine (headT_apply _ A.wsp A.bsp r j).trans ?_
  exact congrArg (fun f => dense f (mat A.wsp) (vec A.bsp) j) (funext fun k => priorHidT_apply A.outBelief A.wbp A.bbp r k)

/-- The posterior head's 128 columns at (r, j), the belief read from the array of beliefs. -/
theorem postHead_apply (r : Fin 65536) (j : Fin 128) :
    Terms.headT (F := Ideal) (Terms.postHidT A.outBelief A.obs A.wbq A.bbq) A.wsq A.bsq (ix2 r j) = A.postRow r j := by
  refine (headT_apply _ A.wsq A.bsq r j).trans ?_
  exact congrArg (fun f => dense f (mat A.wsq) (vec A.bsq) j) (funext fun k => postHidT_apply A.outBelief A.obs A.wbq A.bbq r k)

theorem priorState_eq :
    Terms.stateT (F := Ideal) (Terms.headT (Terms.priorHidT A.outBelief A.wbp A.bbp) A.wsp A.bsp) A.e1 = A.outPriorState := by
  funext i
  obtain ⟨r, q, rfl⟩ : ∃ (r : Fin 65536) (q : Fin 64), i = ix2 r q := ⟨i 0, i 1, eq_ix2 i⟩
  refine (stateT_apply _ A.e1 r q).trans ?_
  exact congrArg (fun o => state o (row A.e1 r) q) (funext fun j => priorHead_apply A r j)

theorem priorMean_eq :
    Terms.meanT (F := Ideal) (Terms.headT (Terms.priorHidT A.outBelief A.wbp A.bbp) A.wsp A.bsp) = A.outPriorMean := by
  funext i
  obtain ⟨r, q, rfl⟩ : ∃ (r : Fin 65536) (q : Fin 64), i = ix2 r q := ⟨i 0, i 1, eq_ix2 i⟩
  refine (meanT_apply _ r q).trans ?_
  exact congrArg (fun o => mean o q) (funext fun j => priorHead_apply A r j)

theorem priorStd_eq :
    Terms.stdT (F := Ideal) (Terms.headT (Terms.priorHidT A.outBelief A.wbp A.bbp) A.wsp A.bsp) = A.outPriorStd := by
  funext i
  obtain ⟨r, q, rfl⟩ : ∃ (r : Fin 65536) (q : Fin 64), i = ix2 r q := ⟨i 0, i 1, eq_ix2 i⟩
  refine (stdT_apply _ r q).trans ?_
  exact congrArg (fun o => std o q) (funext fun j => priorHead_apply A r j)

theorem postState_eq :
    Terms.stateT (F := Ideal) (Terms.headT (Terms.postHidT A.outBelief A.obs A.wbq A.bbq) A.wsq A.bsq) A.e2 = A.outPostState := by
  funext i
  obtain ⟨r, q, rfl⟩ : ∃ (r : Fin 65536) (q : Fin 64), i = ix2 r q := ⟨i 0, i 1, eq_ix2 i⟩
  refine (stateT_apply _ A.e2 r q).trans ?_
  exact congrArg (fun o => state o (row A.e2 r) q) (funext fun j => postHead_apply A r j)

theorem postMean_eq :
    Terms.meanT (F := Ideal) (Terms.headT (Terms.postHidT A.outBelief A.obs A.wbq A.bbq) A.wsq A.bsq) = A.outPostMean := by
  funext i
  obtain ⟨r, q, rfl⟩ : ∃ (r : Fin 65536) (q : Fin 64), i = ix2 r q := ⟨i 0, i 1, eq_ix2 i⟩
  refine (meanT_apply _ r q).trans ?_
  exact congrArg (fun o => mean o q) (funext fun j => postHead_apply A r j)

theorem postStd_eq :
    Terms.stdT (F := Ideal) (Terms.headT (Terms.postHidT A.outBelief A.obs A.wbq A.bbq) A.wsq A.bsq) = A.outPostStd := by
  funext i
  obtain ⟨r, q, rfl⟩ : ∃ (r : Fin 65536) (q : Fin 64), i = ix2 r q := ⟨i 0, i 1, eq_ix2 i⟩
  refine (stdT_apply _ r q).trans ?_
  exact congrArg (fun o => std o q) (funext fun j => postHead_apply A r j)

end Cert.ReferenceIdeal.Read

end
-- ==== Proof.lean ====
/-
  The proof of `Cert.Claim`: the recurrent state-space step (an embedding of state and action, a recurrent cell, a
  prior head and a posterior head) computed by a kernel over blocks of 1024 rows, against its plain reference.

  On the extended reals both programs compute, for every row r of the batch, the same seven rows (Proof/Spec.lean,
  Proof/Goal.lean):
    belief r       = cell (dense (elu (s r · Wₛ + a r · Wₐ + b)) W_ih b_ih) (dense (h r) W_hh b_hh) (h r)
    a head's 128 columns = dense (elu (dense …)) …; its mean, its deviation softplus (·) + 10⁻⁵ (as a float word), and
    state = mean + deviation · noise r.
  The kernel contracts the embedding's weight as its first 64 rows against the state and its last 16 rows against the
  action, and the posterior embedding's as its first 256 rows against the belief and its last 1024 against the
  observation; the reference contracts the whole weight against the two inputs laid side by side. A sum over 80 (1280)
  terms is the sum over its first 64 (256) plus the sum over its last 16 (1024): true of all extended reals, so the
  precondition (finite inputs) is never opened. The kernel's `exp x - 1` is the reference's `1 · expm1 x'`, its
  logistic function the reference's `1 / (1 + e^(-x))`, its `0 - |x|` the reference's `-|x|`; casts to a narrower
  float format are the identity here.

  Kernel side: Proof/KerOps.lean, KerPay.lean (the body's values at one entry of a block), KerBlocks.lean (point t's
  blocks are rows 1024 t … 1024 t + 1023 of the arguments), KerValue.lean (the 64 blocks tile each result array).
  Reference side: Proof/RefTerms.lean (its stages as whole-array terms), RefOps.lean … RefRun.lean (its run),
  RefRead.lean (those terms at an entry). The kernel's idealization rewrote nothing, so `preserves` is `True`.
-/
import proofs.«120973_j24670292148908_2_alg».proof.Defs
import proofs.«120973_j24670292148908_2_alg».proof.Proof.Gen.Kernel
import proofs.«120973_j24670292148908_2_alg».proof.Proof.Gen.KernelIdeal
import proofs.«120973_j24670292148908_2_alg».proof.Proof.Gen.ReferenceIdeal
import proofs.«120973_j24670292148908_2_alg».proof.Proof.Gen.Pre_finite_inputs
import proofs.«120973_j24670292148908_2_alg».proof.Proof.FrameBitsP
import proofs.«120973_j24670292148908_2_alg».proof.Proof.FrameIdealP
import proofs.«120973_j24670292148908_2_alg».proof.Proof.KerValue
import proofs.«120973_j24670292148908_2_alg».proof.Proof.RefRun
import proofs.«120973_j24670292148908_2_alg».proof.Proof.RefRead
import Idealize.ShloMosaic.Adequacy
import Idealize.ShloMosaic.Init

noncomputable section

namespace Cert.Proof

open Idealize.ShloMosaic Idealize.SL.Sem Cert.Rssm

/-- The twenty argument arrays of the reference's memory on core c. -/
def refArgs (m' : (ℓ : Loc Cert.ReferenceIdeal.nD Cert.ReferenceIdeal.τ Cert.ReferenceIdeal.sig) → Buf (Elt Ideal) ℓ)
    (c : Dev Cert.ReferenceIdeal.nD) : Args where
  s := m' ((c.tc : Thread Cert.ReferenceIdeal.nD Cert.ReferenceIdeal.τ).loc Cert.ReferenceIdeal.main_arg0)
  a := m' ((c.tc : Thread Cert.ReferenceIdeal.nD Cert.ReferenceIdeal.τ).loc Cert.ReferenceIdeal.main_arg1)
  h := m' ((c.tc : Thread Cert.ReferenceIdeal.nD Cert.ReferenceIdeal.τ).loc Cert.ReferenceIdeal.main_arg2)
  obs := m' ((c.tc : Thread Cert.ReferenceIdeal.nD Cert.ReferenceIdeal.τ).loc Cert.ReferenceIdeal.main_arg3)
  e1 := m' ((c.tc : Thread Cert.ReferenceIdeal.nD Cert.ReferenceIdeal.τ).loc Cert.ReferenceIdeal.main_arg4)
  e2 := m' ((c.tc : Thread Cert.ReferenceIdeal.nD Cert.ReferenceIdeal.τ).loc Cert.ReferenceIdeal.main_arg5)
  wsa := m' ((c.tc : Thread Cert.ReferenceIdeal.nD Cert.ReferenceIdeal.τ).loc Cert.ReferenceIdeal.main_arg6)
  bsa := m' ((c.tc : Thread Cert.ReferenceIdeal.nD Cert.ReferenceIdeal.τ).loc Cert.ReferenceIdeal.main_arg7)
  wih := m' ((c.tc : Thread Cert.ReferenceIdeal.nD Cert.ReferenceIdeal.τ).loc Cert.ReferenceIdeal.main_arg8)
  bih := m' ((c.tc : Thread Cert.ReferenceIdeal.nD Cert.ReferenceIdeal.τ).loc Cert.ReferenceIdeal.main_arg9)
  whh := m' ((c.tc : Thread Cert.ReferenceIdeal.nD Cert.ReferenceIdeal.τ).loc Cert.ReferenceIdeal.main_arg10)
  bhh := m' ((c.tc : Thread Cert.ReferenceIdeal.nD Cert.ReferenceIdeal.τ).loc Cert.ReferenceIdeal.main_arg11)
  wbp := m' ((c.tc : Thread Cert.ReferenceIdeal.nD Cert.ReferenceIdeal.τ).loc Cert.ReferenceIdeal.main_arg12)
  bbp := m' ((c.tc : Thread Cert.ReferenceIdeal.nD Cert.ReferenceIdeal.τ).loc Cert.ReferenceIdeal.main_arg13)
  wsp := m' ((c.tc : Thread Cert.ReferenceIdeal.nD Cert.ReferenceIdeal.τ).loc Cert.ReferenceIdeal.main_arg14)
  bsp := m' ((c.tc : Thread Cert.ReferenceIdeal.nD Cert.ReferenceIdeal.τ).loc Cert.ReferenceIdeal.main_arg15)
  wbq := m' ((c.tc : Thread Cert.ReferenceIdeal.nD Cert.ReferenceIdeal.τ).loc Cert.ReferenceIdeal.main_arg16)
  bbq := m' ((c.tc : Thread Cert.ReferenceIdeal.nD Cert.ReferenceIdeal.τ).loc Cert.ReferenceIdeal.main_arg17)
  wsq := m' ((c.tc : Thread Cert.ReferenceIdeal.nD Cert.ReferenceIdeal.τ).loc Cert.ReferenceIdeal.main_arg18)
  bsq := m' ((c.tc : Thread Cert.ReferenceIdeal.nD Cert.ReferenceIdeal.τ).loc Cert.ReferenceIdeal.main_arg19)

/-- The word-level kernel runs and leaves its arguments unchanged. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- So does the reference: its run with the results dropped. -/
theorem frame_ri : Cert.frame_ReferenceIdeal := fun m ρ _ =>
  (θ_run Cert.ReferenceIdeal.defs _ _).mono (fun _ h c => (h c).2.2.2.2.2.2.2)
    (Cert.ReferenceIdeal.RefRun.run (F := Ideal) m ρ)

/-- From memories that agree on the arguments, both programs end with each of the seven result arrays at the same
    function of the arguments: row r of the step, for every row. -/
theorem algebraic : Cert.algebraic_KernelIdeal_ReferenceIdeal := by
  intro m ρ m' ρ' _ hagree
  refine ⟨fun c => (Cert.KernelIdeal.Val.args m c).outBelief, fun c => (Cert.KernelIdeal.Val.args m c).outPriorState,
    fun c => (Cert.KernelIdeal.Val.args m c).outPriorMean, fun c => (Cert.KernelIdeal.Val.args m c).outPriorStd,
    fun c => (Cert.KernelIdeal.Val.args m c).outPostState, fun c => (Cert.KernelIdeal.Val.args m c).outPostMean,
    fun c => (Cert.KernelIdeal.Val.args m c).outPostStd, Cert.KernelIdeal.Val.run m ρ, ?_⟩
  refine (θ_run Cert.ReferenceIdeal.defs _ _).mono (fun r h c => ?_) (Cert.ReferenceIdeal.RefRun.run (F := Ideal) m' ρ')
  obtain ⟨h0, h1, h2, h3, h4, h5, h6, hk⟩ := h c
  have e : refArgs m' c = Cert.KernelIdeal.Val.args m c := by
    obtain ⟨g0, g1, g2, g3, g4, g5, g6, g7, g8, g9, g10, g11, g12, g13, g14, g15, g16, g17, g18, g19⟩ := hagree c
    unfold refArgs Cert.KernelIdeal.Val.args
    rw [g0, g1, g2, g3, g4, g5, g6, g7, g8, g9, g10, g11, g12, g13, g14, g15, g16, g17, g18, g19]
  have hb := Cert.ReferenceIdeal.Read.belief_eq (refArgs m' c)
  refine ⟨?_, ?_, ?_, ?_, ?_, ?_, ?_, hk⟩
  · beta_reduce; rw [← e, ← hb]; exact h0
  · beta_reduce; rw [← e, ← Cert.ReferenceIdeal.Read.priorState_eq (refArgs m' c), ← hb]; exact h1
  · beta_reduce; rw [← e, ← Cert.ReferenceIdeal.Read.priorMean_eq (refArgs m' c), ← hb]; exact h2
  · beta_reduce; rw [← e, ← Cert.ReferenceIdeal.Read.priorStd_eq (refArgs m' c), ← hb]; exact h3
  · beta_reduce; rw [← e, ← Cert.ReferenceIdeal.Read.postState_eq (refArgs m' c), ← hb]; exact h4
  · beta_reduce; rw [← e, ← Cert.ReferenceIdeal.Read.postMean_eq (refArgs m' c), ← hb]; exact h5
  · beta_reduce; rw [← e, ← Cert.ReferenceIdeal.Read.postStd_eq (refArgs m' c), ← hb]; exact h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
